-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2x800000 : Shape := ⟨2, ![2, 800000]⟩
abbrev S2x400000 : Shape := ⟨2, ![2, 400000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg24 : FVec F S64x128 .f32) (main_arg25 : FVec F S64 .f32) (main_arg26 : FVec F S1x64 .f32) (main_arg27 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x128 .f32 := Host.absf main_arg24
  let main_cst_40 : FVec F S_ .f32 := constant S_ .f32 0x7F800000#32
  let main_v105 : FVec F S64x128 .f32 := broadcastInDim S64x128 ![] bcast_S_S64x128 main_cst_40
  let main_v106 : IVec S64x128 1 := cmpf .olt main_v104 main_v105
  let main_c_41 : IVec S_ 1 := constantI S_ 1 1#1
  let main_v107 : IVec S_ 1 := (fun x v => Host.reduce IntOp.andi x v reducesTo_S64x128_S_d0_1 h_S_) main_v106 main_c_41
  let main_v108 : IVec S_ 1 := andi main_v103 main_v107
  let main_v109 : FVec F S64 .f32 := Host.absf main_arg25
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S1x64 .f32 := Host.absf main_arg26
  let main_cst_44 : FVec F S_ .f32 := constant S_ .f32 0x7F800000#32
  let main_v115 : FVec F S1x64 .f32 := broadcastInDim S1x64 ![] bcast_S_S1x64 main_cst_44
  let main_v116 : IVec S1x64 1 := cmpf .olt main_v114 main_v115
  let main_c_45 : IVec S_ 1 := constantI S_ 1 1#1
  let main_v117 : IVec S_ 1 := (fun x v => Host.reduce IntOp.andi x v reducesTo_S1x64_S_d0_1 h_S_) main_v116 main_c_45
  let main_v118 : IVec S_ 1 := andi main_v113 main_v117
  let main_v119 : FVec F S1 .f32 := Host.absf main_arg27
  fn_part7 (F := F) main_v118 main_v119

def fn_part5 {F : FTy → Type} [FloatOps F] (main_arg21 : FVec F S128x128 .f32) (main_arg22 : FVec F S64x128 .f32) (main_arg23 : FVec F S64 .f32) (main_arg24 : FVec F S64x128 .f32) (main_arg25 : FVec F S64 .f32) (main_arg26 : FVec F S1x64 .f32) (main_arg27 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg21
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S64x128 .f32 := Host.absf main_arg22
  let main_cst_36 : FVec F S_ .f32 := constant S_ .f32 0x7F800000#32
  let main_v95 : FVec F S64x128 .f32 := broadcastInDim S64x128 ![] bcast_S_S64x128 main_cst_36
  let main_v96 : IVec S64x128 1 := cmpf .olt main_v94 main_v95
  let main_c_37 : IVec S_ 1 := constantI S_ 1 1#1
  let main_v97 : IVec S_ 1 := (fun x v => Host.reduce IntOp.andi x v reducesTo_S64x128_S_d0_1 h_S_) main_v96 main_c_37
  let main_v98 : IVec S_ 1 := andi main_v93 main_v97
  let main_v99 : FVec F S64 .f32 := Host.absf main_arg23
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg24 main_arg25 main_arg26 main_arg27 main_v98 main_v101 main_c_39

def fn_part4 {F : FTy → Type} [FloatOps F] (main_arg17 : FVec F S128 .f32) (main_arg18 : FVec F S128x128 .f32) (main_arg19 : FVec F S128x128 .f32) (main_arg20 : FVec F S128 .f32) (main_arg21 : FVec F S128x128 .f32) (main_arg22 : FVec F S64x128 .f32) (main_arg23 : FVec F S64 .f32) (main_arg24 : FVec F S64x128 .f32) (main_arg25 : FVec F S64 .f32) (main_arg26 : FVec F S1x64 .f32) (main_arg27 : FVec F S1 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg18
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg19
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg20
  let main_cst_32 : FVec F S_ .f32 := constant S_ .f32 0x7F800000#32
  fn_part5 (F := F) main_arg21 main_arg22 main_arg23 main_arg24 main_arg25 main_arg26 main_arg27 main_v83 main_v84 main_cst_32

def fn_part3 {F : FTy → Type} [FloatOps F] (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_arg22 : FVec F S64x128 .f32) (main_arg23 : FVec F S64 .f32) (main_arg24 : FVec F S64x128 .f32) (main_arg25 : FVec F S64 .f32) (main_arg26 : FVec F S1x64 .f32) (main_arg27 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg17 main_arg18 main_arg19 main_arg20 main_arg21 main_arg22 main_arg23 main_arg24 main_arg25 main_arg26 main_arg27 main_v63 main_v67

def fn_part2 {F : FTy → Type} [FloatOps F] (main_arg10 : FVec F S128x128 .f32) (main_arg11 : FVec F S64x128 .f32) (main_arg12 : FVec F S64 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_arg22 : FVec F S64x128 .f32) (main_arg23 : FVec F S64 .f32) (main_arg24 : FVec F S64x128 .f32) (main_arg25 : FVec F S64 .f32) (main_arg26 : FVec F S1x64 .f32) (main_arg27 : FVec F S1 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S64x128 .f32 := Host.absf main_arg11
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg7 : FVec F S128x128 .f32) (main_arg8 : FVec F S128x128 .f32) (main_arg9 : FVec F S128 .f32) (main_arg10 : FVec F S128x128 .f32) (main_arg11 : FVec F S64x128 .f32) (main_arg12 : FVec F S64 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_arg22 : FVec F S64x128 .f32) (main_arg23 : FVec F S64 .f32) (main_arg24 : FVec F S64x128 .f32) (main_arg25 : FVec F S64 .f32) (main_arg26 : FVec F S1x64 .f32) (main_arg27 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S100000x128 .f32) (main_arg1 : FVec F S50000x128 .f32) (main_arg2 : IVec S2x800000 32) (main_arg3 : IVec S2x800000 32) (main_arg4 : IVec S2x400000 32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S64x128 .f32) (main_arg12 : FVec F S64 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_arg22 : FVec F S64x128 .f32) (main_arg23 : FVec F S64 .f32) (main_arg24 : FVec F S64x128 .f32) (main_arg25 : FVec F S64 .f32) (main_arg26 : FVec F S1x64 .f32) (main_arg27 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S100000x128 : Shape := ⟨2, ![100000, 128]⟩
abbrev S50000x128 : Shape := ⟨2, ![50000, 128]⟩
abbrev S2x800000 : Shape := ⟨2, ![2, 800000]⟩
abbrev S2x400000 : Shape := ⟨2, ![2, 400000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S50000 : Shape := ⟨1, ![50000]⟩
abbrev S50000x1 : Shape := ⟨2, ![50000, 1]⟩
abbrev S5000x128 : Shape := ⟨2, ![5000, 128]⟩
abbrev S1x128 : Shape := ⟨2, ![1, 128]⟩
abbrev S128x64 : Shape := ⟨2, ![128, 64]⟩
abbrev S100000x64 : Shape := ⟨2, ![100000, 64]⟩
abbrev S5000x64 : Shape := ⟨2, ![5000, 64]⟩
abbrev S50000x64 : Shape := ⟨2, ![50000, 64]⟩
abbrev S1x400000 : Shape := ⟨2, ![1, 400000]⟩
abbrev S400000 : Shape := ⟨1, ![400000]⟩
abbrev S400000x1 : Shape := ⟨2, ![400000, 1]⟩
abbrev S400000x64 : Shape := ⟨2, ![400000, 64]⟩
abbrev S64x64 : Shape := ⟨2, ![64, 64]⟩
abbrev S64x1 : Shape := ⟨2, ![64, 1]⟩
abbrev S5000x1 : Shape := ⟨2, ![5000, 1]⟩
abbrev S1x1 : Shape := ⟨2, ![1, 1]⟩

abbrev nBuf : Space → Nat
  | .hbm => 183
  | .vmem => 68
  | .smem => 0
  | _ => 0

abbrev hbmTy0_0 (i : Nat) : BufTy := match i % 128 with
  | 0 => ⟨S100000x128, .f32⟩
  | 1 => ⟨S50000x128, .f32⟩
  | 2 => ⟨S2x800000, .i32⟩
  | 3 => ⟨S2x800000, .i32⟩
  | 4 => ⟨S2x400000, .i32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S64x128, .f32⟩
  | 12 => ⟨S64, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S128x128, .f32⟩
  | 20 => ⟨S128, .f32⟩
  | 21 => ⟨S128x128, .f32⟩
  | 22 => ⟨S64x128, .f32⟩
  | 23 => ⟨S64, .f32⟩
  | 24 => ⟨S64x128, .f32⟩
  | 25 => ⟨S64, .f32⟩
  | 26 => ⟨S1x64, .f32⟩
  | 27 => ⟨S1, .f32⟩
  | 28 => ⟨S1x800000, .i32⟩
  | 29 => ⟨S800000, .i32⟩
  | 30 => ⟨S1x800000, .i32⟩
  | 31 => ⟨S800000, .i32⟩
  | 32 => ⟨S1x800000, .i32⟩
  | 33 => ⟨S800000, .i32⟩
  | 34 => ⟨S1x800000, .i32⟩
  | 35 => ⟨S800000, .i32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S100000x128, .f32⟩
  | 47 => ⟨S800000x1, .i32⟩
  | 48 => ⟨S100000x128, .f32⟩
  | 49 => ⟨S_, .f32⟩
  | 50 => ⟨S800000, .f32⟩
  | 51 => ⟨S_, .f32⟩
  | 52 => ⟨S100000, .f32⟩
  | 53 => ⟨S800000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x128, .f32⟩
  | 60 => ⟨S100000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S128x128, .f32⟩
  | 87 => ⟨S128x128, .f32⟩
  | 88 => ⟨S100000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S_, .f32⟩
  | 99 => ⟨S100000x128, .f32⟩
  | 100 => ⟨S800000x1, .i32⟩
  | 101 => ⟨S100000x128, .f32⟩
  | 102 => ⟨S_, .f32⟩
  | 103 => ⟨S800000, .f32⟩
  | 104 => ⟨S_, .f32⟩
  | 105 => ⟨S100000, .f32⟩
  | 106 => ⟨S800000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x128, .f32⟩
  | 113 => ⟨S100000x128, .f32⟩
  | 114 => ⟨S128x128, .f32⟩
  | 115 => ⟨S128x128, .f32⟩
  | 116 => ⟨S100000x128, .f32⟩
  | 117 => ⟨S128x64, .f32⟩
  | 118 => ⟨S100000x64, .f32⟩
  | 119 => ⟨S128x128, .f32⟩
  | 120 => ⟨S128x128, .f32⟩
  | 121 => ⟨S100000x128, .f32⟩
  | 122 => ⟨S128x128, .f32⟩
  | 123 => ⟨S128x128, .f32⟩
  | 124 => ⟨S50000x128, .f32⟩
  | 125 => ⟨S_, .i32⟩
  | 126 => ⟨S800000, .i32⟩
  | 127 => ⟨S800000, .i1⟩
  | _ => ⟨S100000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S50000x1, .f32⟩
  | 20 => ⟨S50000x128, .f32⟩
  | 21 => ⟨S50000x128, .f32⟩
  | 22 => ⟨S128x128, .f32⟩
  | 23 => ⟨S128x128, .f32⟩
  | 24 => ⟨S50000x128, .f32⟩
  | 25 => ⟨S128x64, .f32⟩
  | 26 => ⟨S50000x64, .f32⟩
  | 27 => ⟨S1x400000, .i32⟩
  | 28 => ⟨S400000, .i32⟩
  | 29 => ⟨S1x400000, .i32⟩
  | 30 => ⟨S400000, .i32⟩
  | 31 => ⟨S_, .i32⟩
  | 32 => ⟨S400000, .i32⟩
  | 33 => ⟨S400000, .i1⟩
  | 34 => ⟨S_, .i32⟩
  | 35 => ⟨S400000, .i32⟩
  | 36 => ⟨S400000, .i32⟩
  | 37 => ⟨S400000, .i32⟩
  | 38 => ⟨S400000x1, .i32⟩
  | 39 => ⟨S400000x64, .f32⟩
  | 40 => ⟨S_, .i32⟩
  | 41 => ⟨S400000, .i32⟩
  | 42 => ⟨S400000, .i1⟩
  | 43 => ⟨S_, .i32⟩
  | 44 => ⟨S400000, .i32⟩
  | 45 => ⟨S400000, .i32⟩
  | 46 => ⟨S400000, .i32⟩
  | 47 => ⟨S400000x1, .i32⟩
  | 48 => ⟨S400000x64, .f32⟩
  | 49 => ⟨S64x64, .f32⟩
  | 50 => ⟨S64x64, .f32⟩
  | 51 => ⟨S64x64, .f32⟩
  | 52 => ⟨S64x64, .f32⟩
  | 53 => ⟨S64x1, .f32⟩
  | 54 => ⟨S400000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x64, .f32⟩
  | .local _ .vmem, ⟨21, _⟩ => ⟨S64, .f32⟩
  | .local _ .vmem, ⟨22, _⟩ => ⟨S5000x64, .f32⟩
  | .local _ .vmem, ⟨23, _⟩ => ⟨S5000x64, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S128x128, .f32⟩
  | .local _ .vmem, ⟨38, _⟩ => ⟨S128x128, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S128x128, .f32⟩
  | .local _ .vmem, ⟨48, _⟩ => ⟨S128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S128x64, .f32⟩
  | .local _ .vmem, ⟨54, _⟩ => ⟨S64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S64x64, .f32⟩
  | .local _ .vmem, ⟨62, _⟩ => ⟨S64x64, .f32⟩
  | .local _ .vmem, ⟨63, _⟩ => ⟨S64, .f32⟩
  | .local _ .vmem, ⟨64, _⟩ => ⟨S64x1, .f32⟩
  | .local _ .vmem, ⟨65, _⟩ => ⟨S1, .f32⟩
  | .local _ .vmem, ⟨66, _⟩ => ⟨S5000x1, .f32⟩
  | .local _ .vmem, ⟨67, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c : Ref sig .tc := ⟨.hbm, 36, rfl⟩
abbrev main_v8 : Ref sig .tc := ⟨.hbm, 37, rfl⟩
abbrev main_v9 : Ref sig .tc := ⟨.hbm, 38, rfl⟩
abbrev main_c_0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_1 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_3 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_c_4 : Ref sig .tc := ⟨.hbm, 61, rfl⟩
abbrev main_v27 : Ref sig .tc := ⟨.hbm, 62, rfl⟩
abbrev main_v28 : Ref sig .tc := ⟨.hbm, 63, rfl⟩
abbrev main_c_5 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_6 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_7 : Ref sig .tc := ⟨.hbm, 74, rfl⟩
abbrev main_v37 : Ref sig .tc := ⟨.hbm, 75, rfl⟩
abbrev main_cst_8 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_9 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_c_10 : Ref sig .tc := ⟨.hbm, 89, rfl⟩
abbrev main_v49 : Ref sig .tc := ⟨.hbm, 90, rfl⟩
abbrev main_v50 : Ref sig .tc := ⟨.hbm, 91, rfl⟩
abbrev main_c_11 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_12 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_13 : Ref sig .tc := ⟨.hbm, 102, rfl⟩
abbrev main_v59 : Ref sig .tc := ⟨.hbm, 103, rfl⟩
abbrev main_cst_14 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_cst_15 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_c_16 : Ref sig .tc := ⟨.hbm, 125, rfl⟩
abbrev main_v79 : Ref sig .tc := ⟨.hbm, 126, rfl⟩
abbrev main_v80 : Ref sig .tc := ⟨.hbm, 127, rfl⟩
abbrev main_c_17 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_18 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_19 : Ref sig .tc := ⟨.hbm, 138, rfl⟩
abbrev main_v89 : Ref sig .tc := ⟨.hbm, 139, rfl⟩
abbrev main_cst_20 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_21 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_c_22 : Ref sig .tc := ⟨.hbm, 159, rfl⟩
abbrev main_v107 : Ref sig .tc := ⟨.hbm, 160, rfl⟩
abbrev main_v108 : Ref sig .tc := ⟨.hbm, 161, rfl⟩
abbrev main_c_23 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_c_24 : Ref sig .tc := ⟨.hbm, 168, rfl⟩
abbrev main_v114 : Ref sig .tc := ⟨.hbm, 169, rfl⟩
abbrev main_v115 : Ref sig .tc := ⟨.hbm, 170, rfl⟩
abbrev main_c_25 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg3_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg4_0 : Ref sig .tc := ⟨.vmem, 63, rfl⟩
abbrev cc7_stg5_0 : Ref sig .tc := ⟨.vmem, 64, rfl⟩
abbrev cc7_stg6_0 : Ref sig .tc := ⟨.vmem, 65, rfl⟩
abbrev cc7_stg7_0 : Ref sig .tc := ⟨.vmem, 66, rfl⟩
abbrev cc7_stg7_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc6_sem0_0 : DmaSem sig := 51
abbrev cc6_sem0_1 : DmaSem sig := 52
abbrev cc6_sem1_0 : DmaSem sig := 53
abbrev cc6_sem2_0 : DmaSem sig := 54
abbrev cc6_sem3_0 : DmaSem sig := 55
abbrev cc6_sem3_1 : DmaSem sig := 56
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc7_sem3_0 : DmaSem sig := 62
abbrev cc7_sem4_0 : DmaSem sig := 63
abbrev cc7_sem5_0 : DmaSem sig := 64
abbrev cc7_sem6_0 : DmaSem sig := 65
abbrev cc7_sem7_0 : DmaSem sig := 66
abbrev cc7_sem7_1 : DmaSem sig := 67

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![80], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x1 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  slices_S64x128_S64x64_0_0 : S64x128.Slices ![0, 0] S64x64
  slices_S64x128_S64x64_0_64 : S64x128.Slices ![0, 64] S64x64
  transposes_S64x64_S64x64_1_0 : S64x64.Transposes [1, 0] S64x64
  transposes_S1x64_S64x1_1_0 : S1x64.Transposes [1, 0] S64x1
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S400000x1_S400000x64_1_0_n_n_0_1_164_wf : GatherDims.WF S50000x64 S400000x1 S400000x64 [1] [0] [] [0] [] 1 ![1, 64]
  gather_S100000x64_S400000x1_S400000x64_1_0_n_n_0_1_164_wf : GatherDims.WF S100000x64 S400000x1 S400000x64 [1] [0] [] [0] [] 1 ![1, 64]
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64.size a ≤ S64.size a
  hwx6_2 : ∀ i : grid6.Coords, EltTy.bits .f32 = 32 ∨ (Rect.block (s := S64) S64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S400000x64.size a
  hwx7_0 : ∀ i : grid7.Coords, EltTy.bits .f32 = 32 ∨ (Rect.block (s := S400000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S400000x64.size a
  hwx7_1 : ∀ i : grid7.Coords, EltTy.bits .f32 = 32 ∨ (Rect.block (s := S400000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64.size a ≤ S64.size a
  hwx7_4 : ∀ i : grid7.Coords, EltTy.bits .f32 = 32 ∨ (Rect.block (s := S64) S64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x1.size a ≤ S64x1.size a
  hwx7_5 : ∀ i : grid7.Coords, EltTy.bits .f32 = 32 ∨ (Rect.block (s := S64x1) S64x1.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1.size a ≤ S1.size a
  hwx7_6 : ∀ i : grid7.Coords, EltTy.bits .f32 = 32 ∨ (Rect.block (s := S1) S1.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x1.size a ≤ S400000x1.size a
  hwx7_7 : ∀ i : grid7.Coords, EltTy.bits .f32 = 32 ∨ (Rect.block (s := S400000x1) S5000x1.size (cc7_transform_7 i) (hinb7_7 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v67) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v68) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v70) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v26) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v45) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v76) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v97) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v98) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg20) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v100) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v100) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v101) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg23) S64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v102) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v113) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v120) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v123) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v124) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg25) S64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v125) S64x1.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_arg27) S1.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v126) S5000x1.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2x800000 : Shape := ⟨2, ![2, 800000]⟩
abbrev S2x400000 : Shape := ⟨2, ![2, 400000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S50000 : Shape := ⟨1, ![50000]⟩
abbrev S50000x1 : Shape := ⟨2, ![50000, 1]⟩
abbrev S50000x64 : Shape := ⟨2, ![50000, 64]⟩
abbrev S1x400000 : Shape := ⟨2, ![1, 400000]⟩
abbrev S400000 : Shape := ⟨1, ![400000]⟩
abbrev S400000x1 : Shape := ⟨2, ![400000, 1]⟩
abbrev S400000x64 : Shape := ⟨2, ![400000, 64]⟩
abbrev S400000x128 : Shape := ⟨2, ![400000, 128]⟩
abbrev S64x1 : Shape := ⟨2, ![64, 1]⟩
abbrev S1x1 : Shape := ⟨2, ![1, 1]⟩

abbrev nBuf : Space → Nat
  | .hbm => 262
  | .vmem => 0
  | .smem => 0
  | _ => 0

abbrev hbmTy0_0 (i : Nat) : BufTy := match i % 128 with
  | 0 => ⟨S100000x128, .f32⟩
  | 1 => ⟨S50000x128, .f32⟩
  | 2 => ⟨S2x800000, .i32⟩
  | 3 => ⟨S2x800000, .i32⟩
  | 4 => ⟨S2x400000, .i32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S64x128, .f32⟩
  | 12 => ⟨S64, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S128x128, .f32⟩
  | 20 => ⟨S128, .f32⟩
  | 21 => ⟨S128x128, .f32⟩
  | 22 => ⟨S64x128, .f32⟩
  | 23 => ⟨S64, .f32⟩
  | 24 => ⟨S64x128, .f32⟩
  | 25 => ⟨S64, .f32⟩
  | 26 => ⟨S1x64, .f32⟩
  | 27 => ⟨S1, .f32⟩
  | 28 => ⟨S1x800000, .i32⟩
  | 29 => ⟨S800000, .i32⟩
  | 30 => ⟨S1x800000, .i32⟩
  | 31 => ⟨S800000, .i32⟩
  | 32 => ⟨S1x800000, .i32⟩
  | 33 => ⟨S800000, .i32⟩
  | 34 => ⟨S1x800000, .i32⟩
  | 35 => ⟨S800000, .i32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S100000x128, .f32⟩
  | 47 => ⟨S800000x1, .i32⟩
  | 48 => ⟨S100000x128, .f32⟩
  | 49 => ⟨S_, .f32⟩
  | 50 => ⟨S800000, .f32⟩
  | 51 => ⟨S_, .f32⟩
  | 52 => ⟨S100000, .f32⟩
  | 53 => ⟨S800000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x128, .f32⟩
  | 60 => ⟨S100000x128, .f32⟩
  | 61 => ⟨S128x128, .f32⟩
  | 62 => ⟨S100000x128, .f32⟩
  | 63 => ⟨S1x128, .f32⟩
  | 64 => ⟨S100000x128, .f32⟩
  | 65 => ⟨S100000x128, .f32⟩
  | 66 => ⟨S128x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S_, .f32⟩
  | 82 => ⟨S100000x128, .f32⟩
  | 83 => ⟨S800000x1, .i32⟩
  | 84 => ⟨S100000x128, .f32⟩
  | 85 => ⟨S_, .f32⟩
  | 86 => ⟨S800000, .f32⟩
  | 87 => ⟨S_, .f32⟩
  | 88 => ⟨S100000, .f32⟩
  | 89 => ⟨S800000x1, .i32⟩
  | 90 => ⟨S100000, .f32⟩
  | 91 => ⟨S_, .f32⟩
  | 92 => ⟨S100000, .f32⟩
  | 93 => ⟨S100000, .f32⟩
  | 94 => ⟨S100000x1, .f32⟩
  | 95 => ⟨S100000x128, .f32⟩
  | 96 => ⟨S100000x128, .f32⟩
  | 97 => ⟨S128x128, .f32⟩
  | 98 => ⟨S100000x128, .f32⟩
  | 99 => ⟨S1x128, .f32⟩
  | 100 => ⟨S100000x128, .f32⟩
  | 101 => ⟨S100000x128, .f32⟩
  | 102 => ⟨S128x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S128x64, .f32⟩
  | 109 => ⟨S100000x64, .f32⟩
  | 110 => ⟨S1x64, .f32⟩
  | 111 => ⟨S100000x64, .f32⟩
  | 112 => ⟨S100000x64, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .f32⟩
  | 122 => ⟨S_, .f32⟩
  | 123 => ⟨S100000x128, .f32⟩
  | 124 => ⟨S800000x1, .i32⟩
  | 125 => ⟨S100000x128, .f32⟩
  | 126 => ⟨S_, .f32⟩
  | 127 => ⟨S800000, .f32⟩
  | _ => ⟨S100000x128, .f32⟩

abbrev hbmTy0_1 (i : Nat) : BufTy := match i % 128 with
  | 0 => ⟨S_, .f32⟩
  | 1 => ⟨S100000, .f32⟩
  | 2 => ⟨S800000x1, .i32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x128, .f32⟩
  | 9 => ⟨S100000x128, .f32⟩
  | 10 => ⟨S128x128, .f32⟩
  | 11 => ⟨S100000x128, .f32⟩
  | 12 => ⟨S1x128, .f32⟩
  | 13 => ⟨S100000x128, .f32⟩
  | 14 => ⟨S100000x128, .f32⟩
  | 15 => ⟨S128x128, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S_, .f32⟩
  | 35 => ⟨S800000, .f32⟩
  | 36 => ⟨S_, .f32⟩
  | 37 => ⟨S50000, .f32⟩
  | 38 => ⟨S800000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S128x128, .f32⟩
  | 47 => ⟨S50000x128, .f32⟩
  | 48 => ⟨S1x128, .f32⟩
  | 49 => ⟨S50000x128, .f32⟩
  | 50 => ⟨S50000x128, .f32⟩
  | 51 => ⟨S128x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S_, .f32⟩
  | 71 => ⟨S800000, .f32⟩
  | 72 => ⟨S_, .f32⟩
  | 73 => ⟨S50000, .f32⟩
  | 74 => ⟨S800000x1, .i32⟩
  | 75 => ⟨S50000, .f32⟩
  | 76 => ⟨S_, .f32⟩
  | 77 => ⟨S50000, .f32⟩
  | 78 => ⟨S50000, .f32⟩
  | 79 => ⟨S50000x1, .f32⟩
  | 80 => ⟨S50000x128, .f32⟩
  | 81 => ⟨S50000x128, .f32⟩
  | 82 => ⟨S128x128, .f32⟩
  | 83 => ⟨S50000x128, .f32⟩
  | 84 => ⟨S1x128, .f32⟩
  | 85 => ⟨S50000x128, .f32⟩
  | 86 => ⟨S50000x128, .f32⟩
  | 87 => ⟨S128x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S128x64, .f32⟩
  | 94 => ⟨S50000x64, .f32⟩
  | 95 => ⟨S1x64, .f32⟩
  | 96 => ⟨S50000x64, .f32⟩
  | 97 => ⟨S50000x64, .f32⟩
  | 98 => ⟨S1x400000, .i32⟩
  | 99 => ⟨S400000, .i32⟩
  | 100 => ⟨S1x400000, .i32⟩
  | 101 => ⟨S400000, .i32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S400000x64, .f32⟩
  | 111 => ⟨S_, .i32⟩
  | 112 => ⟨S400000, .i32⟩
  | 113 => ⟨S400000, .i1⟩
  | 114 => ⟨S_, .i32⟩
  | 115 => ⟨S400000, .i32⟩
  | 116 => ⟨S400000, .i32⟩
  | 117 => ⟨S400000, .i32⟩
  | 118 => ⟨S400000x1, .i32⟩
  | 119 => ⟨S400000x64, .f32⟩
  | 120 => ⟨S400000x128, .f32⟩
  | 121 => ⟨S128x64, .f32⟩
  | 122 => ⟨S400000x64, .f32⟩
  | 123 => ⟨S1x64, .f32⟩
  | 124 => ⟨S400000x64, .f32⟩
  | 125 => ⟨S400000x64, .f32⟩
  | 126 => ⟨S_, .f32⟩
  | 127 => ⟨S400000x64, .f32⟩
  | _ => ⟨S100000x128, .f32⟩

abbrev hbmTy0_2 (i : Nat) : BufTy := match i % 128 with
  | 0 => ⟨S400000x64, .f32⟩
  | 1 => ⟨S64x1, .f32⟩
  | 2 => ⟨S400000x1, .f32⟩
  | 3 => ⟨S1x1, .f32⟩
  | 4 => ⟨S400000x1, .f32⟩
  | 5 => ⟨S400000x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c : Ref sig .tc := ⟨.hbm, 36, rfl⟩
abbrev main_v8 : Ref sig .tc := ⟨.hbm, 37, rfl⟩
abbrev main_v9 : Ref sig .tc := ⟨.hbm, 38, rfl⟩
abbrev main_c_0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_1 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_3 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_call0_cst : Ref sig .tc := ⟨.hbm, 69, rfl⟩
abbrev main_call0_v0 : Ref sig .tc := ⟨.hbm, 70, rfl⟩
abbrev main_v35 : Ref sig .tc := ⟨.hbm, 71, rfl⟩
abbrev main_c_4 : Ref sig .tc := ⟨.hbm, 72, rfl⟩
abbrev main_v36 : Ref sig .tc := ⟨.hbm, 73, rfl⟩
abbrev main_v37 : Ref sig .tc := ⟨.hbm, 74, rfl⟩
abbrev main_c_5 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_6 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_7 : Ref sig .tc := ⟨.hbm, 85, rfl⟩
abbrev main_v46 : Ref sig .tc := ⟨.hbm, 86, rfl⟩
abbrev main_cst_8 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_9 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_call1_cst : Ref sig .tc := ⟨.hbm, 105, rfl⟩
abbrev main_call1_v0 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_c_10 : Ref sig .tc := ⟨.hbm, 113, rfl⟩
abbrev main_v69 : Ref sig .tc := ⟨.hbm, 114, rfl⟩
abbrev main_v70 : Ref sig .tc := ⟨.hbm, 115, rfl⟩
abbrev main_c_11 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_12 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_13 : Ref sig .tc := ⟨.hbm, 126, rfl⟩
abbrev main_v79 : Ref sig .tc := ⟨.hbm, 127, rfl⟩
abbrev main_cst_14 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_15 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_call2_cst : Ref sig .tc := ⟨.hbm, 146, rfl⟩
abbrev main_call2_v0 : Ref sig .tc := ⟨.hbm, 147, rfl⟩
abbrev main_v96 : Ref sig .tc := ⟨.hbm, 148, rfl⟩
abbrev main_c_16 : Ref sig .tc := ⟨.hbm, 149, rfl⟩
abbrev main_v97 : Ref sig .tc := ⟨.hbm, 150, rfl⟩
abbrev main_v98 : Ref sig .tc := ⟨.hbm, 151, rfl⟩
abbrev main_c_17 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_cst_18 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_cst_19 : Ref sig .tc := ⟨.hbm, 162, rfl⟩
abbrev main_v107 : Ref sig .tc := ⟨.hbm, 163, rfl⟩
abbrev main_cst_20 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_cst_21 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_call3_cst : Ref sig .tc := ⟨.hbm, 182, rfl⟩
abbrev main_call3_v0 : Ref sig .tc := ⟨.hbm, 183, rfl⟩
abbrev main_v124 : Ref sig .tc := ⟨.hbm, 184, rfl⟩
abbrev main_c_22 : Ref sig .tc := ⟨.hbm, 185, rfl⟩
abbrev main_v125 : Ref sig .tc := ⟨.hbm, 186, rfl⟩
abbrev main_v126 : Ref sig .tc := ⟨.hbm, 187, rfl⟩
abbrev main_c_23 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_cst_24 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_cst_25 : Ref sig .tc := ⟨.hbm, 198, rfl⟩
abbrev main_v135 : Ref sig .tc := ⟨.hbm, 199, rfl⟩
abbrev main_cst_26 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_27 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_call4_cst : Ref sig .tc := ⟨.hbm, 218, rfl⟩
abbrev main_call4_v0 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_c_28 : Ref sig .tc := ⟨.hbm, 230, rfl⟩
abbrev main_v162 : Ref sig .tc := ⟨.hbm, 231, rfl⟩
abbrev main_v163 : Ref sig .tc := ⟨.hbm, 232, rfl⟩
abbrev main_c_29 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_c_30 : Ref sig .tc := ⟨.hbm, 239, rfl⟩
abbrev main_v169 : Ref sig .tc := ⟨.hbm, 240, rfl⟩
abbrev main_v170 : Ref sig .tc := ⟨.hbm, 241, rfl⟩
abbrev main_c_31 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_call5_cst : Ref sig .tc := ⟨.hbm, 254, rfl⟩
abbrev main_call5_v0 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S1x64_S50000x64_0_1 : S1x64.BroadcastsInDim S50000x64 (![0, 1] : Fin 2 → Fin S50000x64.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x64_S400000x64_S400000x128_d1 : Shape.Concatenates [S400000x64, S400000x64] S400000x128 1
  bcast_S1x64_S400000x64_0_1 : S1x64.BroadcastsInDim S400000x64 (![0, 1] : Fin 2 → Fin S400000x64.rank)
  bcast_S_S400000x64 : S_.BroadcastsInDim S400000x64 (![] : Fin 0 → Fin S400000x64.rank)
  transposes_S1x64_S64x1_1_0 : S1x64.Transposes [1, 0] S64x1
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S400000x1_S400000x64_1_0_n_n_0_1_164_wf : GatherDims.WF S50000x64 S400000x1 S400000x64 [1] [0] [] [0] [] 1 ![1, 64]
  gather_S100000x64_S400000x1_S400000x64_1_0_n_n_0_1_164_wf : GatherDims.WF S100000x64 S400000x1 S400000x64 [1] [0] [] [0] [] 1 ![1, 64]
  dot_S400000x128_S128x64_S400000x64_1_0_0_1_n_n_wf : DotDims.WF S400000x128 S128x64 S400000x64 [1] [0] [0] [1] [] []
  dot_S400000x64_S64x1_S400000x1_1_0_0_1_n_n_wf : DotDims.WF S400000x64 S64x1 S400000x1 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def dot_S400000x128_S128x64_S400000x64_1_0_0_1_n_n : DotDims S400000x128 S128x64 S400000x64 where
  lhsContracting := [1]
  rhsContracting := [0]
  lhsNonContracting := [0]
  rhsNonContracting := [1]
  lhsBatch := []
  rhsBatch := []
  wf := dot_S400000x128_S128x64_S400000x64_1_0_0_1_n_n_wf
def dot_S400000x64_S64x1_S400000x1_1_0_0_1_n_n : DotDims S400000x64 S64x1 S400000x1 where
  lhsContracting := [1]
  rhsContracting := [0]
  lhsNonContracting := [0]
  rhsNonContracting := [1]
  lhsBatch := []
  rhsBatch := []
  wf := dot_S400000x64_S64x1_S400000x1_1_0_0_1_n_n_wf

class Facts : Prop extends Facts₀ where

variable [Facts]
-- ==== Proof.KRun.lean ====
/-
  The kernel program's run with its result named.

  Under weak fairness the program's eight pallas regions and the host operations between them run to the end; the
  buffer contents at each of the sixteen segment boundaries are a fold from the launch memory (`W0 … W16`). The frame
  statement keeps only the argument arrays; here the final state's result buffer is kept too: it holds the last
  boundary's contents `W16` at the result buffer. The argument arrays end as launched.
-/
import proofs.«146746_j61718680044161_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last segment
    boundary's contents and every argument array as launched. -/
theorem run_value : θ_run defs (onTc (τ := τ) (main (F := F))) ⟨m, fun _ => 0, ρ⟩ (fun r => ∀ c : Dev nD,
      r.2.mem ((c.tc : Thread nD τ).loc main_v126) = W16 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v126 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c),
       (h c _ (mem_uc main_arg19 (by decide))).trans (W16_main_arg19 m ρ c),
       (h c _ (mem_uc main_arg20 (by decide))).trans (W16_main_arg20 m ρ c),
       (h c _ (mem_uc main_arg21 (by decide))).trans (W16_main_arg21 m ρ c),
       (h c _ (mem_uc main_arg22 (by decide))).trans (W16_main_arg22 m ρ c),
       (h c _ (mem_uc main_arg23 (by decide))).trans (W16_main_arg23 m ρ c),
       (h c _ (mem_uc main_arg24 (by decide))).trans (W16_main_arg24 m ρ c),
       (h c _ (mem_uc main_arg25 (by decide))).trans (W16_main_arg25 m ρ c),
       (h c _ (mem_uc main_arg26 (by decide))).trans (W16_main_arg26 m ρ c),
       (h c _ (mem_uc main_arg27 (by decide))).trans (W16_main_arg27 m ρ c)⟩)

end Cert.KernelIdeal.Gen

end
-- ==== Proof.Layers.lean ====
/-
  The network's pieces as functions of whole arrays, at the extended reals.

  A bipartite graph network: products (100000 rows) and customers (50000 rows), 128 features each; two edge lists of
  800000 edges (product → product, product → customer); 400000 labelled (customer, product) pairs to score.

  * `wrapRow n e`: an edge list's row numbers made non-negative (a negative number counts from the end, `e + n`), as a column.
  * `meanPP x e`, `meanPC x e`: the mean over incoming edges — for every destination row the sum of the source rows'
    features (`x` gathered at row 0 of `e`, scatter-added at row 1 of `e`), divided by `max (number of incoming edges) 1`.
  * `sageP`, `sageC`: one graph-convolution layer, `relu (mean · Wl + b + x · Wr)` (the weights enter already transposed).
  * `linP`, `linC`: the encoders' output projections `x · W + b` to 64 features.
  * `decode`: the edge decoder on the gathered pair `(zc, zp)`: `relu ([zc | zp] · W1ᵀ + b1) · W2 + b2`.
  * `decodeSplit`: the same decoder with its first product split into the customer half and the product half of `W1`
    (`w1L`, `w1R`): `relu (zc · W1aᵀ + zp · W1bᵀ + b1) · W2 + b2`.
  * `out`: the whole network as one function of the 28 argument arrays.
-/
import proofs.«146746_j61718680044161_1_alg».proof.ReferenceIdeal
import proofs.«146746_j61718680044161_1_alg».proof.Proof.Gen.ReferenceIdeal
import Idealize.ShloMosaic.PureOps.Ideal

noncomputable section

namespace Cert.Layers

open Idealize.ShloMosaic Cert.ReferenceIdeal Cert.ReferenceIdeal.Gen

/-- Row `r` (0 or 1) of a `2 × 800000` edge list, as a vector. -/
def edgeRow (r : Nat) (h : S2x800000.Slices ![r, 0] S1x800000) (e : Vec Ideal S2x800000 .i32) : Vec Ideal S800000 .i32 :=
  shapeCast _ (extractStridedSlice S1x800000 ![r, 0] e h) shapeCasts_S1x800000_S800000

/-- Row numbers made non-negative against `100000` rows, as a column of row numbers. -/
def wrapRowP (v : Vec Ideal S800000 .i32) : Vec Ideal S800000x1 .i32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 100000#32))) v)

/-- A vector of row numbers as a column. -/
def colOf (v : Vec Ideal S800000 .i32) : Vec Ideal S800000x1 .i32 :=
  broadcastInDim S800000x1 ![0] bcast_S800000_S800000x1_0 v

/-- Mean of the source rows of `x` (row numbers `s`) over the edges into each of the 100000 product rows (row numbers `d`). -/
def meanPPv (x : FVec Ideal S100000x128 .f32) (s d : Vec Ideal S800000 .i32) : FVec Ideal S100000x128 .f32 :=
  Host.divf (F := Ideal)
    (Host.scatterAdd (F := Ideal) scatter_S100000x128_S800000x1_S800000x128_1_0_0_1
      (broadcastInDim S100000x128 ![] bcast_S_S100000x128 (constant (F := Ideal) S_ .f32 0x00000000#32))
      (colOf d)
      (Host.gather gather_S100000x128_S800000x1_S800000x128_1_0_n_n_0_1_1128 x (wrapRowP s)))
    (broadcastInDim S100000x128 ![0, 1] bcast_S100000x1_S100000x128_0_1 (broadcastInDim S100000x1 ![0] bcast_S100000_S100000x1_0
      (maximumf (F := Ideal)
        (Host.scatterAdd (F := Ideal) scatter_S100000_S800000x1_S800000_n_0_0_1
          (broadcastInDim S100000 ![] bcast_S_S100000 (constant (F := Ideal) S_ .f32 0x00000000#32))
          (colOf d)
          (broadcastInDim S800000 ![] bcast_S_S800000 (constant (F := Ideal) S_ .f32 0x3F800000#32)))
        (broadcastInDim S100000 ![] bcast_S_S100000 (constant (F := Ideal) S_ .f32 0x3F800000#32)))))

/-- Mean of the source (product) rows of `x` (row numbers `s`) over the edges into each of the 50000 customer rows (row numbers `d`). -/
def meanPCv (x : FVec Ideal S100000x128 .f32) (s d : Vec Ideal S800000 .i32) : FVec Ideal S50000x128 .f32 :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (colOf d)
      (Host.gather gather_S100000x128_S800000x1_S800000x128_1_0_n_n_0_1_1128 x (wrapRowP s)))
    (broadcastInDim S50000x128 ![0, 1] bcast_S50000x1_S50000x128_0_1 (broadcastInDim S50000x1 ![0] bcast_S50000_S50000x1_0
      (maximumf (F := Ideal)
        (Host.scatterAdd (F := Ideal) scatter_S50000_S800000x1_S800000_n_0_0_1
          (broadcastInDim S50000 ![] bcast_S_S50000 (constant (F := Ideal) S_ .f32 0x00000000#32))
          (colOf d)
          (broadcastInDim S800000 ![] bcast_S_S800000 (constant (F := Ideal) S_ .f32 0x3F800000#32)))
        (broadcastInDim S50000 ![] bcast_S_S50000 (constant (F := Ideal) S_ .f32 0x3F800000#32)))))

/-- The mean over the product → product edges `e` (row 0 the sources, row 1 the destinations). -/
def meanPP (x : FVec Ideal S100000x128 .f32) (e : Vec Ideal S2x800000 .i32) : FVec Ideal S100000x128 .f32 :=
  meanPPv x (edgeRow 0 slices_S2x800000_S1x800000_0_0 e) (edgeRow 1 slices_S2x800000_S1x800000_1_0 e)

/-- The mean over the product → customer edges `e` (row 0 the sources, row 1 the destinations). -/
def meanPC (x : FVec Ideal S100000x128 .f32) (e : Vec Ideal S2x800000 .i32) : FVec Ideal S50000x128 .f32 :=
  meanPCv x (edgeRow 0 slices_S2x800000_S1x800000_0_0 e) (edgeRow 1 slices_S2x800000_S1x800000_1_0 e)

/-- A `128 × 128` weight matrix transposed. -/
def tr (w : FVec Ideal S128x128 .f32) : FVec Ideal S128x128 .f32 := transpose S128x128 [1, 0] w transposes_S128x128_S128x128_1_0

/-- A `64 × 128` projection matrix transposed. -/
def trO (w : FVec Ideal S64x128 .f32) : FVec Ideal S128x64 .f32 := transpose S128x64 [1, 0] w transposes_S64x128_S128x64_1_0

/-- One graph-convolution layer on the 100000 product rows: `relu (a · wl + b + x · wr)`. -/
def sageP (a x : FVec Ideal S100000x128 .f32) (wl wr : FVec Ideal S128x128 .f32) (b : FVec Ideal S128 .f32) : FVec Ideal S100000x128 .f32 :=
  maximumf (F := Ideal)
    (addf (F := Ideal)
      (addf (F := Ideal) (Host.dotGeneral (F := Ideal) dot_S100000x128_S128x128_S100000x128_1_0_0_1_n_n none a wl)
        (broadcastInDim S100000x128 ![0, 1] bcast_S1x128_S100000x128_0_1 (broadcastInDim S1x128 ![1] bcast_S128_S1x128_1 b)))
      (Host.dotGeneral (F := Ideal) dot_S100000x128_S128x128_S100000x128_1_0_0_1_n_n none x wr))
    (broadcastInDim S100000x128 ![] bcast_S_S100000x128 (constant (F := Ideal) S_ .f32 0x00000000#32))

/-- One graph-convolution layer on the 50000 customer rows: `relu (a · wl + b + x · wr)`. -/
def sageC (a x : FVec Ideal S50000x128 .f32) (wl wr : FVec Ideal S128x128 .f32) (b : FVec Ideal S128 .f32) : FVec Ideal S50000x128 .f32 :=
  maximumf (F := Ideal)
    (addf (F := Ideal)
      (addf (F := Ideal) (Host.dotGeneral (F := Ideal) dot_S50000x128_S128x128_S50000x128_1_0_0_1_n_n none a wl)
        (broadcastInDim S50000x128 ![0, 1] bcast_S1x128_S50000x128_0_1 (broadcastInDim S1x128 ![1] bcast_S128_S1x128_1 b)))
      (Host.dotGeneral (F := Ideal) dot_S50000x128_S128x128_S50000x128_1_0_0_1_n_n none x wr))
    (broadcastInDim S50000x128 ![] bcast_S_S50000x128 (constant (F := Ideal) S_ .f32 0x00000000#32))

/-- The product encoder's output projection: `x · w + b`, 64 features. -/
def linP (x : FVec Ideal S100000x128 .f32) (w : FVec Ideal S128x64 .f32) (b : FVec Ideal S64 .f32) : FVec Ideal S100000x64 .f32 :=
  addf (F := Ideal) (Host.dotGeneral (F := Ideal) dot_S100000x128_S128x64_S100000x64_1_0_0_1_n_n none x w)
    (broadcastInDim S100000x64 ![0, 1] bcast_S1x64_S100000x64_0_1 (broadcastInDim S1x64 ![1] bcast_S64_S1x64_1 b))

/-- The customer encoder's output projection: `x · w + b`, 64 features. -/
def linC (x : FVec Ideal S50000x128 .f32) (w : FVec Ideal S128x64 .f32) (b : FVec Ideal S64 .f32) : FVec Ideal S50000x64 .f32 :=
  addf (F := Ideal) (Host.dotGeneral (F := Ideal) dot_S50000x128_S128x64_S50000x64_1_0_0_1_n_n none x w)
    (broadcastInDim S50000x64 ![0, 1] bcast_S1x64_S50000x64_0_1 (broadcastInDim S1x64 ![1] bcast_S64_S1x64_1 b))

/-- Row `r` (0 or 1) of the `2 × 400000` list of pairs to score, as a vector. -/
def pairRow (r : Nat) (h : S2x400000.Slices ![r, 0] S1x400000) (e : Vec Ideal S2x400000 .i32) : Vec Ideal S400000 .i32 :=
  shapeCast _ (extractStridedSlice S1x400000 ![r, 0] e h) shapeCasts_S1x400000_S400000

/-- Pair row numbers made non-negative against `n` rows (`n` as a 32-bit word), as a column. -/
def wrapPair (n : BitVec 32) (v : Vec Ideal S400000 .i32) : Vec Ideal S400000x1 .i32 :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 n))) v)

/-- The customers' codes at the pairs' customer rows. -/
def gatherC (z : FVec Ideal S50000x64 .f32) (e : Vec Ideal S2x400000 .i32) : FVec Ideal S400000x64 .f32 :=
  Host.gather gather_S50000x64_S400000x1_S400000x64_1_0_n_n_0_1_164 z (wrapPair 50000#32 (pairRow 0 slices_S2x400000_S1x400000_0_0 e))

/-- The products' codes at the pairs' product rows. -/
def gatherP (z : FVec Ideal S100000x64 .f32) (e : Vec Ideal S2x400000 .i32) : FVec Ideal S400000x64 .f32 :=
  Host.gather gather_S100000x64_S400000x1_S400000x64_1_0_n_n_0_1_164 z (wrapPair 100000#32 (pairRow 1 slices_S2x400000_S1x400000_1_0 e))

/-- The decoder's second weight `1 × 64` transposed to a column. -/
def trW2 (w : FVec Ideal S1x64 .f32) : FVec Ideal S64x1 .f32 := transpose S64x1 [1, 0] w transposes_S1x64_S64x1_1_0

/-- The edge decoder: `relu ([zc | zp] · w1ᵀ + b1) · w2 + b2`, with `w2` already a column. -/
def decode (zc zp : FVec Ideal S400000x64 .f32) (w1 : FVec Ideal S64x128 .f32) (b1 : FVec Ideal S64 .f32)
    (w2 : FVec Ideal S64x1 .f32) (b2 : FVec Ideal S1 .f32) : FVec Ideal S400000x1 .f32 :=
  addf (F := Ideal)
    (Host.dotGeneral (F := Ideal) dot_S400000x64_S64x1_S400000x1_1_0_0_1_n_n none
      (maximumf (F := Ideal)
        (addf (F := Ideal)
          (Host.dotGeneral (F := Ideal) dot_S400000x128_S128x64_S400000x64_1_0_0_1_n_n none
            (concatenate S400000x128 1 [⟨S400000x64, zc⟩, ⟨S400000x64, zp⟩] concatenates_S400000x64_S400000x64_S400000x128_d1)
            (trO w1))
          (broadcastInDim S400000x64 ![0, 1] bcast_S1x64_S400000x64_0_1 (broadcastInDim S1x64 ![1] bcast_S64_S1x64_1 b1)))
        (broadcastInDim S400000x64 ![] bcast_S_S400000x64 (constant (F := Ideal) S_ .f32 0x00000000#32)))
      w2)
    (broadcastInDim S400000x1 ![0, 1] bcast_S1x1_S400000x1_0_1 (broadcastInDim S1x1 ![1] bcast_S1_S1x1_1 b2))

/-- The first 64 columns of the decoder's first weight (the customer half), transposed. -/
def w1L (w : FVec Ideal S64x128 .f32) : FVec Ideal ⟨2, ![64, 64]⟩ .f32 :=
  transpose ⟨2, ![64, 64]⟩ [1, 0] (extractStridedSlice ⟨2, ![64, 64]⟩ ![0, 0] w (by decide)) (by decide)

/-- The last 64 columns of the decoder's first weight (the product half), transposed. -/
def w1R (w : FVec Ideal S64x128 .f32) : FVec Ideal ⟨2, ![64, 64]⟩ .f32 :=
  transpose ⟨2, ![64, 64]⟩ [1, 0] (extractStridedSlice ⟨2, ![64, 64]⟩ ![0, 64] w (by decide)) (by decide)

/-- The edge decoder with the first product split in its two halves: `relu (zc · wa + zp · wb + b1) · w2 + b2`. -/
def decodeSplit (zc zp : FVec Ideal S400000x64 .f32) (wa wb : FVec Ideal ⟨2, ![64, 64]⟩ .f32) (b1 : FVec Ideal S64 .f32)
    (w2 : FVec Ideal S64x1 .f32) (b2 : FVec Ideal S1 .f32) : FVec Ideal S400000x1 .f32 :=
  addf (F := Ideal)
    (Host.dotGeneral (F := Ideal) dot_S400000x64_S64x1_S400000x1_1_0_0_1_n_n none
      (maximumf (F := Ideal)
        (addf (F := Ideal)
          (addf (F := Ideal) (Host.dotGeneral (F := Ideal) (DotDims.plain 400000 64 64) none zc wa)
            (Host.dotGeneral (F := Ideal) (DotDims.plain 400000 64 64) none zp wb))
          (broadcastInDim S400000x64 ![0, 1] bcast_S1x64_S400000x64_0_1 (broadcastInDim S1x64 ![1] bcast_S64_S1x64_1 b1)))
        (broadcastInDim S400000x64 ![] bcast_S_S400000x64 (constant (F := Ideal) S_ .f32 0x00000000#32)))
      w2)
    (broadcastInDim S400000x1 ![0, 1] bcast_S1x1_S400000x1_0_1 (broadcastInDim S1x1 ![1] bcast_S1_S1x1_1 b2))

/-- The products after the first item-encoder layer. -/
def p1 (a0 : FVec Ideal S100000x128 .f32) (a2 : Vec Ideal S2x800000 .i32) (a5 a7 : FVec Ideal S128x128 .f32) (a6 : FVec Ideal S128 .f32) :=
  sageP (meanPP a0 a2) a0 (tr a5) (tr a7) a6

/-- The whole network: the score of every labelled pair, as a function of the 28 argument arrays. -/
def out (a0 : FVec Ideal S100000x128 .f32) (a1 : FVec Ideal S50000x128 .f32) (a2 a3 : Vec Ideal S2x800000 .i32) (a4 : Vec Ideal S2x400000 .i32)
    (a5 : FVec Ideal S128x128 .f32) (a6 : FVec Ideal S128 .f32) (a7 a8 : FVec Ideal S128x128 .f32) (a9 : FVec Ideal S128 .f32) (a10 : FVec Ideal S128x128 .f32)
    (a11 : FVec Ideal S64x128 .f32) (a12 : FVec Ideal S64 .f32)
    (a13 : FVec Ideal S128x128 .f32) (a14 : FVec Ideal S128 .f32) (a15 a16 : FVec Ideal S128x128 .f32) (a17 : FVec Ideal S128 .f32) (a18 a19 : FVec Ideal S128x128 .f32)
    (a20 : FVec Ideal S128 .f32) (a21 : FVec Ideal S128x128 .f32) (a22 : FVec Ideal S64x128 .f32) (a23 : FVec Ideal S64 .f32)
    (a24 : FVec Ideal S64x128 .f32) (a25 : FVec Ideal S64 .f32) (a26 : FVec Ideal S1x64 .f32) (a27 : FVec Ideal S1 .f32) : FVec Ideal S400000x1 .f32 :=
  decode
    (gatherC (linC (sageC (meanPC (p1 a0 a2 a13 a15 a14) a3) (sageC (meanPC a0 a3) a1 (tr a16) (tr a18) a17) (tr a19) (tr a21) a20) (trO a22) a23) a4)
    (gatherP (linP (sageP (meanPP (p1 a0 a2 a5 a7 a6) a2) (p1 a0 a2 a5 a7 a6) (tr a8) (tr a10) a9) (trO a11) a12) a4)
    a24 a25 (trW2 a26) a27

end Cert.Layers

end
-- ==== Proof.Keep.lean ====
/-
  What each segment of the kernel program leaves unchanged.

  The program is eight host stretches, each followed by a pallas region; `W0 … W16` are the buffer contents at the
  segment boundaries. A host stretch changes only the buffers its operations write (`written K` lists them); a region
  changes only its one output array. So a buffer that a segment does not write holds after the segment what it held
  before it, and an argument array, which nothing writes, holds its launch contents at every boundary.
-/
import proofs.«146746_j61718680044161_1_alg».proof.Proof.Gen.KernelIdeal.Frame

set_option maxRecDepth 16384

noncomputable section

namespace Cert.KernelIdeal.Gen

open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-! ## The buffers each host stretch writes -/

/-- The buffers host stretch 0 writes. -/
abbrev written0 : List (Ref sig .tc) := [main_v0, main_v1, main_v2, main_v3, main_v4, main_v5, main_v6, main_v7, main_c, main_v8, main_v9, main_c_0, main_v10, main_v11, main_v12, main_v13, main_v14, main_cst, main_v15, main_v16, main_v17, main_cst_1, main_v18, main_cst_2, main_v19, main_v20, main_v21, main_cst_3, main_v22, main_v23, main_v24, main_v25, main_v26, main_c_4, main_v27, main_v28, main_c_5, main_v29, main_v30, main_v31, main_v32, main_v33, main_cst_6, main_v34, main_v35, main_v36, main_cst_7, main_v37, main_cst_8, main_v38, main_v39, main_v40, main_cst_9, main_v41, main_v42, main_v43, main_v44, main_v45, main_v46, main_v47]
theorem written0_covers : (hostOps0 : List (HloOp τ sig (Elt F))).Forall fun op => op.writes ⊆ (written0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer host stretch 0 does not write holds after it what it held before. -/
theorem W1_keep (c : Dev nD) (r : Ref sig .tc) (h : r ∉ written0) :
    W1 m ρ c (Proc.devRef .tc r) = W0 m ρ c (Proc.devRef .tc r) :=
  StableHlo.after_of_writes_sub hostOps0 _ written0_covers h

/-- The buffers host stretch 1 writes. -/
abbrev written1 : List (Ref sig .tc) := [main_c_10, main_v49, main_v50, main_c_11, main_v51, main_v52, main_v53, main_v54, main_v55, main_cst_12, main_v56, main_v57, main_v58, main_cst_13, main_v59, main_cst_14, main_v60, main_v61, main_v62, main_cst_15, main_v63, main_v64, main_v65, main_v66, main_v67, main_v68, main_v69]
theorem written1_covers : (hostOps1 : List (HloOp τ sig (Elt F))).Forall fun op => op.writes ⊆ (written1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer host stretch 1 does not write holds after it what it held before. -/
theorem W3_keep (c : Dev nD) (r : Ref sig .tc) (h : r ∉ written1) :
    W3 m ρ c (Proc.devRef .tc r) = W2 m ρ c (Proc.devRef .tc r) :=
  StableHlo.after_of_writes_sub hostOps1 _ written1_covers h

/-- The buffers host stretch 2 writes. -/
abbrev written2 : List (Ref sig .tc) := [main_v71]
theorem written2_covers : (hostOps2 : List (HloOp τ sig (Elt F))).Forall fun op => op.writes ⊆ (written2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer host stretch 2 does not write holds after it what it held before. -/
theorem W5_keep (c : Dev nD) (r : Ref sig .tc) (h : r ∉ written2) :
    W5 m ρ c (Proc.devRef .tc r) = W4 m ρ c (Proc.devRef .tc r) :=
  StableHlo.after_of_writes_sub hostOps2 _ written2_covers h

/-- The buffers host stretch 3 writes. -/
abbrev written3 : List (Ref sig .tc) := [main_v73, main_v74]
theorem written3_covers : (hostOps3 : List (HloOp τ sig (Elt F))).Forall fun op => op.writes ⊆ (written3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer host stretch 3 does not write holds after it what it held before. -/
theorem W7_keep (c : Dev nD) (r : Ref sig .tc) (h : r ∉ written3) :
    W7 m ρ c (Proc.devRef .tc r) = W6 m ρ c (Proc.devRef .tc r) :=
  StableHlo.after_of_writes_sub hostOps3 _ written3_covers h

/-- The buffers host stretch 4 writes. -/
abbrev written4 : List (Ref sig .tc) := [main_v76, main_v77]
theorem written4_covers : (hostOps4 : List (HloOp τ sig (Elt F))).Forall fun op => op.writes ⊆ (written4.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer host stretch 4 does not write holds after it what it held before. -/
theorem W9_keep (c : Dev nD) (r : Ref sig .tc) (h : r ∉ written4) :
    W9 m ρ c (Proc.devRef .tc r) = W8 m ρ c (Proc.devRef .tc r) :=
  StableHlo.after_of_writes_sub hostOps4 _ written4_covers h

/-- The buffers host stretch 5 writes. -/
abbrev written5 : List (Ref sig .tc) := [main_c_16, main_v79, main_v80, main_c_17, main_v81, main_v82, main_v83, main_v84, main_v85, main_cst_18, main_v86, main_v87, main_v88, main_cst_19, main_v89, main_cst_20, main_v90, main_v91, main_v92, main_cst_21, main_v93, main_v94, main_v95, main_v96, main_v97, main_v98, main_v99]
theorem written5_covers : (hostOps5 : List (HloOp τ sig (Elt F))).Forall fun op => op.writes ⊆ (written5.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer host stretch 5 does not write holds after it what it held before. -/
theorem W11_keep (c : Dev nD) (r : Ref sig .tc) (h : r ∉ written5) :
    W11 m ρ c (Proc.devRef .tc r) = W10 m ρ c (Proc.devRef .tc r) :=
  StableHlo.after_of_writes_sub hostOps5 _ written5_covers h

/-- The buffers host stretch 6 writes. -/
abbrev written6 : List (Ref sig .tc) := [main_v101]
theorem written6_covers : (hostOps6 : List (HloOp τ sig (Elt F))).Forall fun op => op.writes ⊆ (written6.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer host stretch 6 does not write holds after it what it held before. -/
theorem W13_keep (c : Dev nD) (r : Ref sig .tc) (h : r ∉ written6) :
    W13 m ρ c (Proc.devRef .tc r) = W12 m ρ c (Proc.devRef .tc r) :=
  StableHlo.after_of_writes_sub hostOps6 _ written6_covers h

/-- The buffers host stretch 7 writes. -/
abbrev written7 : List (Ref sig .tc) := [main_v103, main_v104, main_v105, main_v106, main_c_22, main_v107, main_v108, main_c_23, main_v109, main_v110, main_v111, main_v112, main_v113, main_c_24, main_v114, main_v115, main_c_25, main_v116, main_v117, main_v118, main_v119, main_v120, main_v121, main_v122, main_v123, main_v124, main_v125]
theorem written7_covers : (hostOps7 : List (HloOp τ sig (Elt F))).Forall fun op => op.writes ⊆ (written7.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer host stretch 7 does not write holds after it what it held before. -/
theorem W15_keep (c : Dev nD) (r : Ref sig .tc) (h : r ∉ written7) :
    W15 m ρ c (Proc.devRef .tc r) = W14 m ρ c (Proc.devRef .tc r) :=
  StableHlo.after_of_writes_sub hostOps7 _ written7_covers h

/-! ## A region changes only its output array -/

/-- Every buffer but region 0's output array holds after the region what it held at its entry: an input array is
    never written back, and a buffer that is none of the region's arrays is not touched. -/
theorem W2_keep (c : Dev nD) (r : Ref sig .tc) (h : r ≠ main_v48) :
    W2 m ρ c (Proc.devRef .tc r) = W1 m ρ c (Proc.devRef .tc r) := by
  by_cases h0 : r = main_v26
  · subst h0; exact (W2_arr m ρ c 0).trans (((dat0 (V1 m ρ) c).arrAt_in 0 rfl _).trans (A_eq0 (V1 m ρ) c 0))
  by_cases h1 : r = main_arg0
  · subst h1; exact (W2_arr m ρ c 1).trans (((dat0 (V1 m ρ) c).arrAt_in 1 rfl _).trans (A_eq0 (V1 m ρ) c 1))
  by_cases h2 : r = main_v46
  · subst h2; exact (W2_arr m ρ c 2).trans (((dat0 (V1 m ρ) c).arrAt_in 2 rfl _).trans (A_eq0 (V1 m ρ) c 2))
  by_cases h3 : r = main_v47
  · subst h3; exact (W2_arr m ρ c 3).trans (((dat0 (V1 m ρ) c).arrAt_in 3 rfl _).trans (A_eq0 (V1 m ρ) c 3))
  by_cases h4 : r = main_arg6
  · subst h4; exact (W2_arr m ρ c 4).trans (((dat0 (V1 m ρ) c).arrAt_in 4 rfl _).trans (A_eq0 (V1 m ρ) c 4))
  refine W2_of_ne m ρ c r fun w e => ?_
  match w with
  | ⟨0, _⟩ => exact h0 e.symm
  | ⟨1, _⟩ => exact h1 e.symm
  | ⟨2, _⟩ => exact h2 e.symm
  | ⟨3, _⟩ => exact h3 e.symm
  | ⟨4, _⟩ => exact h4 e.symm
  | ⟨5, _⟩ => exact h e.symm
  | ⟨_ + 6, hw⟩ => exact absurd hw (Nat.not_lt.2 (Nat.le_add_left _ _))

/-- Every buffer but region 1's output array holds after the region what it held at its entry: an input array is
    never written back, and a buffer that is none of the region's arrays is not touched. -/
theorem W4_keep (c : Dev nD) (r : Ref sig .tc) (h : r ≠ main_v70) :
    W4 m ρ c (Proc.devRef .tc r) = W3 m ρ c (Proc.devRef .tc r) := by
  by_cases h0 : r = main_v67
  · subst h0; exact (W4_arr m ρ c 0).trans (((dat1 (V3 m ρ) c).arrAt_in 0 rfl _).trans (A_eq1 (V3 m ρ) c 0))
  by_cases h1 : r = main_v48
  · subst h1; exact (W4_arr m ρ c 1).trans (((dat1 (V3 m ρ) c).arrAt_in 1 rfl _).trans (A_eq1 (V3 m ρ) c 1))
  by_cases h2 : r = main_v68
  · subst h2; exact (W4_arr m ρ c 2).trans (((dat1 (V3 m ρ) c).arrAt_in 2 rfl _).trans (A_eq1 (V3 m ρ) c 2))
  by_cases h3 : r = main_v69
  · subst h3; exact (W4_arr m ρ c 3).trans (((dat1 (V3 m ρ) c).arrAt_in 3 rfl _).trans (A_eq1 (V3 m ρ) c 3))
  by_cases h4 : r = main_arg9
  · subst h4; exact (W4_arr m ρ c 4).trans (((dat1 (V3 m ρ) c).arrAt_in 4 rfl _).trans (A_eq1 (V3 m ρ) c 4))
  refine W4_of_ne m ρ c r fun w e => ?_
  match w with
  | ⟨0, _⟩ => exact h0 e.symm
  | ⟨1, _⟩ => exact h1 e.symm
  | ⟨2, _⟩ => exact h2 e.symm
  | ⟨3, _⟩ => exact h3 e.symm
  | ⟨4, _⟩ => exact h4 e.symm
  | ⟨5, _⟩ => exact h e.symm
  | ⟨_ + 6, hw⟩ => exact absurd hw (Nat.not_lt.2 (Nat.le_add_left _ _))

/-- Every buffer but region 2's output array holds after the region what it held at its entry: an input array is
    never written back, and a buffer that is none of the region's arrays is not touched. -/
theorem W6_keep (c : Dev nD) (r : Ref sig .tc) (h : r ≠ main_v72) :
    W6 m ρ c (Proc.devRef .tc r) = W5 m ρ c (Proc.devRef .tc r) := by
  by_cases h0 : r = main_v70
  · subst h0; exact (W6_arr m ρ c 0).trans (((dat2 (V5 m ρ) c).arrAt_in 0 rfl _).trans (A_eq2 (V5 m ρ) c 0))
  by_cases h1 : r = main_v71
  · subst h1; exact (W6_arr m ρ c 1).trans (((dat2 (V5 m ρ) c).arrAt_in 1 rfl _).trans (A_eq2 (V5 m ρ) c 1))
  by_cases h2 : r = main_arg12
  · subst h2; exact (W6_arr m ρ c 2).trans (((dat2 (V5 m ρ) c).arrAt_in 2 rfl _).trans (A_eq2 (V5 m ρ) c 2))
  refine W6_of_ne m ρ c r fun w e => ?_
  match w with
  | ⟨0, _⟩ => exact h0 e.symm
  | ⟨1, _⟩ => exact h1 e.symm
  | ⟨2, _⟩ => exact h2 e.symm
  | ⟨3, _⟩ => exact h e.symm
  | ⟨_ + 4, hw⟩ => exact absurd hw (Nat.not_lt.2 (Nat.le_add_left _ _))

/-- Every buffer but region 3's output array holds after the region what it held at its entry: an input array is
    never written back, and a buffer that is none of the region's arrays is not touched. -/
theorem W8_keep (c : Dev nD) (r : Ref sig .tc) (h : r ≠ main_v75) :
    W8 m ρ c (Proc.devRef .tc r) = W7 m ρ c (Proc.devRef .tc r) := by
  by_cases h0 : r = main_v26
  · subst h0; exact (W8_arr m ρ c 0).trans (((dat3 (V7 m ρ) c).arrAt_in 0 rfl _).trans (A_eq3 (V7 m ρ) c 0))
  by_cases h1 : r = main_arg0
  · subst h1; exact (W8_arr m ρ c 1).trans (((dat3 (V7 m ρ) c).arrAt_in 1 rfl _).trans (A_eq3 (V7 m ρ) c 1))
  by_cases h2 : r = main_v73
  · subst h2; exact (W8_arr m ρ c 2).trans (((dat3 (V7 m ρ) c).arrAt_in 2 rfl _).trans (A_eq3 (V7 m ρ) c 2))
  by_cases h3 : r = main_v74
  · subst h3; exact (W8_arr m ρ c 3).trans (((dat3 (V7 m ρ) c).arrAt_in 3 rfl _).trans (A_eq3 (V7 m ρ) c 3))
  by_cases h4 : r = main_arg14
  · subst h4; exact (W8_arr m ρ c 4).trans (((dat3 (V7 m ρ) c).arrAt_in 4 rfl _).trans (A_eq3 (V7 m ρ) c 4))
  refine W8_of_ne m ρ c r fun w e => ?_
  match w with
  | ⟨0, _⟩ => exact h0 e.symm
  | ⟨1, _⟩ => exact h1 e.symm
  | ⟨2, _⟩ => exact h2 e.symm
  | ⟨3, _⟩ => exact h3 e.symm
  | ⟨4, _⟩ => exact h4 e.symm
  | ⟨5, _⟩ => exact h e.symm
  | ⟨_ + 6, hw⟩ => exact absurd hw (Nat.not_lt.2 (Nat.le_add_left _ _))

/-- Every buffer but region 4's output array holds after the region what it held at its entry: an input array is
    never written back, and a buffer that is none of the region's arrays is not touched. -/
theorem W10_keep (c : Dev nD) (r : Ref sig .tc) (h : r ≠ main_v78) :
    W10 m ρ c (Proc.devRef .tc r) = W9 m ρ c (Proc.devRef .tc r) := by
  by_cases h0 : r = main_v45
  · subst h0; exact (W10_arr m ρ c 0).trans (((dat4 (V9 m ρ) c).arrAt_in 0 rfl _).trans (A_eq4 (V9 m ρ) c 0))
  by_cases h1 : r = main_arg1
  · subst h1; exact (W10_arr m ρ c 1).trans (((dat4 (V9 m ρ) c).arrAt_in 1 rfl _).trans (A_eq4 (V9 m ρ) c 1))
  by_cases h2 : r = main_v76
  · subst h2; exact (W10_arr m ρ c 2).trans (((dat4 (V9 m ρ) c).arrAt_in 2 rfl _).trans (A_eq4 (V9 m ρ) c 2))
  by_cases h3 : r = main_v77
  · subst h3; exact (W10_arr m ρ c 3).trans (((dat4 (V9 m ρ) c).arrAt_in 3 rfl _).trans (A_eq4 (V9 m ρ) c 3))
  by_cases h4 : r = main_arg17
  · subst h4; exact (W10_arr m ρ c 4).trans (((dat4 (V9 m ρ) c).arrAt_in 4 rfl _).trans (A_eq4 (V9 m ρ) c 4))
  refine W10_of_ne m ρ c r fun w e => ?_
  match w with
  | ⟨0, _⟩ => exact h0 e.symm
  | ⟨1, _⟩ => exact h1 e.symm
  | ⟨2, _⟩ => exact h2 e.symm
  | ⟨3, _⟩ => exact h3 e.symm
  | ⟨4, _⟩ => exact h4 e.symm
  | ⟨5, _⟩ => exact h e.symm
  | ⟨_ + 6, hw⟩ => exact absurd hw (Nat.not_lt.2 (Nat.le_add_left _ _))

/-- Every buffer but region 5's output array holds after the region what it held at its entry: an input array is
    never written back, and a buffer that is none of the region's arrays is not touched. -/
theorem W12_keep (c : Dev nD) (r : Ref sig .tc) (h : r ≠ main_v100) :
    W12 m ρ c (Proc.devRef .tc r) = W11 m ρ c (Proc.devRef .tc r) := by
  by_cases h0 : r = main_v97
  · subst h0; exact (W12_arr m ρ c 0).trans (((dat5 (V11 m ρ) c).arrAt_in 0 rfl _).trans (A_eq5 (V11 m ρ) c 0))
  by_cases h1 : r = main_v78
  · subst h1; exact (W12_arr m ρ c 1).trans (((dat5 (V11 m ρ) c).arrAt_in 1 rfl _).trans (A_eq5 (V11 m ρ) c 1))
  by_cases h2 : r = main_v98
  · subst h2; exact (W12_arr m ρ c 2).trans (((dat5 (V11 m ρ) c).arrAt_in 2 rfl _).trans (A_eq5 (V11 m ρ) c 2))
  by_cases h3 : r = main_v99
  · subst h3; exact (W12_arr m ρ c 3).trans (((dat5 (V11 m ρ) c).arrAt_in 3 rfl _).trans (A_eq5 (V11 m ρ) c 3))
  by_cases h4 : r = main_arg20
  · subst h4; exact (W12_arr m ρ c 4).trans (((dat5 (V11 m ρ) c).arrAt_in 4 rfl _).trans (A_eq5 (V11 m ρ) c 4))
  refine W12_of_ne m ρ c r fun w e => ?_
  match w with
  | ⟨0, _⟩ => exact h0 e.symm
  | ⟨1, _⟩ => exact h1 e.symm
  | ⟨2, _⟩ => exact h2 e.symm
  | ⟨3, _⟩ => exact h3 e.symm
  | ⟨4, _⟩ => exact h4 e.symm
  | ⟨5, _⟩ => exact h e.symm
  | ⟨_ + 6, hw⟩ => exact absurd hw (Nat.not_lt.2 (Nat.le_add_left _ _))

/-- Every buffer but region 6's output array holds after the region what it held at its entry: an input array is
    never written back, and a buffer that is none of the region's arrays is not touched. -/
theorem W14_keep (c : Dev nD) (r : Ref sig .tc) (h : r ≠ main_v102) :
    W14 m ρ c (Proc.devRef .tc r) = W13 m ρ c (Proc.devRef .tc r) := by
  by_cases h0 : r = main_v100
  · subst h0; exact (W14_arr m ρ c 0).trans (((dat6 (V13 m ρ) c).arrAt_in 0 rfl _).trans (A_eq6 (V13 m ρ) c 0))
  by_cases h1 : r = main_v101
  · subst h1; exact (W14_arr m ρ c 1).trans (((dat6 (V13 m ρ) c).arrAt_in 1 rfl _).trans (A_eq6 (V13 m ρ) c 1))
  by_cases h2 : r = main_arg23
  · subst h2; exact (W14_arr m ρ c 2).trans (((dat6 (V13 m ρ) c).arrAt_in 2 rfl _).trans (A_eq6 (V13 m ρ) c 2))
  refine W14_of_ne m ρ c r fun w e => ?_
  match w with
  | ⟨0, _⟩ => exact h0 e.symm
  | ⟨1, _⟩ => exact h1 e.symm
  | ⟨2, _⟩ => exact h2 e.symm
  | ⟨3, _⟩ => exact h e.symm
  | ⟨_ + 4, hw⟩ => exact absurd hw (Nat.not_lt.2 (Nat.le_add_left _ _))

/-- Every buffer but region 7's output array holds after the region what it held at its entry: an input array is
    never written back, and a buffer that is none of the region's arrays is not touched. -/
theorem W16_keep (c : Dev nD) (r : Ref sig .tc) (h : r ≠ main_v126) :
    W16 m ρ c (Proc.devRef .tc r) = W15 m ρ c (Proc.devRef .tc r) := by
  by_cases h0 : r = main_v113
  · subst h0; exact (W16_arr m ρ c 0).trans (((dat7 (V15 m ρ) c).arrAt_in 0 rfl _).trans (A_eq7 (V15 m ρ) c 0))
  by_cases h1 : r = main_v120
  · subst h1; exact (W16_arr m ρ c 1).trans (((dat7 (V15 m ρ) c).arrAt_in 1 rfl _).trans (A_eq7 (V15 m ρ) c 1))
  by_cases h2 : r = main_v123
  · subst h2; exact (W16_arr m ρ c 2).trans (((dat7 (V15 m ρ) c).arrAt_in 2 rfl _).trans (A_eq7 (V15 m ρ) c 2))
  by_cases h3 : r = main_v124
  · subst h3; exact (W16_arr m ρ c 3).trans (((dat7 (V15 m ρ) c).arrAt_in 3 rfl _).trans (A_eq7 (V15 m ρ) c 3))
  by_cases h4 : r = main_arg25
  · subst h4; exact (W16_arr m ρ c 4).trans (((dat7 (V15 m ρ) c).arrAt_in 4 rfl _).trans (A_eq7 (V15 m ρ) c 4))
  by_cases h5 : r = main_v125
  · subst h5; exact (W16_arr m ρ c 5).trans (((dat7 (V15 m ρ) c).arrAt_in 5 rfl _).trans (A_eq7 (V15 m ρ) c 5))
  by_cases h6 : r = main_arg27
  · subst h6; exact (W16_arr m ρ c 6).trans (((dat7 (V15 m ρ) c).arrAt_in 6 rfl _).trans (A_eq7 (V15 m ρ) c 6))
  refine W16_of_ne m ρ c r fun w e => ?_
  match w with
  | ⟨0, _⟩ => exact h0 e.symm
  | ⟨1, _⟩ => exact h1 e.symm
  | ⟨2, _⟩ => exact h2 e.symm
  | ⟨3, _⟩ => exact h3 e.symm
  | ⟨4, _⟩ => exact h4 e.symm
  | ⟨5, _⟩ => exact h5 e.symm
  | ⟨6, _⟩ => exact h6 e.symm
  | ⟨7, _⟩ => exact h e.symm
  | ⟨_ + 8, hw⟩ => exact absurd hw (Nat.not_lt.2 (Nat.le_add_left _ _))

end Cert.KernelIdeal.Gen

end
-- ==== Proof.HostValues.lean ====
/-
  What the host stretches of the kernel program compute.

  Between the pallas regions the program's host operations prepare the regions' operands: the two edge lists' rows; the
  mean over incoming edges (gather the source rows, scatter-add them at the destination rows, divide by the clipped
  count of incoming edges); the weight matrices transposed; the encoders' codes gathered at the pairs to score; and the
  two halves of the decoder's first weight. Each buffer a later segment reads holds, after its stretch, the named
  function (Layers.lean) of the contents at the stretch's entry: the same operations, read off the stretch's fold.
-/
import proofs.«146746_j61718680044161_1_alg».proof.Proof.Gen.KernelIdeal.Frame
import proofs.«146746_j61718680044161_1_alg».proof.Proof.Layers

set_option maxRecDepth 16384

noncomputable section

namespace Cert.KernelIdeal.Gen

open Idealize.ShloMosaic Idealize.ShloMosaic.TcCoe Idealize.SL.Sem Idealize.ShloMosaic.StableHlo

variable (m : (ℓ : Loc nD τ sig) → Buf (Elt Ideal) ℓ) (ρ : Dev nD → PrngReg)

theorem h0_v1 (c : Dev nD) :
    W1 m ρ c (Proc.devRef .tc main_v1) = Cert.Layers.edgeRow 0 Cert.ReferenceIdeal.Gen.slices_S2x800000_S1x800000_0_0 (W0 m ρ c (Proc.devRef .tc main_arg2)) := by
  show StableHlo.after hostOps0 _ (Proc.devRef .tc main_v1) = _
  after_results_simp
  rfl

theorem h0_v3 (c : Dev nD) :
    W1 m ρ c (Proc.devRef .tc main_v3) = Cert.Layers.edgeRow 1 Cert.ReferenceIdeal.Gen.slices_S2x800000_S1x800000_1_0 (W0 m ρ c (Proc.devRef .tc main_arg2)) := by
  show StableHlo.after hostOps0 _ (Proc.devRef .tc main_v3) = _
  after_results_simp
  rfl

theorem h0_v5 (c : Dev nD) :
    W1 m ρ c (Proc.devRef .tc main_v5) = Cert.Layers.edgeRow 0 Cert.ReferenceIdeal.Gen.slices_S2x800000_S1x800000_0_0 (W0 m ρ c (Proc.devRef .tc main_arg3)) := by
  show StableHlo.after hostOps0 _ (Proc.devRef .tc main_v5) = _
  after_results_simp
  rfl

theorem h0_v7 (c : Dev nD) :
    W1 m ρ c (Proc.devRef .tc main_v7) = Cert.Layers.edgeRow 1 Cert.ReferenceIdeal.Gen.slices_S2x800000_S1x800000_1_0 (W0 m ρ c (Proc.devRef .tc main_arg3)) := by
  show StableHlo.after hostOps0 _ (Proc.devRef .tc main_v7) = _
  after_results_simp
  rfl

theorem h0_v26 (c : Dev nD) :
    W1 m ρ c (Proc.devRef .tc main_v26) = Cert.Layers.meanPP (W0 m ρ c (Proc.devRef .tc main_arg0)) (W0 m ρ c (Proc.devRef .tc main_arg2)) := by
  show StableHlo.after hostOps0 _ (Proc.devRef .tc main_v26) = _
  after_results_simp
  rfl

theorem h0_v45 (c : Dev nD) :
    W1 m ρ c (Proc.devRef .tc main_v45) = Cert.Layers.meanPC (W0 m ρ c (Proc.devRef .tc main_arg0)) (W0 m ρ c (Proc.devRef .tc main_arg3)) := by
  show StableHlo.after hostOps0 _ (Proc.devRef .tc main_v45) = _
  after_results_simp
  rfl

theorem h0_v46 (c : Dev nD) :
    W1 m ρ c (Proc.devRef .tc main_v46) = Cert.Layers.tr (W0 m ρ c (Proc.devRef .tc main_arg5)) := by
  show StableHlo.after hostOps0 _ (Proc.devRef .tc main_v46) = _
  after_results_simp
  rfl

theorem h0_v47 (c : Dev nD) :
    W1 m ρ c (Proc.devRef .tc main_v47) = Cert.Layers.tr (W0 m ρ c (Proc.devRef .tc main_arg7)) := by
  show StableHlo.after hostOps0 _ (Proc.devRef .tc main_v47) = _
  after_results_simp
  rfl

theorem h1_v67 (c : Dev nD) :
    W3 m ρ c (Proc.devRef .tc main_v67) = Cert.Layers.meanPPv (W2 m ρ c (Proc.devRef .tc main_v48)) (W2 m ρ c (Proc.devRef .tc main_v1)) (W2 m ρ c (Proc.devRef .tc main_v3)) := by
  show StableHlo.after hostOps1 _ (Proc.devRef .tc main_v67) = _
  after_results_simp
  rfl

theorem h1_v68 (c : Dev nD) :
    W3 m ρ c (Proc.devRef .tc main_v68) = Cert.Layers.tr (W2 m ρ c (Proc.devRef .tc main_arg8)) := by
  show StableHlo.after hostOps1 _ (Proc.devRef .tc main_v68) = _
  after_results_simp
  rfl

theorem h1_v69 (c : Dev nD) :
    W3 m ρ c (Proc.devRef .tc main_v69) = Cert.Layers.tr (W2 m ρ c (Proc.devRef .tc main_arg10)) := by
  show StableHlo.after hostOps1 _ (Proc.devRef .tc main_v69) = _
  after_results_simp
  rfl

theorem h2_v71 (c : Dev nD) :
    W5 m ρ c (Proc.devRef .tc main_v71) = Cert.Layers.trO (W4 m ρ c (Proc.devRef .tc main_arg11)) := by
  show StableHlo.after hostOps2 _ (Proc.devRef .tc main_v71) = _
  after_results
  rfl

theorem h3_v73 (c : Dev nD) :
    W7 m ρ c (Proc.devRef .tc main_v73) = Cert.Layers.tr (W6 m ρ c (Proc.devRef .tc main_arg13)) := by
  show StableHlo.after hostOps3 _ (Proc.devRef .tc main_v73) = _
  after_results
  rfl

theorem h3_v74 (c : Dev nD) :
    W7 m ρ c (Proc.devRef .tc main_v74) = Cert.Layers.tr (W6 m ρ c (Proc.devRef .tc main_arg15)) := by
  show StableHlo.after hostOps3 _ (Proc.devRef .tc main_v74) = _
  after_results
  rfl

theorem h4_v76 (c : Dev nD) :
    W9 m ρ c (Proc.devRef .tc main_v76) = Cert.Layers.tr (W8 m ρ c (Proc.devRef .tc main_arg16)) := by
  show StableHlo.after hostOps4 _ (Proc.devRef .tc main_v76) = _
  after_results
  rfl

theorem h4_v77 (c : Dev nD) :
    W9 m ρ c (Proc.devRef .tc main_v77) = Cert.Layers.tr (W8 m ρ c (Proc.devRef .tc main_arg18)) := by
  show StableHlo.after hostOps4 _ (Proc.devRef .tc main_v77) = _
  after_results
  rfl

theorem h5_v97 (c : Dev nD) :
    W11 m ρ c (Proc.devRef .tc main_v97) = Cert.Layers.meanPCv (W10 m ρ c (Proc.devRef .tc main_v75)) (W10 m ρ c (Proc.devRef .tc main_v5)) (W10 m ρ c (Proc.devRef .tc main_v7)) := by
  show StableHlo.after hostOps5 _ (Proc.devRef .tc main_v97) = _
  after_results_simp
  rfl

theorem h5_v98 (c : Dev nD) :
    W11 m ρ c (Proc.devRef .tc main_v98) = Cert.Layers.tr (W10 m ρ c (Proc.devRef .tc main_arg19)) := by
  show StableHlo.after hostOps5 _ (Proc.devRef .tc main_v98) = _
  after_results_simp
  rfl

theorem h5_v99 (c : Dev nD) :
    W11 m ρ c (Proc.devRef .tc main_v99) = Cert.Layers.tr (W10 m ρ c (Proc.devRef .tc main_arg21)) := by
  show StableHlo.after hostOps5 _ (Proc.devRef .tc main_v99) = _
  after_results_simp
  rfl

theorem h6_v101 (c : Dev nD) :
    W13 m ρ c (Proc.devRef .tc main_v101) = Cert.Layers.trO (W12 m ρ c (Proc.devRef .tc main_arg22)) := by
  show StableHlo.after hostOps6 _ (Proc.devRef .tc main_v101) = _
  after_results
  rfl

theorem h7_v113 (c : Dev nD) :
    W15 m ρ c (Proc.devRef .tc main_v113) = Cert.Layers.gatherC (W14 m ρ c (Proc.devRef .tc main_v102)) (W14 m ρ c (Proc.devRef .tc main_arg4)) := by
  show StableHlo.after hostOps7 _ (Proc.devRef .tc main_v113) = _
  after_results_simp
  rfl

theorem h7_v120 (c : Dev nD) :
    W15 m ρ c (Proc.devRef .tc main_v120) = Cert.Layers.gatherP (W14 m ρ c (Proc.devRef .tc main_v72)) (W14 m ρ c (Proc.devRef .tc main_arg4)) := by
  show StableHlo.after hostOps7 _ (Proc.devRef .tc main_v120) = _
  after_results_simp
  rfl

theorem h7_v123 (c : Dev nD) :
    W15 m ρ c (Proc.devRef .tc main_v123) = Cert.Layers.w1L (W14 m ρ c (Proc.devRef .tc main_arg24)) := by
  show StableHlo.after hostOps7 _ (Proc.devRef .tc main_v123) = _
  after_results_simp
  rfl

theorem h7_v124 (c : Dev nD) :
    W15 m ρ c (Proc.devRef .tc main_v124) = Cert.Layers.w1R (W14 m ρ c (Proc.devRef .tc main_arg24)) := by
  show StableHlo.after hostOps7 _ (Proc.devRef .tc main_v124) = _
  after_results_simp
  rfl

theorem h7_v125 (c : Dev nD) :
    W15 m ρ c (Proc.devRef .tc main_v125) = Cert.Layers.trW2 (W14 m ρ c (Proc.devRef .tc main_arg26)) := by
  show StableHlo.after hostOps7 _ (Proc.devRef .tc main_v125) = _
  after_results_simp
  rfl

end Cert.KernelIdeal.Gen

end
-- ==== Proof.Chain.lean ====
/-
  The kernel program's result buffer, followed through its sixteen segments.

  `W0 … W16` are the buffer contents at the segment boundaries (launch, then after each host stretch and each region).
  Each region's output array is its layer function of the arrays the region finds (`RegionFact K`, proved region by
  region elsewhere and taken here as hypotheses); each host stretch's buffers are the named host functions of the
  contents at its entry (HostValues.lean); every other buffer passes through a segment unchanged (Keep.lean), and an
  argument array holds its launch contents at every boundary. Composing these along the program, the result buffer at
  the last boundary is the network `Layers.out` of the launch contents of the 28 argument arrays; the one algebraic
  step is the decoder's first product split in its two halves (`DecoderSplits`).
-/
import proofs.«146746_j61718680044161_1_alg».proof.Proof.Gen.KernelIdeal.Frame
import proofs.«146746_j61718680044161_1_alg».proof.Proof.Layers
import proofs.«146746_j61718680044161_1_alg».proof.Proof.Keep
import proofs.«146746_j61718680044161_1_alg».proof.Proof.HostValues

set_option maxRecDepth 16384

noncomputable section

namespace Cert.KernelIdeal.Gen

open Idealize.ShloMosaic Idealize.ShloMosaic.TcCoe Idealize.SL.Sem
open Idealize.ShloMosaic.Pipeline (Dat Cfg Window)

/-! ## The regions' facts, as statements -/

/-- Region 0 (the first item-encoder layer): its output array after the region is the layer function of the arrays it finds. -/
abbrev RegionFact0 : Prop := ∀ (V : (c : Dev nD) → (b : Ref sig .tc) → Buf (Elt Ideal) ((c : Thread nD τ).loc b)) (c : Dev nD),
  (dat0 (F := Ideal) V c).arrAt 5 cfg0.N = Cert.Layers.sageP (V c main_v26) (V c main_arg0) (V c main_v46) (V c main_v47) (V c main_arg6)

/-- Region 1 (the second item-encoder layer): its output array after the region is the layer function of the arrays it finds. -/
abbrev RegionFact1 : Prop := ∀ (V : (c : Dev nD) → (b : Ref sig .tc) → Buf (Elt Ideal) ((c : Thread nD τ).loc b)) (c : Dev nD),
  (dat1 (F := Ideal) V c).arrAt 5 cfg1.N = Cert.Layers.sageP (V c main_v67) (V c main_v48) (V c main_v68) (V c main_v69) (V c main_arg9)

/-- Region 2 (the item encoder's output projection): its output array after the region is the layer function of the arrays it finds. -/
abbrev RegionFact2 : Prop := ∀ (V : (c : Dev nD) → (b : Ref sig .tc) → Buf (Elt Ideal) ((c : Thread nD τ).loc b)) (c : Dev nD),
  (dat2 (F := Ideal) V c).arrAt 3 cfg2.N = Cert.Layers.linP (V c main_v70) (V c main_v71) (V c main_arg12)

/-- Region 3 (the user encoder's product layer): its output array after the region is the layer function of the arrays it finds. -/
abbrev RegionFact3 : Prop := ∀ (V : (c : Dev nD) → (b : Ref sig .tc) → Buf (Elt Ideal) ((c : Thread nD τ).loc b)) (c : Dev nD),
  (dat3 (F := Ideal) V c).arrAt 5 cfg3.N = Cert.Layers.sageP (V c main_v26) (V c main_arg0) (V c main_v73) (V c main_v74) (V c main_arg14)

/-- Region 4 (the user encoder's first customer layer): its output array after the region is the layer function of the arrays it finds. -/
abbrev RegionFact4 : Prop := ∀ (V : (c : Dev nD) → (b : Ref sig .tc) → Buf (Elt Ideal) ((c : Thread nD τ).loc b)) (c : Dev nD),
  (dat4 (F := Ideal) V c).arrAt 5 cfg4.N = Cert.Layers.sageC (V c main_v45) (V c main_arg1) (V c main_v76) (V c main_v77) (V c main_arg17)

/-- Region 5 (the user encoder's second customer layer): its output array after the region is the layer function of the arrays it finds. -/
abbrev RegionFact5 : Prop := ∀ (V : (c : Dev nD) → (b : Ref sig .tc) → Buf (Elt Ideal) ((c : Thread nD τ).loc b)) (c : Dev nD),
  (dat5 (F := Ideal) V c).arrAt 5 cfg5.N = Cert.Layers.sageC (V c main_v97) (V c main_v78) (V c main_v98) (V c main_v99) (V c main_arg20)

/-- Region 6 (the user encoder's output projection): its output array after the region is the layer function of the arrays it finds. -/
abbrev RegionFact6 : Prop := ∀ (V : (c : Dev nD) → (b : Ref sig .tc) → Buf (Elt Ideal) ((c : Thread nD τ).loc b)) (c : Dev nD),
  (dat6 (F := Ideal) V c).arrAt 3 cfg6.N = Cert.Layers.linC (V c main_v100) (V c main_v101) (V c main_arg23)

/-- Region 7 (the edge decoder): its output array after the region is the layer function of the arrays it finds. -/
abbrev RegionFact7 : Prop := ∀ (V : (c : Dev nD) → (b : Ref sig .tc) → Buf (Elt Ideal) ((c : Thread nD τ).loc b)) (c : Dev nD),
  (dat7 (F := Ideal) V c).arrAt 7 cfg7.N = Cert.Layers.decodeSplit (V c main_v113) (V c main_v120) (V c main_v123) (V c main_v124) (V c main_arg25) (V c main_v125) (V c main_arg27)

/-- The decoder's product against the concatenated pair is the sum of the two half products. -/
abbrev DecoderSplits : Prop := ∀ (zc zp : FVec Ideal Cert.ReferenceIdeal.S400000x64 .f32) (w1 : FVec Ideal Cert.ReferenceIdeal.S64x128 .f32)
  (b1 : FVec Ideal Cert.ReferenceIdeal.S64 .f32) (w2 : FVec Ideal Cert.ReferenceIdeal.S64x1 .f32) (b2 : FVec Ideal Cert.ReferenceIdeal.S1 .f32),
  Cert.Layers.decode zc zp w1 b1 w2 b2 = Cert.Layers.decodeSplit zc zp (Cert.Layers.w1L w1) (Cert.Layers.w1R w1) b1 w2 b2

variable (m : (ℓ : Loc nD τ sig) → Buf (Elt Ideal) ℓ) (ρ : Dev nD → PrngReg)

/-! ## The argument arrays hold their launch contents at every boundary -/

/-- The 28 argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27]

theorem W1_arg (c : Dev nD) (r : Ref sig .tc) (hr : r ∈ argRefs) : W1 m ρ c (Proc.devRef .tc r) = W0 m ρ c (Proc.devRef .tc r) :=
  (W1_keep m ρ c r ((by decide : ∀ r ∈ argRefs, r ∉ written0) r hr)).trans rfl

theorem W2_arg (c : Dev nD) (r : Ref sig .tc) (hr : r ∈ argRefs) : W2 m ρ c (Proc.devRef .tc r) = W0 m ρ c (Proc.devRef .tc r) :=
  (W2_keep m ρ c r ((by decide : ∀ r ∈ argRefs, r ≠ main_v48) r hr)).trans (W1_arg m ρ c r hr)

theorem W3_arg (c : Dev nD) (r : Ref sig .tc) (hr : r ∈ argRefs) : W3 m ρ c (Proc.devRef .tc r) = W0 m ρ c (Proc.devRef .tc r) :=
  (W3_keep m ρ c r ((by decide : ∀ r ∈ argRefs, r ∉ written1) r hr)).trans (W2_arg m ρ c r hr)

theorem W4_arg (c : Dev nD) (r : Ref sig .tc) (hr : r ∈ argRefs) : W4 m ρ c (Proc.devRef .tc r) = W0 m ρ c (Proc.devRef .tc r) :=
  (W4_keep m ρ c r ((by decide : ∀ r ∈ argRefs, r ≠ main_v70) r hr)).trans (W3_arg m ρ c r hr)

theorem W5_arg (c : Dev nD) (r : Ref sig .tc) (hr : r ∈ argRefs) : W5 m ρ c (Proc.devRef .tc r) = W0 m ρ c (Proc.devRef .tc r) :=
  (W5_keep m ρ c r ((by decide : ∀ r ∈ argRefs, r ∉ written2) r hr)).trans (W4_arg m ρ c r hr)

theorem W6_arg (c : Dev nD) (r : Ref sig .tc) (hr : r ∈ argRefs) : W6 m ρ c (Proc.devRef .tc r) = W0 m ρ c (Proc.devRef .tc r) :=
  (W6_keep m ρ c r ((by decide : ∀ r ∈ argRefs, r ≠ main_v72) r hr)).trans (W5_arg m ρ c r hr)

theorem W7_arg (c : Dev nD) (r : Ref sig .tc) (hr : r ∈ argRefs) : W7 m ρ c (Proc.devRef .tc r) = W0 m ρ c (Proc.devRef .tc r) :=
  (W7_keep m ρ c r ((by decide : ∀ r ∈ argRefs, r ∉ written3) r hr)).trans (W6_arg m ρ c r hr)

theorem W8_arg (c : Dev nD) (r : Ref sig .tc) (hr : r ∈ argRefs) : W8 m ρ c (Proc.devRef .tc r) = W0 m ρ c (Proc.devRef .tc r) :=
  (W8_keep m ρ c r ((by decide : ∀ r ∈ argRefs, r ≠ main_v75) r hr)).trans (W7_arg m ρ c r hr)

theorem W9_arg (c : Dev nD) (r : Ref sig .tc) (hr : r ∈ argRefs) : W9 m ρ c (Proc.devRef .tc r) = W0 m ρ c (Proc.devRef .tc r) :=
  (W9_keep m ρ c r ((by decide : ∀ r ∈ argRefs, r ∉ written4) r hr)).trans (W8_arg m ρ c r hr)

theorem W10_arg (c : Dev nD) (r : Ref sig .tc) (hr : r ∈ argRefs) : W10 m ρ c (Proc.devRef .tc r) = W0 m ρ c (Proc.devRef .tc r) :=
  (W10_keep m ρ c r ((by decide : ∀ r ∈ argRefs, r ≠ main_v78) r hr)).trans (W9_arg m ρ c r hr)

theorem W11_arg (c : Dev nD) (r : Ref sig .tc) (hr : r ∈ argRefs) : W11 m ρ c (Proc.devRef .tc r) = W0 m ρ c (Proc.devRef .tc r) :=
  (W11_keep m ρ c r ((by decide : ∀ r ∈ argRefs, r ∉ written5) r hr)).trans (W10_arg m ρ c r hr)

theorem W12_arg (c : Dev nD) (r : Ref sig .tc) (hr : r ∈ argRefs) : W12 m ρ c (Proc.devRef .tc r) = W0 m ρ c (Proc.devRef .tc r) :=
  (W12_keep m ρ c r ((by decide : ∀ r ∈ argRefs, r ≠ main_v100) r hr)).trans (W11_arg m ρ c r hr)

theorem W13_arg (c : Dev nD) (r : Ref sig .tc) (hr : r ∈ argRefs) : W13 m ρ c (Proc.devRef .tc r) = W0 m ρ c (Proc.devRef .tc r) :=
  (W13_keep m ρ c r ((by decide : ∀ r ∈ argRefs, r ∉ written6) r hr)).trans (W12_arg m ρ c r hr)

theorem W14_arg (c : Dev nD) (r : Ref sig .tc) (hr : r ∈ argRefs) : W14 m ρ c (Proc.devRef .tc r) = W0 m ρ c (Proc.devRef .tc r) :=
  (W14_keep m ρ c r ((by decide : ∀ r ∈ argRefs, r ≠ main_v102) r hr)).trans (W13_arg m ρ c r hr)

theorem W15_arg (c : Dev nD) (r : Ref sig .tc) (hr : r ∈ argRefs) : W15 m ρ c (Proc.devRef .tc r) = W0 m ρ c (Proc.devRef .tc r) :=
  (W15_keep m ρ c r ((by decide : ∀ r ∈ argRefs, r ∉ written7) r hr)).trans (W14_arg m ρ c r hr)

/-! ## The intermediate arrays, as functions of the launch contents -/

/-- The products after the first item-encoder layer. -/
abbrev vP1 (c : Dev nD) := Cert.Layers.p1 (W0 m ρ c (Proc.devRef .tc main_arg0)) (W0 m ρ c (Proc.devRef .tc main_arg2)) (W0 m ρ c (Proc.devRef .tc main_arg5)) (W0 m ρ c (Proc.devRef .tc main_arg7)) (W0 m ρ c (Proc.devRef .tc main_arg6))
/-- The products after the second item-encoder layer. -/
abbrev vP2 (c : Dev nD) := Cert.Layers.sageP (Cert.Layers.meanPP (vP1 m ρ c) (W0 m ρ c (Proc.devRef .tc main_arg2))) (vP1 m ρ c) (Cert.Layers.tr (W0 m ρ c (Proc.devRef .tc main_arg8))) (Cert.Layers.tr (W0 m ρ c (Proc.devRef .tc main_arg10))) (W0 m ρ c (Proc.devRef .tc main_arg9))
/-- The products' codes. -/
abbrev vZP (c : Dev nD) := Cert.Layers.linP (vP2 m ρ c) (Cert.Layers.trO (W0 m ρ c (Proc.devRef .tc main_arg11))) (W0 m ρ c (Proc.devRef .tc main_arg12))
/-- The products after the user encoder's product layer. -/
abbrev vPX (c : Dev nD) := Cert.Layers.p1 (W0 m ρ c (Proc.devRef .tc main_arg0)) (W0 m ρ c (Proc.devRef .tc main_arg2)) (W0 m ρ c (Proc.devRef .tc main_arg13)) (W0 m ρ c (Proc.devRef .tc main_arg15)) (W0 m ρ c (Proc.devRef .tc main_arg14))
/-- The customers after the user encoder's first customer layer. -/
abbrev vCX1 (c : Dev nD) := Cert.Layers.sageC (Cert.Layers.meanPC (W0 m ρ c (Proc.devRef .tc main_arg0)) (W0 m ρ c (Proc.devRef .tc main_arg3))) (W0 m ρ c (Proc.devRef .tc main_arg1)) (Cert.Layers.tr (W0 m ρ c (Proc.devRef .tc main_arg16))) (Cert.Layers.tr (W0 m ρ c (Proc.devRef .tc main_arg18))) (W0 m ρ c (Proc.devRef .tc main_arg17))
/-- The customers after the user encoder's second customer layer. -/
abbrev vCX2 (c : Dev nD) := Cert.Layers.sageC (Cert.Layers.meanPC (vPX m ρ c) (W0 m ρ c (Proc.devRef .tc main_arg3))) (vCX1 m ρ c) (Cert.Layers.tr (W0 m ρ c (Proc.devRef .tc main_arg19))) (Cert.Layers.tr (W0 m ρ c (Proc.devRef .tc main_arg21))) (W0 m ρ c (Proc.devRef .tc main_arg20))
/-- The customers' codes. -/
abbrev vZC (c : Dev nD) := Cert.Layers.linC (vCX2 m ρ c) (Cert.Layers.trO (W0 m ρ c (Proc.devRef .tc main_arg22))) (W0 m ρ c (Proc.devRef .tc main_arg23))

/-! ## Along the program -/

/-- After region 0: the first item-encoder layer's products. -/
theorem at2_v48 (F0 : RegionFact0) (c : Dev nD) : W2 m ρ c (Proc.devRef .tc main_v48) = vP1 m ρ c := by
  refine (W2_arr m ρ c 5).trans ((F0 (V1 m ρ) c).trans ?_)
  rw [show V1 m ρ c main_v26 = _ from h0_v26 m ρ c, show V1 m ρ c main_arg0 = _ from W1_arg m ρ c main_arg0 (by decide),
    show V1 m ρ c main_v46 = _ from h0_v46 m ρ c, show V1 m ρ c main_v47 = _ from h0_v47 m ρ c,
    show V1 m ρ c main_arg6 = _ from W1_arg m ρ c main_arg6 (by decide)]
  all_goals rfl

/-- After host stretch 1: the mean of those products over the product → product edges. -/
theorem at3_v67 (F0 : RegionFact0) (c : Dev nD) : W3 m ρ c (Proc.devRef .tc main_v67) = Cert.Layers.meanPP (vP1 m ρ c) (W0 m ρ c (Proc.devRef .tc main_arg2)) := by
  rw [h1_v67 m ρ c, at2_v48 m ρ F0 c, W2_keep m ρ c main_v1 (by decide), h0_v1 m ρ c, W2_keep m ρ c main_v3 (by decide), h0_v3 m ρ c]
  all_goals rfl

/-- After region 1: the second item-encoder layer's products. -/
theorem at4_v70 (F0 : RegionFact0) (F1 : RegionFact1) (c : Dev nD) : W4 m ρ c (Proc.devRef .tc main_v70) = vP2 m ρ c := by
  refine (W4_arr m ρ c 5).trans ((F1 (V3 m ρ) c).trans ?_)
  rw [show V3 m ρ c main_v67 = _ from at3_v67 m ρ F0 c,
    show V3 m ρ c main_v48 = _ from (W3_keep m ρ c main_v48 (by decide)).trans (at2_v48 m ρ F0 c),
    show V3 m ρ c main_v68 = _ from h1_v68 m ρ c, show V3 m ρ c main_v69 = _ from h1_v69 m ρ c,
    show V3 m ρ c main_arg9 = _ from W3_arg m ρ c main_arg9 (by decide),
    W2_arg m ρ c main_arg8 (by decide), W2_arg m ρ c main_arg10 (by decide)]
  all_goals rfl

/-- After region 2: the products' codes. -/
theorem at6_v72 (F0 : RegionFact0) (F1 : RegionFact1) (F2 : RegionFact2) (c : Dev nD) : W6 m ρ c (Proc.devRef .tc main_v72) = vZP m ρ c := by
  refine (W6_arr m ρ c 3).trans ((F2 (V5 m ρ) c).trans ?_)
  rw [show V5 m ρ c main_v70 = _ from (W5_keep m ρ c main_v70 (by decide)).trans (at4_v70 m ρ F0 F1 c),
    show V5 m ρ c main_v71 = _ from h2_v71 m ρ c, show V5 m ρ c main_arg12 = _ from W5_arg m ρ c main_arg12 (by decide),
    W4_arg m ρ c main_arg11 (by decide)]
  all_goals rfl

/-- After region 3: the user encoder's product layer (the same mean over product → product edges, other weights). -/
theorem at8_v75 (F3 : RegionFact3) (c : Dev nD) : W8 m ρ c (Proc.devRef .tc main_v75) = vPX m ρ c := by
  refine (W8_arr m ρ c 5).trans ((F3 (V7 m ρ) c).trans ?_)
  rw [show V7 m ρ c main_v26 = _ from ((W7_keep m ρ c main_v26 (by decide)).trans ((W6_keep m ρ c main_v26 (by decide)).trans ((W5_keep m ρ c main_v26 (by decide)).trans ((W4_keep m ρ c main_v26 (by decide)).trans ((W3_keep m ρ c main_v26 (by decide)).trans (W2_keep m ρ c main_v26 (by decide))))))).trans (h0_v26 m ρ c),
    show V7 m ρ c main_arg0 = _ from W7_arg m ρ c main_arg0 (by decide),
    show V7 m ρ c main_v73 = _ from h3_v73 m ρ c, show V7 m ρ c main_v74 = _ from h3_v74 m ρ c,
    show V7 m ρ c main_arg14 = _ from W7_arg m ρ c main_arg14 (by decide),
    W6_arg m ρ c main_arg13 (by decide), W6_arg m ρ c main_arg15 (by decide)]
  all_goals rfl

/-- After region 4: the user encoder's first customer layer. -/
theorem at10_v78 (F4 : RegionFact4) (c : Dev nD) : W10 m ρ c (Proc.devRef .tc main_v78) = vCX1 m ρ c := by
  refine (W10_arr m ρ c 5).trans ((F4 (V9 m ρ) c).trans ?_)
  rw [show V9 m ρ c main_v45 = _ from ((W9_keep m ρ c main_v45 (by decide)).trans ((W8_keep m ρ c main_v45 (by decide)).trans ((W7_keep m ρ c main_v45 (by decide)).trans ((W6_keep m ρ c main_v45 (by decide)).trans ((W5_keep m ρ c main_v45 (by decide)).trans ((W4_keep m ρ c main_v45 (by decide)).trans ((W3_keep m ρ c main_v45 (by decide)).trans (W2_keep m ρ c main_v45 (by decide))))))))).trans (h0_v45 m ρ c),
    show V9 m ρ c main_arg1 = _ from W9_arg m ρ c main_arg1 (by decide),
    show V9 m ρ c main_v76 = _ from h4_v76 m ρ c, show V9 m ρ c main_v77 = _ from h4_v77 m ρ c,
    show V9 m ρ c main_arg17 = _ from W9_arg m ρ c main_arg17 (by decide),
    W8_arg m ρ c main_arg16 (by decide), W8_arg m ρ c main_arg18 (by decide)]
  all_goals rfl

/-- After host stretch 5: the mean of the user encoder's products over the product → customer edges. -/
theorem at11_v97 (F3 : RegionFact3) (c : Dev nD) : W11 m ρ c (Proc.devRef .tc main_v97) = Cert.Layers.meanPC (vPX m ρ c) (W0 m ρ c (Proc.devRef .tc main_arg3)) := by
  rw [h5_v97 m ρ c, ((W10_keep m ρ c main_v75 (by decide)).trans (W9_keep m ρ c main_v75 (by decide))), at8_v75 m ρ F3 c,
    ((W10_keep m ρ c main_v5 (by decide)).trans ((W9_keep m ρ c main_v5 (by decide)).trans ((W8_keep m ρ c main_v5 (by decide)).trans ((W7_keep m ρ c main_v5 (by decide)).trans ((W6_keep m ρ c main_v5 (by decide)).trans ((W5_keep m ρ c main_v5 (by decide)).trans ((W4_keep m ρ c main_v5 (by decide)).trans ((W3_keep m ρ c main_v5 (by decide)).trans (W2_keep m ρ c main_v5 (by decide)))))))))), h0_v5 m ρ c, ((W10_keep m ρ c main_v7 (by decide)).trans ((W9_keep m ρ c main_v7 (by decide)).trans ((W8_keep m ρ c main_v7 (by decide)).trans ((W7_keep m ρ c main_v7 (by decide)).trans ((W6_keep m ρ c main_v7 (by decide)).trans ((W5_keep m ρ c main_v7 (by decide)).trans ((W4_keep m ρ c main_v7 (by decide)).trans ((W3_keep m ρ c main_v7 (by decide)).trans (W2_keep m ρ c main_v7 (by decide)))))))))), h0_v7 m ρ c]
  all_goals rfl

/-- After region 5: the user encoder's second customer layer. -/
theorem at12_v100 (F3 : RegionFact3) (F4 : RegionFact4) (F5 : RegionFact5) (c : Dev nD) : W12 m ρ c (Proc.devRef .tc main_v100) = vCX2 m ρ c := by
  refine (W12_arr m ρ c 5).trans ((F5 (V11 m ρ) c).trans ?_)
  rw [show V11 m ρ c main_v97 = _ from at11_v97 m ρ F3 c,
    show V11 m ρ c main_v78 = _ from (W11_keep m ρ c main_v78 (by decide)).trans (at10_v78 m ρ F4 c),
    show V11 m ρ c main_v98 = _ from h5_v98 m ρ c, show V11 m ρ c main_v99 = _ from h5_v99 m ρ c,
    show V11 m ρ c main_arg20 = _ from W11_arg m ρ c main_arg20 (by decide),
    W10_arg m ρ c main_arg19 (by decide), W10_arg m ρ c main_arg21 (by decide)]
  all_goals rfl

/-- After region 6: the customers' codes. -/
theorem at14_v102 (F3 : RegionFact3) (F4 : RegionFact4) (F5 : RegionFact5) (F6 : RegionFact6) (c : Dev nD) : W14 m ρ c (Proc.devRef .tc main_v102) = vZC m ρ c := by
  refine (W14_arr m ρ c 3).trans ((F6 (V13 m ρ) c).trans ?_)
  rw [show V13 m ρ c main_v100 = _ from (W13_keep m ρ c main_v100 (by decide)).trans (at12_v100 m ρ F3 F4 F5 c),
    show V13 m ρ c main_v101 = _ from h6_v101 m ρ c, show V13 m ρ c main_arg23 = _ from W13_arg m ρ c main_arg23 (by decide),
    W12_arg m ρ c main_arg22 (by decide)]
  all_goals rfl

/-- **The result buffer at the last boundary is the network of the launch contents of the argument arrays.** -/
theorem result_value (F0 : RegionFact0) (F1 : RegionFact1) (F2 : RegionFact2) (F3 : RegionFact3) (F4 : RegionFact4) (F5 : RegionFact5)
    (F6 : RegionFact6) (F7 : RegionFact7) (hsplit : DecoderSplits) (c : Dev nD) :
    W16 m ρ c (Proc.devRef .tc main_v126) = Cert.Layers.out (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) (W0 m ρ c (Proc.devRef .tc main_arg18)) (W0 m ρ c (Proc.devRef .tc main_arg19)) (W0 m ρ c (Proc.devRef .tc main_arg20)) (W0 m ρ c (Proc.devRef .tc main_arg21)) (W0 m ρ c (Proc.devRef .tc main_arg22)) (W0 m ρ c (Proc.devRef .tc main_arg23)) (W0 m ρ c (Proc.devRef .tc main_arg24)) (W0 m ρ c (Proc.devRef .tc main_arg25)) (W0 m ρ c (Proc.devRef .tc main_arg26)) (W0 m ρ c (Proc.devRef .tc main_arg27)) := by
  refine (W16_arr m ρ c 7).trans ((F7 (V15 m ρ) c).trans ?_)
  rw [show V15 m ρ c main_v113 = _ from h7_v113 m ρ c, show V15 m ρ c main_v120 = _ from h7_v120 m ρ c,
    show V15 m ρ c main_v123 = _ from h7_v123 m ρ c, show V15 m ρ c main_v124 = _ from h7_v124 m ρ c,
    show V15 m ρ c main_arg25 = _ from W15_arg m ρ c main_arg25 (by decide),
    show V15 m ρ c main_v125 = _ from h7_v125 m ρ c,
    show V15 m ρ c main_arg27 = _ from W15_arg m ρ c main_arg27 (by decide),
    at14_v102 m ρ F3 F4 F5 F6 c, W14_arg m ρ c main_arg4 (by decide),
    ((W14_keep m ρ c main_v72 (by decide)).trans ((W13_keep m ρ c main_v72 (by decide)).trans ((W12_keep m ρ c main_v72 (by decide)).trans ((W11_keep m ρ c main_v72 (by decide)).trans ((W10_keep m ρ c main_v72 (by decide)).trans ((W9_keep m ρ c main_v72 (by decide)).trans ((W8_keep m ρ c main_v72 (by decide)).trans (W7_keep m ρ c main_v72 (by decide))))))))), at6_v72 m ρ F0 F1 F2 c,
    W14_arg m ρ c main_arg24 (by decide), W14_arg m ρ c main_arg26 (by decide)]
  exact (hsplit _ _ _ _ _ _).symm

end Cert.KernelIdeal.Gen

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibDenseRead.lean ====
/-
  Dense-layer pieces on the host read at one entry, at the extended reals.

  * The host's plain matrix product of an `m × k` by a `k × n` array holds at entry `(a, b)` the sum over the
    contracted position `c` of `A[a,c] · B[c,b]` (no accumulator, whatever the schedule key).
  * A bias vector `[n]` placed as the row `[1, n]` and repeated down `m` rows holds at `(p, c)` the vector's entry `c`.
  * The zero word filled into any shape holds `0` at every index.
-/
import Idealize.ShloMosaic.PureOps.Ideal.Laws
import Idealize.ShloMosaic.Lib.ValueIdx
import Idealize.ShloMosaic.Lib.Pipeline.Value
import proofs.«146746_j61718680044161_1_alg».proof.Proof.LibPlainMatmul

noncomputable section

open scoped BigOperators

namespace Idealize.ShloMosaic.DenseRead

open Idealize.ShloMosaic Idealize.ShloMosaic.ValueIdx Idealize.ShloMosaic.PlainMatmul

variable {m k n : Nat}

/-- **The host's plain product at an entry**: `∑ c, A[a,c] · B[c,b]`. -/
theorem dotGeneral_apply {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- A bias vector placed as a row and repeated down the rows, at `(p, c)`: the vector's entry `c`. -/
theorem biasRows_apply {α : Type} (x : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) (p : Fin m) (c : Fin n) :
    broadcastInDim ⟨2, ![m, n]⟩ ![0, 1] h2 (broadcastInDim ⟨2, ![1, n]⟩ ![1] h1 x) (ix2 p c) = x (ix1 c) := by
  refine (broadcastInDim_apply _ h2 _ (ix2 p c) (ix2 (0 : Fin 1) c) (fun a => ?_)).trans
    (broadcastInDim_apply _ h1 x (ix2 (0 : Fin 1) c) (ix1 c) (fun a => ?_))
  · match a with
    | ⟨0, _⟩ => show 0 = if (1 : Nat) = 1 then 0 else p.val; rw [if_pos rfl]
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

/-- The zero word filled into a shape, at any index: `0`. -/
theorem zeroFill_apply {s : Shape} (h : (⟨0, ![]⟩ : Shape).BroadcastsInDim s (![] : Fin 0 → Fin s.rank)) (i : s.Idx) :
    broadcastInDim s ![] h (constant (F := Ideal) ⟨0, ![]⟩ .f32 0x00000000#32) i = (0 : EReal) :=
  (broadcastInDim_apply _ h _ i ix0 (fun a => a.elim0)).trans Ideal.ofBits_zero_f32

end Idealize.ShloMosaic.DenseRead

end
-- ==== Proof.LibRowLayout.lean ====
/-
  Row layouts and column reductions read at an index.

  A reduction along the FIRST axis of a rank-2 array with `keepdims` leaves a row: the reduced vector `[b]` is cast to
  `[1, b]` and broadcast back to `[a, b]`, so entry `(p, c)` of the broadcast is entry `c` of the reduced vector. The
  reduction itself, over the first axis of an `[a, b]` array and read at column `q`, is the sum over that column's
  entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.RowLayout

open Idealize.ShloMosaic Idealize.ShloMosaic.ValueIdx

variable {α : Type}

/-- A reduced vector `[b]` kept as the row `[1, b]` and broadcast back along the columns reads, at `(p, c)`, the
    vector's entry `c`, whatever the row `p`. -/
theorem keepdimsRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A float sum over the first axis of an `[a, b]` array from the zero word, read at column `q` at the extended reals: the
    sum of the column's entries. -/
theorem colSum_apply {a b : ℕ} (src : FVec Ideal ⟨2, ![a, b]⟩ .f32) (h : (⟨2, ![a, b]⟩ : Shape).Reduces [0] ⟨1, ![b]⟩)
    (hφ : FKind.Formats FTy.f32) (hacc : (0x00000000#32 : BitVec FTy.f32.bits) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

end Idealize.ShloMosaic.RowLayout

end
-- ==== Proof.SagePoint.lean ====
/-
  One graph-convolution layer read at one entry.

  The layer is `relu (a · wl + b + x · wr)` on arrays of `n × 128` rows against `128 × 128` weights and a bias of 128
  entries. At entry `(r, q)` it is
  `max ((∑ c, a[r,c] · wl[c,q]) + b[q] + (∑ c, x[r,c] · wr[c,q])) 0`.
  The block program computes, on blocks of 5000 rows, `relu ((a · wl + x · wr) + b)` with each product accumulated into
  the zero array; the two differ by the order of the three summands only, and addition of extended reals is
  commutative and associative. A block of 5000 rows of an array is the array read at the rows `5000 t + p`, so the
  block program on row blocks of the arrays is the row block of the layer.
-/
import proofs.«146746_j61718680044161_1_alg».proof.Proof.Gen.KernelIdeal.Skeleton
import proofs.«146746_j61718680044161_1_alg».proof.Proof.Layers
import proofs.«146746_j61718680044161_1_alg».proof.Proof.LibPlainMatmul
import proofs.«146746_j61718680044161_1_alg».proof.Proof.LibDenseRead
import proofs.«146746_j61718680044161_1_alg».proof.Proof.LibRowLayout
import Idealize.ShloMosaic.Lib.ValueLayout

noncomputable section

open scoped BigOperators

namespace Cert.SagePoint

open Idealize.ShloMosaic Idealize.ShloMosaic.ValueIdx

/-- The layer's value at entry `(r, q)`: `max ((∑ c, a[r,c] · wl[c,q]) + b[q] + (∑ c, x[r,c] · wr[c,q])) 0`. -/
def entry {n : Nat} (a x : (⟨2, ![n, 128]⟩ : Shape).Idx → EReal) (wl wr : (⟨2, ![128, 128]⟩ : Shape).Idx → EReal)
    (b : (⟨1, ![128]⟩ : Shape).Idx → EReal) (r : Fin n) (q : Fin 128) : EReal :=
  max ((∑ c : Fin 128, a (ix2 r c) * wl (ix2 c q)) + b (ix1 q) + (∑ c : Fin 128, x (ix2 r c) * wr (ix2 c q))) 0

/-- The layer on the 100000 product rows at an entry. -/
theorem sageP_apply (a x : FVec Ideal ⟨2, ![100000, 128]⟩ .f32) (wl wr : FVec Ideal ⟨2, ![128, 128]⟩ .f32)
    (b : FVec Ideal ⟨1, ![128]⟩ .f32) (r : Fin 100000) (q : Fin 128) :
    Cert.Layers.sageP a x wl wr b (ix2 r q) = entry a x wl wr b r q := by
  unfold Cert.Layers.sageP entry
  rw [maximumf_apply, addf_apply, addf_apply, DenseRead.zeroFill_apply, DenseRead.biasRows_apply]
  rw [show Cert.ReferenceIdeal.dot_S100000x128_S128x128_S100000x128_1_0_0_1_n_n = DotDims.plain 100000 128 128 from rfl]
  unfold Host.dotGeneral
  rw [DenseRead.dotGeneral_apply, DenseRead.dotGeneral_apply]

/-- The layer on the 50000 customer rows at an entry. -/
theorem sageC_apply (a x : FVec Ideal ⟨2, ![50000, 128]⟩ .f32) (wl wr : FVec Ideal ⟨2, ![128, 128]⟩ .f32)
    (b : FVec Ideal ⟨1, ![128]⟩ .f32) (r : Fin 50000) (q : Fin 128) :
    Cert.Layers.sageC a x wl wr b (ix2 r q) = entry a x wl wr b r q := by
  unfold Cert.Layers.sageC entry
  rw [maximumf_apply, addf_apply, addf_apply, DenseRead.zeroFill_apply, DenseRead.biasRows_apply]
  rw [show Cert.ReferenceIdeal.dot_S50000x128_S128x128_S50000x128_1_0_0_1_n_n = DotDims.plain 50000 128 128 from rfl]
  unfold Host.dotGeneral
  rw [DenseRead.dotGeneral_apply, DenseRead.dotGeneral_apply]

/-- The two-axis zero offsets, however spelt. -/
theorem zeroOffsets2 : (![0, 0] : Fin 2 → Nat) = fun _ => 0 := funext fun a => by fin_cases a <;> rfl

/-- The one-axis zero offset, however spelt. -/
theorem zeroOffsets1 : (![0] : Fin 1 → Nat) = fun _ => 0 := funext fun a => by fin_cases a; rfl

/-- Rows `5000 t … 5000 t + 4999` of an array of `n` rows of 128 entries, as a block of 5000 rows. -/
def rowBlock {α : Type} {n : Nat} (t : Nat) (h : 5000 * t + 5000 ≤ n) (A : (⟨2, ![n, 128]⟩ : Shape).Idx → α) :
    (⟨2, ![5000, 128]⟩ : Shape).Idx → α :=
  fun y => A (ix2 ⟨5000 * t + (y 0).val, by have := idx2_lt0 y; omega⟩ (y 1))

/-- Region 0's stored value at entry `(p, q)` of the block, from its five loaded blocks: the format narrowings are
    the identity on extended reals, each matrix-unit product into the zero accumulator is the plain sum, the bias is
    repeated down the rows; the three summands are then reordered. -/
theorem pay0_apply (v0 v3 : Vec Ideal ⟨2, ![5000, 128]⟩ .f32) (v5 v8 : Vec Ideal ⟨2, ![128, 128]⟩ .f32)
    (v14 : Vec Ideal ⟨1, ![128]⟩ .f32) (p : Fin 5000) (q : Fin 128) :
    Cert.KernelIdeal.Gen.k0_pay1 (F := Ideal) v0 v3 v5 v8 v14 (ix2 p q) = entry v0 v3 v5 v8 v14 p q := by
  unfold Cert.KernelIdeal.Gen.k0_pay1 entry
  rw [maximumf_apply, addf_apply, addf_apply, broadcast_apply, RowLayout.keepdimsRow_apply]
  rw [show Cert.KernelIdeal.dot_S5000x128_S128x128_S5000x128_1_0_0_1_n_n = DotDims.plain 5000 128 128 from rfl]
  unfold Idealize.ShloMosaic.matmul
  rw [PlainMatmul.matmul_zero_apply, PlainMatmul.matmul_zero_apply]
  simp only [truncf_apply, shapeCast_self]
  rw [show (Scalar.ofBits (F := Ideal) .f32 0x00000000#32 : EReal) = 0 from Ideal.ofBits_zero_f32]
  rw [add_right_comm]

/-- Region 1's stored value at entry `(p, q)` of the block, from its five loaded blocks: the format narrowings are
    the identity on extended reals, each matrix-unit product into the zero accumulator is the plain sum, the bias is
    repeated down the rows; the three summands are then reordered. -/
theorem pay1_apply (v0 v3 : Vec Ideal ⟨2, ![5000, 128]⟩ .f32) (v5 v8 : Vec Ideal ⟨2, ![128, 128]⟩ .f32)
    (v14 : Vec Ideal ⟨1, ![128]⟩ .f32) (p : Fin 5000) (q : Fin 128) :
    Cert.KernelIdeal.Gen.k1_pay1 (F := Ideal) v0 v3 v5 v8 v14 (ix2 p q) = entry v0 v3 v5 v8 v14 p q := by
  unfold Cert.KernelIdeal.Gen.k1_pay1 entry
  rw [maximumf_apply, addf_apply, addf_apply, broadcast_apply, RowLayout.keepdimsRow_apply]
  rw [show Cert.KernelIdeal.dot_S5000x128_S128x128_S5000x128_1_0_0_1_n_n = DotDims.plain 5000 128 128 from rfl]
  unfold Idealize.ShloMosaic.matmul
  rw [PlainMatmul.matmul_zero_apply, PlainMatmul.matmul_zero_apply]
  simp only [truncf_apply, shapeCast_self]
  rw [show (Scalar.ofBits (F := Ideal) .f32 0x00000000#32 : EReal) = 0 from Ideal.ofBits_zero_f32]
  rw [add_right_comm]

/-- Region 3's stored value at entry `(p, q)` of the block, from its five loaded blocks: the format narrowings are
    the identity on extended reals, each matrix-unit product into the zero accumulator is the plain sum, the bias is
    repeated down the rows; the three summands are then reordered. -/
theorem pay3_apply (v0 v3 : Vec Ideal ⟨2, ![5000, 128]⟩ .f32) (v5 v8 : Vec Ideal ⟨2, ![128, 128]⟩ .f32)
    (v14 : Vec Ideal ⟨1, ![128]⟩ .f32) (p : Fin 5000) (q : Fin 128) :
    Cert.KernelIdeal.Gen.k3_pay1 (F := Ideal) v0 v3 v5 v8 v14 (ix2 p q) = entry v0 v3 v5 v8 v14 p q := by
  unfold Cert.KernelIdeal.Gen.k3_pay1 entry
  rw [maximumf_apply, addf_apply, addf_apply, broadcast_apply, RowLayout.keepdimsRow_apply]
  rw [show Cert.KernelIdeal.dot_S5000x128_S128x128_S5000x128_1_0_0_1_n_n = DotDims.plain 5000 128 128 from rfl]
  unfold Idealize.ShloMosaic.matmul
  rw [PlainMatmul.matmul_zero_apply, PlainMatmul.matmul_zero_apply]
  simp only [truncf_apply, shapeCast_self]
  rw [show (Scalar.ofBits (F := Ideal) .f32 0x00000000#32 : EReal) = 0 from Ideal.ofBits_zero_f32]
  rw [add_right_comm]

/-- Region 4's stored value at entry `(p, q)` of the block, from its five loaded blocks: the format narrowings are
    the identity on extended reals, each matrix-unit product into the zero accumulator is the plain sum, the bias is
    repeated down the rows; the three summands are then reordered. -/
theorem pay4_apply (v0 v3 : Vec Ideal ⟨2, ![5000, 128]⟩ .f32) (v5 v8 : Vec Ideal ⟨2, ![128, 128]⟩ .f32)
    (v14 : Vec Ideal ⟨1, ![128]⟩ .f32) (p : Fin 5000) (q : Fin 128) :
    Cert.KernelIdeal.Gen.k4_pay1 (F := Ideal) v0 v3 v5 v8 v14 (ix2 p q) = entry v0 v3 v5 v8 v14 p q := by
  unfold Cert.KernelIdeal.Gen.k4_pay1 entry
  rw [maximumf_apply, addf_apply, addf_apply, broadcast_apply, RowLayout.keepdimsRow_apply]
  rw [show Cert.KernelIdeal.dot_S5000x128_S128x128_S5000x128_1_0_0_1_n_n = DotDims.plain 5000 128 128 from rfl]
  unfold Idealize.ShloMosaic.matmul
  rw [PlainMatmul.matmul_zero_apply, PlainMatmul.matmul_zero_apply]
  simp only [truncf_apply, shapeCast_self]
  rw [show (Scalar.ofBits (F := Ideal) .f32 0x00000000#32 : EReal) = 0 from Ideal.ofBits_zero_f32]
  rw [add_right_comm]

/-- Region 5's stored value at entry `(p, q)` of the block, from its five loaded blocks: the format narrowings are
    the identity on extended reals, each matrix-unit product into the zero accumulator is the plain sum, the bias is
    repeated down the rows; the three summands are then reordered. -/
theorem pay5_apply (v0 v3 : Vec Ideal ⟨2, ![5000, 128]⟩ .f32) (v5 v8 : Vec Ideal ⟨2, ![128, 128]⟩ .f32)
    (v14 : Vec Ideal ⟨1, ![128]⟩ .f32) (p : Fin 5000) (q : Fin 128) :
    Cert.KernelIdeal.Gen.k5_pay1 (F := Ideal) v0 v3 v5 v8 v14 (ix2 p q) = entry v0 v3 v5 v8 v14 p q := by
  unfold Cert.KernelIdeal.Gen.k5_pay1 entry
  rw [maximumf_apply, addf_apply, addf_apply, broadcast_apply, RowLayout.keepdimsRow_apply]
  rw [show Cert.KernelIdeal.dot_S5000x128_S128x128_S5000x128_1_0_0_1_n_n = DotDims.plain 5000 128 128 from rfl]
  unfold Idealize.ShloMosaic.matmul
  rw [PlainMatmul.matmul_zero_apply, PlainMatmul.matmul_zero_apply]
  simp only [truncf_apply, shapeCast_self]
  rw [show (Scalar.ofBits (F := Ideal) .f32 0x00000000#32 : EReal) = 0 from Ideal.ofBits_zero_f32]
  rw [add_right_comm]

/-- Region 0's stored block, computed from row blocks of the arrays, is the row block of the layer. -/
theorem pay0_rowBlock (t : Nat) (h : 5000 * t + 5000 ≤ 100000) (a x : FVec Ideal ⟨2, ![100000, 128]⟩ .f32)
    (wl wr : FVec Ideal ⟨2, ![128, 128]⟩ .f32) (b : FVec Ideal ⟨1, ![128]⟩ .f32) :
    Cert.KernelIdeal.Gen.k0_pay1 (F := Ideal) (rowBlock t h a) (rowBlock t h x) wl wr b
      = rowBlock t h (Cert.Layers.sageP a x wl wr b) := by
  funext j
  obtain ⟨p, q, rfl⟩ : ∃ (p : Fin 5000) (q : Fin 128), j = ix2 p q := ⟨j 0, j 1, eq_ix2 j⟩
  rw [pay0_apply]
  show _ = Cert.Layers.sageP a x wl wr b (ix2 ⟨5000 * t + p.val, by have := p.isLt; omega⟩ q)
  rw [sageP_apply]
  rfl

/-- Region 1's stored block, computed from row blocks of the arrays, is the row block of the layer. -/
theorem pay1_rowBlock (t : Nat) (h : 5000 * t + 5000 ≤ 100000) (a x : FVec Ideal ⟨2, ![100000, 128]⟩ .f32)
    (wl wr : FVec Ideal ⟨2, ![128, 128]⟩ .f32) (b : FVec Ideal ⟨1, ![128]⟩ .f32) :
    Cert.KernelIdeal.Gen.k1_pay1 (F := Ideal) (rowBlock t h a) (rowBlock t h x) wl wr b
      = rowBlock t h (Cert.Layers.sageP a x wl wr b) := by
  funext j
  obtain ⟨p, q, rfl⟩ : ∃ (p : Fin 5000) (q : Fin 128), j = ix2 p q := ⟨j 0, j 1, eq_ix2 j⟩
  rw [pay1_apply]
  show _ = Cert.Layers.sageP a x wl wr b (ix2 ⟨5000 * t + p.val, by have := p.isLt; omega⟩ q)
  rw [sageP_apply]
  rfl

/-- Region 3's stored block, computed from row blocks of the arrays, is the row block of the layer. -/
theorem pay3_rowBlock (t : Nat) (h : 5000 * t + 5000 ≤ 100000) (a x : FVec Ideal ⟨2, ![100000, 128]⟩ .f32)
    (wl wr : FVec Ideal ⟨2, ![128, 128]⟩ .f32) (b : FVec Ideal ⟨1, ![128]⟩ .f32) :
    Cert.KernelIdeal.Gen.k3_pay1 (F := Ideal) (rowBlock t h a) (rowBlock t h x) wl wr b
      = rowBlock t h (Cert.Layers.sageP a x wl wr b) := by
  funext j
  obtain ⟨p, q, rfl⟩ : ∃ (p : Fin 5000) (q : Fin 128), j = ix2 p q := ⟨j 0, j 1, eq_ix2 j⟩
  rw [pay3_apply]
  show _ = Cert.Layers.sageP a x wl wr b (ix2 ⟨5000 * t + p.val, by have := p.isLt; omega⟩ q)
  rw [sageP_apply]
  rfl

/-- Region 4's stored block, computed from row blocks of the arrays, is the row block of the layer. -/
theorem pay4_rowBlock (t : Nat) (h : 5000 * t + 5000 ≤ 50000) (a x : FVec Ideal ⟨2, ![50000, 128]⟩ .f32)
    (wl wr : FVec Ideal ⟨2, ![128, 128]⟩ .f32) (b : FVec Ideal ⟨1, ![128]⟩ .f32) :
    Cert.KernelIdeal.Gen.k4_pay1 (F := Ideal) (rowBlock t h a) (rowBlock t h x) wl wr b
      = rowBlock t h (Cert.Layers.sageC a x wl wr b) := by
  funext j
  obtain ⟨p, q, rfl⟩ : ∃ (p : Fin 5000) (q : Fin 128), j = ix2 p q := ⟨j 0, j 1, eq_ix2 j⟩
  rw [pay4_apply]
  show _ = Cert.Layers.sageC a x wl wr b (ix2 ⟨5000 * t + p.val, by have := p.isLt; omega⟩ q)
  rw [sageC_apply]
  rfl

/-- Region 5's stored block, computed from row blocks of the arrays, is the row block of the layer. -/
theorem pay5_rowBlock (t : Nat) (h : 5000 * t + 5000 ≤ 50000) (a x : FVec Ideal ⟨2, ![50000, 128]⟩ .f32)
    (wl wr : FVec Ideal ⟨2, ![128, 128]⟩ .f32) (b : FVec Ideal ⟨1, ![128]⟩ .f32) :
    Cert.KernelIdeal.Gen.k5_pay1 (F := Ideal) (rowBlock t h a) (rowBlock t h x) wl wr b
      = rowBlock t h (Cert.Layers.sageC a x wl wr b) := by
  funext j
  obtain ⟨p, q, rfl⟩ : ∃ (p : Fin 5000) (q : Fin 128), j = ix2 p q := ⟨j 0, j 1, eq_ix2 j⟩
  rw [pay5_apply]
  show _ = Cert.Layers.sageC a x wl wr b (ix2 ⟨5000 * t + p.val, by have := p.isLt; omega⟩ q)
  rw [sageC_apply]
  rfl

end Cert.SagePoint

end
-- ==== Proof.Region0.lean ====
/-
  Graph-convolution region 0: the output array after the run is the whole-array layer of the region's input arrays.

  The grid has 20 points. At point `t` the two row-blocked inputs and the output sit at rows `5000 t … 5000 t + 4999`
  of their arrays, and the two weight matrices and the bias are whole arrays. The body stores the block program's value
  of its five loaded blocks; on row blocks of the arrays that is the row block of the layer (the per-entry module).
  Every row `r` of the output lies in the block of point `r / 5000`, so the blocks written back cover the array and
  the array ends holding the layer.
-/
import proofs.«146746_j61718680044161_1_alg».proof.Proof.Gen.KernelIdeal.Frame
import proofs.«146746_j61718680044161_1_alg».proof.Proof.SagePoint
import Idealize.ShloMosaic.Lib.Pipeline.Value

noncomputable section

namespace Cert.KernelIdeal.Gen

open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The block indices at every point of the grid: the row-blocked windows are at block `(t, 0)`, the whole-array
    windows at block 0. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Point `t`'s block of 5000 rows ends inside the 100000 rows. -/
theorem rowsIn0 (t : Fin cfg0.N) : 5000 * t.val + 5000 ≤ 100000 := by
  have hN : grid0.N = 20 := N_0
  have := t.isLt
  show 5000 * t.val + 5000 ≤ 100000
  have h : t.val < grid0.N := t.isLt
  omega

/-- The first input's block at point `t` is rows `5000 t …` of its array. -/
theorem meanBlock0 (c : Dev nD) (t : Fin cfg0.N) :
    iblk0 V c 0 t = SagePoint.rowBlock t.val (rowsIn0 t) (V c main_v26 : S100000x128.Idx → EReal) := by
  obtain ⟨e0, e1, -⟩ := blockIndex0 t
  funext y
  show V c main_v26 (((cfg0.win 0).blk t).view.emb y) = V c main_v26 _
  refine congrArg _ (funext fun a => Fin.ext ?_)
  match a with
  | ⟨0, _⟩ => show win0_0.index t (0 : Fin 2) * 5000 + 1 * (y 0).val = 5000 * t.val + (y 0).val; omega
  | ⟨1, _⟩ => show win0_0.index t (1 : Fin 2) * 128 + 1 * (y 1).val = (y 1).val; omega

/-- The second input's block at point `t` is rows `5000 t …` of its array. -/
theorem selfBlock0 (c : Dev nD) (t : Fin cfg0.N) :
    iblk0 V c 1 t = SagePoint.rowBlock t.val (rowsIn0 t) (V c main_arg0 : S100000x128.Idx → EReal) := by
  obtain ⟨-, -, e0, e1, -⟩ := blockIndex0 t
  funext y
  show V c main_arg0 (((cfg0.win 1).blk t).view.emb y) = V c main_arg0 _
  refine congrArg _ (funext fun a => Fin.ext ?_)
  match a with
  | ⟨0, _⟩ => show win0_1.index t (0 : Fin 2) * 5000 + 1 * (y 0).val = 5000 * t.val + (y 0).val; omega
  | ⟨1, _⟩ => show win0_1.index t (1 : Fin 2) * 128 + 1 * (y 1).val = (y 1).val; omega

/-- The first weight's block at every point is the whole matrix. -/
theorem leftWeightBlock0 (c : Dev nD) (t : Fin cfg0.N) :
    iblk0 V c 2 t = (V c main_v46 : S128x128.Idx → EReal) := by
  obtain ⟨-, -, -, -, e0, e1, -⟩ := blockIndex0 t
  funext y
  show V c main_v46 (((cfg0.win 2).blk t).view.emb y) = V c main_v46 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second weight's block at every point is the whole matrix. -/
theorem rightWeightBlock0 (c : Dev nD) (t : Fin cfg0.N) :
    iblk0 V c 3 t = (V c main_v47 : S128x128.Idx → EReal) := by
  obtain ⟨-, -, -, -, -, -, e0, e1, -⟩ := blockIndex0 t
  funext y
  show V c main_v47 (((cfg0.win 3).blk t).view.emb y) = V c main_v47 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias's block at every point is the whole vector. -/
theorem biasBlock0 (c : Dev nD) (t : Fin cfg0.N) :
    iblk0 V c 4 t = (V c main_arg6 : S128.Idx → EReal) := by
  obtain ⟨-, -, -, -, -, -, -, -, e0, -⟩ := blockIndex0 t
  funext y
  show V c main_arg6 (((cfg0.win 4).blk t).view.emb y) = V c main_arg6 y
  refine congrArg _ (funext fun a => Fin.ext ?_)
  match a with
  | ⟨0, _⟩ => show win0_4.index t (0 : Fin 1) * 128 + 1 * (y 0).val = (y 0).val; omega

/-- What point `t` writes back is block `t` of the layer of the region's input arrays. -/
theorem flushed0_eq (c : Dev nD) (t : Fin cfg0.N) :
    (dat0 (F := Ideal) V c).flushed 5 t = ((cfg0.win 5).blk t).view.read (Elt Ideal)
      (Cert.Layers.sageP (V c main_v26) (V c main_arg0) (V c main_v46) (V c main_v47) (V c main_arg6)) := by
  show (cfg0.win 5).cut (grid0.coords t) ((dat0 V c).after 5 t) = _
  rw [after0_5]
  unfold out0_5
  rw [View.canon_unit_zero SagePoint.zeroOffsets2]
  simp only [View.ld_unit_zero (S := S5000x128) SagePoint.zeroOffsets2, View.ld_unit_zero (S := S128x128) SagePoint.zeroOffsets2,
    View.ld_unit_zero (S := S128) SagePoint.zeroOffsets1]
  rw [meanBlock0, selfBlock0, leftWeightBlock0, rightWeightBlock0, biasBlock0, SagePoint.pay0_rowBlock]
  obtain ⟨-, -, -, -, -, -, -, -, -, e0, e1⟩ := blockIndex0 t
  funext y
  show Cert.Layers.sageP (V c main_v26) (V c main_arg0) (V c main_v46) (V c main_v47) (V c main_arg6) _
    = Cert.Layers.sageP (V c main_v26) (V c main_arg0) (V c main_v46) (V c main_v47) (V c main_arg6) (((cfg0.win 5).blk t).view.emb y)
  refine congrArg _ (funext fun a => Fin.ext ?_)
  match a with
  | ⟨0, _⟩ => show 5000 * t.val + (y 0).val = win0_5.index t (0 : Fin 2) * 5000 + 1 * (y 0).val; omega
  | ⟨1, _⟩ => show (y 1).val = win0_5.index t (1 : Fin 2) * 128 + 1 * (y 1).val; omega

/-- An index of the output array is in point `t`'s block iff each coordinate is in the block's range on its axis. -/
theorem mem_outBlock0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v48).slice (win0_5.rect t)).set ↔ _
  rw [View.set_slice_whole, Rect.mem_set_unit]
  exact Iff.rfl

/-- Every point of the grid is some row block's. -/
theorem pointOfBlock0 : ∀ q : Fin 20, ∃ t : Fin cfg0.N, t.val = q.val :=
  fun q => ⟨⟨q.val, by have hN : grid0.N = 20 := N_0; show q.val < grid0.N; omega⟩, rfl⟩

/-- Every index of the output array is in the block of the point `row / 5000`. -/
theorem covered0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := pointOfBlock0 ⟨(i 0).val / 5000, by omega⟩
  have ht' : t.val = (i 0).val / 5000 := ht
  obtain ⟨-, -, -, -, -, -, -, -, -, e0, e1⟩ := blockIndex0 t
  refine ⟨t, flush0_5 t, ?_⟩
  rw [mem_outBlock0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the run is the layer of the region's input arrays. -/
theorem final0 (V : (c : Dev nD) → (b : Ref sig .tc) → Buf (Elt Ideal) ((c : Thread nD τ).loc b)) (c : Dev nD) :
    (dat0 (F := Ideal) V c).arrAt 5 cfg0.N = Cert.Layers.sageP (V c main_v26) (V c main_arg0) (V c main_v46) (V c main_v47) (V c main_arg6) :=
  (dat0 (F := Ideal) V c).arrAt_eq_of_cover 5 _ (fun t _ => flushed0_eq V c t) (covered0)

end Cert.KernelIdeal.Gen

end
-- ==== Proof.Region1.lean ====
/-
  Graph-convolution region 1: the output array after the run is the whole-array layer of the region's input arrays.

  The grid has 20 points. At point `t` the two row-blocked inputs and the output sit at rows `5000 t … 5000 t + 4999`
  of their arrays, and the two weight matrices and the bias are whole arrays. The body stores the block program's value
  of its five loaded blocks; on row blocks of the arrays that is the row block of the layer (the per-entry module).
  Every row `r` of the output lies in the block of point `r / 5000`, so the blocks written back cover the array and
  the array ends holding the layer.
-/
import proofs.«146746_j61718680044161_1_alg».proof.Proof.Gen.KernelIdeal.Frame
import proofs.«146746_j61718680044161_1_alg».proof.Proof.SagePoint
import Idealize.ShloMosaic.Lib.Pipeline.Value

noncomputable section

namespace Cert.KernelIdeal.Gen

open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The block indices at every point of the grid: the row-blocked windows are at block `(t, 0)`, the whole-array
    windows at block 0. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Point `t`'s block of 5000 rows ends inside the 100000 rows. -/
theorem rowsIn1 (t : Fin cfg1.N) : 5000 * t.val + 5000 ≤ 100000 := by
  have hN : grid1.N = 20 := N_1
  have := t.isLt
  show 5000 * t.val + 5000 ≤ 100000
  have h : t.val < grid1.N := t.isLt
  omega

/-- The first input's block at point `t` is rows `5000 t …` of its array. -/
theorem meanBlock1 (c : Dev nD) (t : Fin cfg1.N) :
    iblk1 V c 0 t = SagePoint.rowBlock t.val (rowsIn1 t) (V c main_v67 : S100000x128.Idx → EReal) := by
  obtain ⟨e0, e1, -⟩ := blockIndex1 t
  funext y
  show V c main_v67 (((cfg1.win 0).blk t).view.emb y) = V c main_v67 _
  refine congrArg _ (funext fun a => Fin.ext ?_)
  match a with
  | ⟨0, _⟩ => show win1_0.index t (0 : Fin 2) * 5000 + 1 * (y 0).val = 5000 * t.val + (y 0).val; omega
  | ⟨1, _⟩ => show win1_0.index t (1 : Fin 2) * 128 + 1 * (y 1).val = (y 1).val; omega

/-- The second input's block at point `t` is rows `5000 t …` of its array. -/
theorem selfBlock1 (c : Dev nD) (t : Fin cfg1.N) :
    iblk1 V c 1 t = SagePoint.rowBlock t.val (rowsIn1 t) (V c main_v48 : S100000x128.Idx → EReal) := by
  obtain ⟨-, -, e0, e1, -⟩ := blockIndex1 t
  funext y
  show V c main_v48 (((cfg1.win 1).blk t).view.emb y) = V c main_v48 _
  refine congrArg _ (funext fun a => Fin.ext ?_)
  match a with
  | ⟨0, _⟩ => show win1_1.index t (0 : Fin 2) * 5000 + 1 * (y 0).val = 5000 * t.val + (y 0).val; omega
  | ⟨1, _⟩ => show win1_1.index t (1 : Fin 2) * 128 + 1 * (y 1).val = (y 1).val; omega

/-- The first weight's block at every point is the whole matrix. -/
theorem leftWeightBlock1 (c : Dev nD) (t : Fin cfg1.N) :
    iblk1 V c 2 t = (V c main_v68 : S128x128.Idx → EReal) := by
  obtain ⟨-, -, -, -, e0, e1, -⟩ := blockIndex1 t
  funext y
  show V c main_v68 (((cfg1.win 2).blk t).view.emb y) = V c main_v68 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The second weight's block at every point is the whole matrix. -/
theorem rightWeightBlock1 (c : Dev nD) (t : Fin cfg1.N) :
    iblk1 V c 3 t = (V c main_v69 : S128x128.Idx → EReal) := by
  obtain ⟨-, -, -, -, -, -, e0, e1, -⟩ := blockIndex1 t
  funext y
  show V c main_v69 (((cfg1.win 3).blk t).view.emb y) = V c main_v69 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias's block at every point is the whole vector. -/
theorem biasBlock1 (c : Dev nD) (t : Fin cfg1.N) :
    iblk1 V c 4 t = (V c main_arg9 : S128.Idx → EReal) := by
  obtain ⟨-, -, -, -, -, -, -, -, e0, -⟩ := blockIndex1 t
  funext y
  show V c main_arg9 (((cfg1.win 4).blk t).view.emb y) = V c main_arg9 y
  refine congrArg _ (funext fun a => Fin.ext ?_)
  match a with
  | ⟨0, _⟩ => show win1_4.index t (0 : Fin 1) * 128 + 1 * (y 0).val = (y 0).val; omega

/-- What point `t` writes back is block `t` of the layer of the region's input arrays. -/
theorem flushed1_eq (c : Dev nD) (t : Fin cfg1.N) :
    (dat1 (F := Ideal) V c).flushed 5 t = ((cfg1.win 5).blk t).view.read (Elt Ideal)
      (Cert.Layers.sageP (V c main_v67) (V c main_v48) (V c main_v68) (V c main_v69) (V c main_arg9)) := by
  show (cfg1.win 5).cut (grid1.coords t) ((dat1 V c).after 5 t) = _
  rw [after1_5]
  unfold out1_5
  rw [View.canon_unit_zero SagePoint.zeroOffsets2]
  simp only [View.ld_unit_zero (S := S5000x128) SagePoint.zeroOffsets2, View.ld_unit_zero (S := S128x128) SagePoint.zeroOffsets2,
    View.ld_unit_zero (S := S128) SagePoint.zeroOffsets1]
  rw [meanBlock1, selfBlock1, leftWeightBlock1, rightWeightBlock1, biasBlock1, SagePoint.pay1_rowBlock]
  obtain ⟨-, -, -, -, -, -, -, -, -, e0, e1⟩ := blockIndex1 t
  funext y
  show Cert.Layers.sageP (V c main_v67) (V c main_v48) (V c main_v68) (V c main_v69) (V c main_arg9) _
    = Cert.Layers.sageP (V c main_v67) (V c main_v48) (V c main_v68) (V c main_v69) (V c main_arg9) (((cfg1.win 5).blk t).view.emb y)
  refine congrArg _ (funext fun a => Fin.ext ?_)
  match a with
  | ⟨0, _⟩ => show 5000 * t.val + (y 0).val = win1_5.index t (0 : Fin 2) * 5000 + 1 * (y 0).val; omega
  | ⟨1, _⟩ => show (y 1).val = win1_5.index t (1 : Fin 2) * 128 + 1 * (y 1).val; omega

/-- An index of the output array is in point `t`'s block iff each coordinate is in the block's range on its axis. -/
theorem mem_outBlock1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v70).slice (win1_5.rect t)).set ↔ _
  rw [View.set_slice_whole, Rect.mem_set_unit]
  exact Iff.rfl

/-- Every point of the grid is some row block's. -/
theorem pointOfBlock1 : ∀ q : Fin 20, ∃ t : Fin cfg1.N, t.val = q.val :=
  fun q => ⟨⟨q.val, by have hN : grid1.N = 20 := N_1; show q.val < grid1.N; omega⟩, rfl⟩

/-- Every index of the output array is in the block of the point `row / 5000`. -/
theorem covered1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := pointOfBlock1 ⟨(i 0).val / 5000, by omega⟩
  have ht' : t.val = (i 0).val / 5000 := ht
  obtain ⟨-, -, -, -, -, -, -, -, -, e0, e1⟩ := blockIndex1 t
  refine ⟨t, flush1_5 t, ?_⟩
  rw [mem_outBlock1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the run is the layer of the region's input arrays. -/
theorem final1 (V : (c : Dev nD) → (b : Ref sig .tc) → Buf (Elt Ideal) ((c : Thread nD τ).loc b)) (c : Dev nD) :
    (dat1 (F := Ideal) V c).arrAt 5 cfg1.N = Cert.Layers.sageP (V c main_v67) (V c main_v48) (V c main_v68) (V c main_v69) (V c main_arg9) :=
  (dat1 (F := Ideal) V c).arrAt_eq_of_cover 5 _ (fun t _ => flushed1_eq V c t) (covered1)

end Cert.KernelIdeal.Gen

end
-- ==== Proof.LinPoint.lean ====
/-
  The output projection at one entry.

  On a block of 5000 rows the block body holds, at entry (p, q), the sum over the 128 features of
  x[p, k] · W[k, q], plus b[q]: the narrowing of the operands is the identity on the extended reals, the matrix unit
  accumulates into the zero block, and the bias is laid as one row repeated down the rows. The whole-array layer
  functions on 100000 and on 50000 rows hold the same expression at every entry (r, q) of their arrays.
-/
import proofs.«146746_j61718680044161_1_alg».proof.Proof.Gen.KernelIdeal.Skeleton
import proofs.«146746_j61718680044161_1_alg».proof.Proof.Layers
import proofs.«146746_j61718680044161_1_alg».proof.Proof.LibPlainMatmul
import proofs.«146746_j61718680044161_1_alg».proof.Proof.LibDenseRead
import proofs.«146746_j61718680044161_1_alg».proof.Proof.LibRowLayout

noncomputable section

open scoped BigOperators

namespace Cert.LinPoint

open Idealize.ShloMosaic Idealize.ShloMosaic.ValueIdx

/-- The projection of one row: `∑ k, x[r, k] · W[k, q] + b[q]`, for an array of `n` rows. -/
def lin {n : Nat} (x : (⟨2, ![n, 128]⟩ : Shape).Idx → EReal) (w : (⟨2, ![128, 64]⟩ : Shape).Idx → EReal)
    (b : (⟨1, ![64]⟩ : Shape).Idx → EReal) (r : Fin n) (q : Fin 64) : EReal :=
  (∑ k : Fin 128, x (ix2 r k) * w (ix2 k q)) + b (ix1 q)

/-- The block body of the product encoder's projection at an entry of its block. -/
theorem pay2_apply (x : Vec Ideal Cert.KernelIdeal.S5000x128 .f32) (w : Vec Ideal Cert.KernelIdeal.S128x64 .f32)
    (b : Vec Ideal Cert.KernelIdeal.S64 .f32) (p : Fin 5000) (q : Fin 64) :
    Cert.KernelIdeal.Gen.k2_pay1 (F := Ideal) x w b (ix2 p q) = lin x w b p q := by
  refine congrArg₂ (· + ·) ?_ ?_
  · rw [shapeCast_self, shapeCast_self]
    exact PlainMatmul.matmul_zero_apply (m := 5000) (k := 128) (n := 64) none
      (truncf .bf16 x Cert.KernelIdeal.Gen.bitsLt_bf16_f32) (truncf .bf16 w Cert.KernelIdeal.Gen.bitsLt_bf16_f32) p q
  · exact RowLayout.keepdimsRow_apply (a := 5000) (b := 64) b _ _ p q

/-- The block body of the customer encoder's projection at an entry of its block. -/
theorem pay6_apply (x : Vec Ideal Cert.KernelIdeal.S5000x128 .f32) (w : Vec Ideal Cert.KernelIdeal.S128x64 .f32)
    (b : Vec Ideal Cert.KernelIdeal.S64 .f32) (p : Fin 5000) (q : Fin 64) :
    Cert.KernelIdeal.Gen.k6_pay1 (F := Ideal) x w b (ix2 p q) = lin x w b p q := by
  refine congrArg₂ (· + ·) ?_ ?_
  · rw [shapeCast_self, shapeCast_self]
    exact PlainMatmul.matmul_zero_apply (m := 5000) (k := 128) (n := 64) none
      (truncf .bf16 x Cert.KernelIdeal.Gen.bitsLt_bf16_f32) (truncf .bf16 w Cert.KernelIdeal.Gen.bitsLt_bf16_f32) p q
  · exact RowLayout.keepdimsRow_apply (a := 5000) (b := 64) b _ _ p q

/-- The product encoder's projection of the whole array at an entry. -/
theorem linP_apply (x : FVec Ideal Cert.ReferenceIdeal.S100000x128 .f32) (w : FVec Ideal Cert.ReferenceIdeal.S128x64 .f32)
    (b : FVec Ideal Cert.ReferenceIdeal.S64 .f32) (r : Fin 100000) (q : Fin 64) :
    Cert.Layers.linP x w b (ix2 r q) = lin x w b r q := by
  refine congrArg₂ (· + ·) ?_ ?_
  · exact DenseRead.dotGeneral_apply (m := 100000) (k := 128) (n := 64) none _ x w r q
  · exact DenseRead.biasRows_apply (m := 100000) (n := 64) b _ _ r q

/-- The customer encoder's projection of the whole array at an entry. -/
theorem linC_apply (x : FVec Ideal Cert.ReferenceIdeal.S50000x128 .f32) (w : FVec Ideal Cert.ReferenceIdeal.S128x64 .f32)
    (b : FVec Ideal Cert.ReferenceIdeal.S64 .f32) (r : Fin 50000) (q : Fin 64) :
    Cert.Layers.linC x w b (ix2 r q) = lin x w b r q := by
  refine congrArg₂ (· + ·) ?_ ?_
  · exact DenseRead.dotGeneral_apply (m := 50000) (k := 128) (n := 64) none _ x w r q
  · exact DenseRead.biasRows_apply (m := 50000) (n := 64) b _ _ r q

end Cert.LinPoint

end
-- ==== Proof.Region2.lean ====
/-
  The product encoder's output projection, from blocks to the array.

  The region runs over 20 points. At point `t` the input block is rows `5000 t … 5000 t + 4999` of the 100000 × 128
  input, the weight and the bias are read whole, and the block written back is rows `5000 t … 5000 t + 4999` of the
  100000 × 64 result. Entry (p, q) of the block the body leaves is `∑ k, x[5000 t + p, k] · W[k, q] + b[q]`, which is
  entry (5000 t + p, q) of the whole-array projection. Row `r` of the result is written by point `r / 5000`, so the 20
  blocks cover the array, and the array after the run is the projection of the whole input.
-/
import proofs.«146746_j61718680044161_1_alg».proof.Proof.Gen.KernelIdeal.Frame
import proofs.«146746_j61718680044161_1_alg».proof.Proof.Layers
import proofs.«146746_j61718680044161_1_alg».proof.Proof.LinPoint
import Idealize.ShloMosaic.Lib.Pipeline.Value

noncomputable section

namespace Cert.KernelIdeal.Gen

open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The body reads and writes its blocks from their first entry. -/
theorem origin2_rank2 : (![0, 0] : Fin 2 → Nat) = fun _ => 0 := funext fun a => by fin_cases a <;> rfl
theorem origin2_rank1 : (![0] : Fin 1 → Nat) = fun _ => 0 := funext fun a => by fin_cases a <;> rfl

/-- The block numbers at point `t`: the row-blocked windows sit at block `t` of the rows, the weight and the bias at
    their one block. -/
theorem blockNumbers2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The input block at point `t` holds rows `5000 t + p` of the input array. -/
theorem rows2_apply (c : Dev nD) (t : Fin cfg2.N) (p : Fin 5000) (k : Fin 128) (r : Fin 100000) (hr : r.val = t.val * 5000 + p.val) :
    (iblk2 V c 0 t : Vec Ideal S5000x128 .f32) (ix2 p k) = (V c main_v70 : S100000x128.Idx → EReal) (ix2 r k) := by
  obtain ⟨e0, e1, -⟩ := blockNumbers2 t
  show V c main_v70 (((cfg2.win 0).blk t).view.emb (ix2 p k)) = V c main_v70 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The weight block at every point is the weight array. -/
theorem weight2_apply (c : Dev nD) (t : Fin cfg2.N) (k : Fin 128) (q : Fin 64) :
    (iblk2 V c 1 t : Vec Ideal S128x64 .f32) (ix2 k q) = (V c main_v71 : S128x64.Idx → EReal) (ix2 k q) := by
  obtain ⟨-, -, e2, e3, -⟩ := blockNumbers2 t
  show V c main_v71 (((cfg2.win 1).blk t).view.emb (ix2 k q)) = V c main_v71 (ix2 k q)
  refine congrArg _ (funext fun a => Fin.ext ?_)
  match a with
  | ⟨0, _⟩ => show win2_1.index t (0 : Fin 2) * 128 + 1 * k.val = k.val; omega
  | ⟨1, _⟩ => show win2_1.index t (1 : Fin 2) * 64 + 1 * q.val = q.val; omega

/-- The bias block at every point is the bias array. -/
theorem bias2_apply (c : Dev nD) (t : Fin cfg2.N) (q : Fin 64) :
    (iblk2 V c 2 t : Vec Ideal S64 .f32) (ix1 q) = (V c main_arg12 : S64.Idx → EReal) (ix1 q) := by
  obtain ⟨-, -, -, -, e4, -⟩ := blockNumbers2 t
  show V c main_arg12 (((cfg2.win 2).blk t).view.emb (ix1 q)) = V c main_arg12 (ix1 q)
  refine congrArg _ (funext fun a => Fin.ext ?_)
  match a with
  | ⟨0, _⟩ => show win2_2.index t (0 : Fin 1) * 64 + 1 * q.val = q.val; omega

/-- What point `t` writes back is block `t` of the projection of the whole input. -/
theorem flushed2_eq (c : Dev nD) (t : Fin cfg2.N) :
    (dat2 (F := Ideal) V c).flushed 3 t
      = ((cfg2.win 3).blk t).view.read (Elt Ideal) (Cert.Layers.linP (V c main_v70) (V c main_v71) (V c main_arg12)) := by
  show (cfg2.win 3).cut (grid2.coords t) ((dat2 V c).after 3 t) = _
  rw [after2_3]
  unfold out2_3
  rw [View.canon_unit_zero origin2_rank2]
  simp only [View.ld_unit_zero (S := S5000x128) origin2_rank2, View.ld_unit_zero (S := S128x64) origin2_rank2,
    View.ld_unit_zero (S := S64) origin2_rank1]
  obtain ⟨-, -, -, -, -, e5, e6⟩ := blockNumbers2 t
  have hN : t.val < 20 := Nat.lt_of_lt_of_eq t.isLt (show cfg2.N = 20 from N_2)
  funext j
  obtain ⟨p, q, rfl⟩ : ∃ (p : Fin 5000) (q : Fin 64), j = ix2 p q := ⟨j 0, j 1, eq_ix2 j⟩
  have hp : p.val < 5000 := p.isLt
  have hrow : ((cfg2.win 3).blk t).view.emb (ix2 p q) = (ix2 (⟨t.val * 5000 + p.val, by omega⟩ : Fin 100000) q : S100000x64.Idx) := by
    funext a; apply Fin.ext
    match a with
    | ⟨0, _⟩ => show win2_3.index t (0 : Fin 2) * 5000 + 1 * p.val = t.val * 5000 + p.val; omega
    | ⟨1, _⟩ => show win2_3.index t (1 : Fin 2) * 64 + 1 * q.val = q.val; omega
  show k2_pay1 (iblk2 V c 0 t) (iblk2 V c 1 t) (iblk2 V c 2 t) (ix2 p q)
    = Cert.Layers.linP (V c main_v70) (V c main_v71) (V c main_arg12) (((cfg2.win 3).blk t).view.emb (ix2 p q))
  rw [hrow, Cert.LinPoint.pay2_apply, Cert.LinPoint.linP_apply]
  unfold Cert.LinPoint.lin
  rw [bias2_apply]
  refine congrArg₂ (· + ·) (Finset.sum_congr rfl fun k _ => ?_) rfl
  rw [rows2_apply V c t p k ⟨t.val * 5000 + p.val, by omega⟩ rfl, weight2_apply]

/-- An entry of the result is in point `t`'s block iff each coordinate is in the block's range on its axis. -/
theorem mem_block2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v72).slice (win2_3.rect t)).set ↔ _
  rw [View.set_slice_whole, Rect.mem_set_unit]
  exact Iff.rfl

/-- Row `r` of the result is written by point `r / 5000`. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨-, -, -, -, -, e5, e6⟩ := blockNumbers2 t
  have ht : t.val = (i 0).val / 5000 := rfl
  refine ⟨t, flush2_3 t, ?_⟩
  rw [mem_block2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The result array after the run is the projection of the whole input array. -/
theorem final2 (c : Dev nD) :
    (dat2 (F := Ideal) V c).arrAt 3 cfg2.N = Cert.Layers.linP (V c main_v70) (V c main_v71) (V c main_arg12) :=
  (dat2 (F := Ideal) V c).arrAt_eq_of_cover 3 (Cert.Layers.linP (V c main_v70) (V c main_v71) (V c main_arg12))
    (fun t _ => flushed2_eq V c t) cover2

end Cert.KernelIdeal.Gen

end
-- ==== Proof.Region3.lean ====
/-
  Graph-convolution region 3: the output array after the run is the whole-array layer of the region's input arrays.

  The grid has 20 points. At point `t` the two row-blocked inputs and the output sit at rows `5000 t … 5000 t + 4999`
  of their arrays, and the two weight matrices and the bias are whole arrays. The body stores the block program's value
  of its five loaded blocks; on row blocks of the arrays that is the row block of the layer (the per-entry module).
  Every row `r` of the output lies in the block of point `r / 5000`, so the blocks written back cover the array and
  the array ends holding the layer.
-/
import proofs.«146746_j61718680044161_1_alg».proof.Proof.Gen.KernelIdeal.Frame
import proofs.«146746_j61718680044161_1_alg».proof.Proof.SagePoint
import Idealize.ShloMosaic.Lib.Pipeline.Value

noncomputable section

namespace Cert.KernelIdeal.Gen

open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The block indices at every point of the grid: the row-blocked windows are at block `(t, 0)`, the whole-array
    windows at block 0. -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- Point `t`'s block of 5000 rows ends inside the 100000 rows. -/
theorem rowsIn3 (t : Fin cfg3.N) : 5000 * t.val + 5000 ≤ 100000 := by
  have hN : grid3.N = 20 := N_3
  have := t.isLt
  show 5000 * t.val + 5000 ≤ 100000
  have h : t.val < grid3.N := t.isLt
  omega

/-- The first input's block at point `t` is rows `5000 t …` of its array. -/
theorem meanBlock3 (c : Dev nD) (t : Fin cfg3.N) :
    iblk3 V c 0 t = SagePoint.rowBlock t.val (rowsIn3 t) (V c main_v26 : S100000x128.Idx → EReal) := by
  obtain ⟨e0, e1, -⟩ := blockIndex3 t
  funext y
  show V c main_v26 (((cfg3.win 0).blk t).view.emb y) = V c main_v26 _
  refine congrArg _ (funext fun a => Fin.ext ?_)
  match a with
  | ⟨0, _⟩ => show win3_0.index t (0 : Fin 2) * 5000 + 1 * (y 0).val = 5000 * t.val + (y 0).val; omega
  | ⟨1, _⟩ => show win3_0.index t (1 : Fin 2) * 128 + 1 * (y 1).val = (y 1).val; omega

/-- The second input's block at point `t` is rows `5000 t …` of its array. -/
theorem selfBlock3 (c : Dev nD) (t : Fin cfg3.N) :
    iblk3 V c 1 t = SagePoint.rowBlock t.val (rowsIn3 t) (V c main_arg0 : S100000x128.Idx → EReal) := by
  obtain ⟨-, -, e0, e1, -⟩ := blockIndex3 t
  funext y
  show V c main_arg0 (((cfg3.win 1).blk t).view.emb y) = V c main_arg0 _
  refine congrArg _ (funext fun a => Fin.ext ?_)
  match a with
  | ⟨0, _⟩ => show win3_1.index t (0 : Fin 2) * 5000 + 1 * (y 0).val = 5000 * t.val + (y 0).val; omega
  | ⟨1, _⟩ => show win3_1.index t (1 : Fin 2) * 128 + 1 * (y 1).val = (y 1).val; omega

/-- The first weight's block at every point is the whole matrix. -/
theorem leftWeightBlock3 (c : Dev nD) (t : Fin cfg3.N) :
    iblk3 V c 2 t = (V c main_v73 : S128x128.Idx → EReal) := by
  obtain ⟨-, -, -, -, e0, e1, -⟩ := blockIndex3 t
  funext y
  show V c main_v73 (((cfg3.win 2).blk t).view.emb y) = V c main_v73 y
  refine congrArg _ (funext fun a => Fin.ext ?_)
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- The second weight's block at every point is the whole matrix. -/
theorem rightWeightBlock3 (c : Dev nD) (t : Fin cfg3.N) :
    iblk3 V c 3 t = (V c main_v74 : S128x128.Idx → EReal) := by
  obtain ⟨-, -, -, -, -, -, e0, e1, -⟩ := blockIndex3 t
  funext y
  show V c main_v74 (((cfg3.win 3).blk t).view.emb y) = V c main_v74 y
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- The bias's block at every point is the whole vector. -/
theorem biasBlock3 (c : Dev nD) (t : Fin cfg3.N) :
    iblk3 V c 4 t = (V c main_arg14 : S128.Idx → EReal) := by
  obtain ⟨-, -, -, -, -, -, -, -, e0, -⟩ := blockIndex3 t
  funext y
  show V c main_arg14 (((cfg3.win 4).blk t).view.emb y) = V c main_arg14 y
  refine congrArg _ (funext fun a => Fin.ext ?_)
  match a with
  | ⟨0, _⟩ => show win3_4.index t (0 : Fin 1) * 128 + 1 * (y 0).val = (y 0).val; omega

/-- What point `t` writes back is block `t` of the layer of the region's input arrays. -/
theorem flushed3_eq (c : Dev nD) (t : Fin cfg3.N) :
    (dat3 (F := Ideal) V c).flushed 5 t = ((cfg3.win 5).blk t).view.read (Elt Ideal)
      (Cert.Layers.sageP (V c main_v26) (V c main_arg0) (V c main_v73) (V c main_v74) (V c main_arg14)) := by
  show (cfg3.win 5).cut (grid3.coords t) ((dat3 V c).after 5 t) = _
  rw [after3_5]
  unfold out3_5
  rw [View.canon_unit_zero SagePoint.zeroOffsets2]
  simp only [View.ld_unit_zero (S := S5000x128) SagePoint.zeroOffsets2, View.ld_unit_zero (S := S128x128) SagePoint.zeroOffsets2,
    View.ld_unit_zero (S := S128) SagePoint.zeroOffsets1]
  rw [meanBlock3, selfBlock3, leftWeightBlock3, rightWeightBlock3, biasBlock3, SagePoint.pay3_rowBlock]
  obtain ⟨-, -, -, -, -, -, -, -, -, e0, e1⟩ := blockIndex3 t
  funext y
  show Cert.Layers.sageP (V c main_v26) (V c main_arg0) (V c main_v73) (V c main_v74) (V c main_arg14) _
    = Cert.Layers.sageP (V c main_v26) (V c main_arg0) (V c main_v73) (V c main_v74) (V c main_arg14) (((cfg3.win 5).blk t).view.emb y)
  refine congrArg _ (funext fun a => Fin.ext ?_)
  match a with
  | ⟨0, _⟩ => show 5000 * t.val + (y 0).val = win3_5.index t (0 : Fin 2) * 5000 + 1 * (y 0).val; omega
  | ⟨1, _⟩ => show (y 1).val = win3_5.index t (1 : Fin 2) * 128 + 1 * (y 1).val; omega

/-- An index of the output array is in point `t`'s block iff each coordinate is in the block's range on its axis. -/
theorem mem_outBlock3 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v75).slice (win3_5.rect t)).set ↔ _
  rw [View.set_slice_whole, Rect.mem_set_unit]
  exact Iff.rfl

/-- Every point of the grid is some row block's. -/
theorem pointOfBlock3 : ∀ q : Fin 20, ∃ t : Fin cfg3.N, t.val = q.val :=
  fun q => ⟨⟨q.val, by have hN : grid3.N = 20 := N_3; show q.val < grid3.N; omega⟩, rfl⟩

/-- Every index of the output array is in the block of the point `row / 5000`. -/
theorem covered3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := pointOfBlock3 ⟨(i 0).val / 5000, by omega⟩
  have ht' : t.val = (i 0).val / 5000 := ht
  obtain ⟨-, -, -, -, -, -, -, -, -, e0, e1⟩ := blockIndex3 t
  refine ⟨t, flush3_5 t, ?_⟩
  rw [mem_outBlock3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The output array after the run is the layer of the region's input arrays. -/
theorem final3 (V : (c : Dev nD) → (b : Ref sig .tc) → Buf (Elt Ideal) ((c : Thread nD τ).loc b)) (c : Dev nD) :
    (dat3 (F := Ideal) V c).arrAt 5 cfg3.N = Cert.Layers.sageP (V c main_v26) (V c main_arg0) (V c main_v73) (V c main_v74) (V c main_arg14) :=
  (dat3 (F := Ideal) V c).arrAt_eq_of_cover 5 _ (fun t _ => flushed3_eq V c t) (covered3)

end Cert.KernelIdeal.Gen

end
-- ==== Proof.Region4.lean ====
/-
  Graph-convolution region 4: the output array after the run is the whole-array layer of the region's input arrays.

  The grid has 10 points. At point `t` the two row-blocked inputs and the output sit at rows `5000 t … 5000 t + 4999`
  of their arrays, and the two weight matrices and the bias are whole arrays. The body stores the block program's value
  of its five loaded blocks; on row blocks of the arrays that is the row block of the layer (the per-entry module).
  Every row `r` of the output lies in the block of point `r / 5000`, so the blocks written back cover the array and
  the array ends holding the layer.
-/
import proofs.«146746_j61718680044161_1_alg».proof.Proof.Gen.KernelIdeal.Frame
import proofs.«146746_j61718680044161_1_alg».proof.Proof.SagePoint
import Idealize.ShloMosaic.Lib.Pipeline.Value

noncomputable section

namespace Cert.KernelIdeal.Gen

open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The block indices at every point of the grid: the row-blocked windows are at block `(t, 0)`, the whole-array
    windows at block 0. -/
theorem blockIndex4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-- Point `t`'s block of 5000 rows ends inside the 50000 rows. -/
theorem rowsIn4 (t : Fin cfg4.N) : 5000 * t.val + 5000 ≤ 50000 := by
  have hN : grid4.N = 10 := N_4
  have := t.isLt
  show 5000 * t.val + 5000 ≤ 50000
  have h : t.val < grid4.N := t.isLt
  omega

/-- The first input's block at point `t` is rows `5000 t …` of its array. -/
theorem meanBlock4 (c : Dev nD) (t : Fin cfg4.N) :
    iblk4 V c 0 t = SagePoint.rowBlock t.val (rowsIn4 t) (V c main_v45 : S50000x128.Idx → EReal) := by
  obtain ⟨e0, e1, -⟩ := blockIndex4 t
  funext y
  show V c main_v45 (((cfg4.win 0).blk t).view.emb y) = V c main_v45 _
  refine congrArg _ (funext fun a => Fin.ext ?_)
  match a with
  | ⟨0, _⟩ => show win4_0.index t (0 : Fin 2) * 5000 + 1 * (y 0).val = 5000 * t.val + (y 0).val; omega
  | ⟨1, _⟩ => show win4_0.index t (1 : Fin 2) * 128 + 1 * (y 1).val = (y 1).val; omega

/-- The second input's block at point `t` is rows `5000 t …` of its array. -/
theorem selfBlock4 (c : Dev nD) (t : Fin cfg4.N) :
    iblk4 V c 1 t = SagePoint.rowBlock t.val (rowsIn4 t) (V c main_arg1 : S50000x128.Idx → EReal) := by
  obtain ⟨-, -, e0, e1, -⟩ := blockIndex4 t
  funext y
  show V c main_arg1 (((cfg4.win 1).blk t).view.emb y) = V c main_arg1 _
  refine congrArg _ (funext fun a => Fin.ext ?_)
  match a with
  | ⟨0, _⟩ => show win4_1.index t (0 : Fin 2) * 5000 + 1 * (y 0).val = 5000 * t.val + (y 0).val; omega
  | ⟨1, _⟩ => show win4_1.index t (1 : Fin 2) * 128 + 1 * (y 1).val = (y 1).val; omega

/-- The first weight's block at every point is the whole matrix. -/
theorem leftWeightBlock4 (c : Dev nD) (t : Fin cfg4.N) :
    iblk4 V c 2 t = (V c main_v76 : S128x128.Idx → EReal) := by
  obtain ⟨-, -, -, -, e0, e1, -⟩ := blockIndex4 t
  funext y
  show V c main_v76 (((cfg4.win 2).blk t).view.emb y) = V c main_v76 y
  refine congrArg _ (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- The second weight's block at every point is the whole matrix. -/
theorem rightWeightBlock4 (c : Dev nD) (t : Fin cfg4.N) :
    iblk4 V c 3 t = (V c main_v77 : S128x128.Idx → EReal) := by
  obtain ⟨-, -, -, -, -, -, e0, e1, -⟩ := blockIndex4 t
  funext y
  show V c main_v77 (((cfg4.win 3).blk t).view.emb y) = V c main_v77 y
  refine congrArg _ (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- The bias's block at every point is the whole vector. -/
theorem biasBlock4 (c : Dev nD) (t : Fin cfg4.N) :
    iblk4 V c 4 t = (V c main_arg17 : S128.Idx → EReal) := by
  obtain ⟨-, -, -, -, -, -, -, -, e0, -⟩ := blockIndex4 t
  funext y
  show V c main_arg17 (((cfg4.win 4).blk t).view.emb y) = V c main_arg17 y
  refine congrArg _ (funext fun a => Fin.ext ?_)
  match a with
  | ⟨0, _⟩ => show win4_4.index t (0 : Fin 1) * 128 + 1 * (y 0).val = (y 0).val; omega

/-- What point `t` writes back is block `t` of the layer of the region's input arrays. -/
theorem flushed4_eq (c : Dev nD) (t : Fin cfg4.N) :
    (dat4 (F := Ideal) V c).flushed 5 t = ((cfg4.win 5).blk t).view.read (Elt Ideal)
      (Cert.Layers.sageC (V c main_v45) (V c main_arg1) (V c main_v76) (V c main_v77) (V c main_arg17)) := by
  show (cfg4.win 5).cut (grid4.coords t) ((dat4 V c).after 5 t) = _
  rw [after4_5]
  unfold out4_5
  rw [View.canon_unit_zero SagePoint.zeroOffsets2]
  simp only [View.ld_unit_zero (S := S5000x128) SagePoint.zeroOffsets2, View.ld_unit_zero (S := S128x128) SagePoint.zeroOffsets2,
    View.ld_unit_zero (S := S128) SagePoint.zeroOffsets1]
  rw [meanBlock4, selfBlock4, leftWeightBlock4, rightWeightBlock4, biasBlock4, SagePoint.pay4_rowBlock]
  obtain ⟨-, -, -, -, -, -, -, -, -, e0, e1⟩ := blockIndex4 t
  funext y
  show Cert.Layers.sageC (V c main_v45) (V c main_arg1) (V c main_v76) (V c main_v77) (V c main_arg17) _
    = Cert.Layers.sageC (V c main_v45) (V c main_arg1) (V c main_v76) (V c main_v77) (V c main_arg17) (((cfg4.win 5).blk t).view.emb y)
  refine congrArg _ (funext fun a => Fin.ext ?_)
  match a with
  | ⟨0, _⟩ => show 5000 * t.val + (y 0).val = win4_5.index t (0 : Fin 2) * 5000 + 1 * (y 0).val; omega
  | ⟨1, _⟩ => show (y 1).val = win4_5.index t (1 : Fin 2) * 128 + 1 * (y 1).val; omega

/-- An index of the output array is in point `t`'s block iff each coordinate is in the block's range on its axis. -/
theorem mem_outBlock4 (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v78).slice (win4_5.rect t)).set ↔ _
  rw [View.set_slice_whole, Rect.mem_set_unit]
  exact Iff.rfl

/-- Every point of the grid is some row block's. -/
theorem pointOfBlock4 : ∀ q : Fin 10, ∃ t : Fin cfg4.N, t.val = q.val :=
  fun q => ⟨⟨q.val, by have hN : grid4.N = 10 := N_4; show q.val < grid4.N; omega⟩, rfl⟩

/-- Every index of the output array is in the block of the point `row / 5000`. -/
theorem covered4 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ := pointOfBlock4 ⟨(i 0).val / 5000, by omega⟩
  have ht' : t.val = (i 0).val / 5000 := ht
  obtain ⟨-, -, -, -, -, -, -, -, -, e0, e1⟩ := blockIndex4 t
  refine ⟨t, flush4_5 t, ?_⟩
  rw [mem_outBlock4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- The output array after the run is the layer of the region's input arrays. -/
theorem final4 (V : (c : Dev nD) → (b : Ref sig .tc) → Buf (Elt Ideal) ((c : Thread nD τ).loc b)) (c : Dev nD) :
    (dat4 (F := Ideal) V c).arrAt 5 cfg4.N = Cert.Layers.sageC (V c main_v45) (V c main_arg1) (V c main_v76) (V c main_v77) (V c main_arg17) :=
  (dat4 (F := Ideal) V c).arrAt_eq_of_cover 5 _ (fun t _ => flushed4_eq V c t) (covered4)

end Cert.KernelIdeal.Gen

end
-- ==== Proof.Region5.lean ====
/-
  Graph-convolution region 5: the output array after the run is the whole-array layer of the region's input arrays.

  The grid has 10 points. At point `t` the two row-blocked inputs and the output sit at rows `5000 t … 5000 t + 4999`
  of their arrays, and the two weight matrices and the bias are whole arrays. The body stores the block program's value
  of its five loaded blocks; on row blocks of the arrays that is the row block of the layer (the per-entry module).
  Every row `r` of the output lies in the block of point `r / 5000`, so the blocks written back cover the array and
  the array ends holding the layer.
-/
import proofs.«146746_j61718680044161_1_alg».proof.Proof.Gen.KernelIdeal.Frame
import proofs.«146746_j61718680044161_1_alg».proof.Proof.SagePoint
import Idealize.ShloMosaic.Lib.Pipeline.Value

noncomputable section

namespace Cert.KernelIdeal.Gen

open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The block indices at every point of the grid: the row-blocked windows are at block `(t, 0)`, the whole-array
    windows at block 0. -/
theorem blockIndex5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

/-- Point `t`'s block of 5000 rows ends inside the 50000 rows. -/
theorem rowsIn5 (t : Fin cfg5.N) : 5000 * t.val + 5000 ≤ 50000 := by
  have hN : grid5.N = 10 := N_5
  have := t.isLt
  show 5000 * t.val + 5000 ≤ 50000
  have h : t.val < grid5.N := t.isLt
  omega

/-- The first input's block at point `t` is rows `5000 t …` of its array. -/
theorem meanBlock5 (c : Dev nD) (t : Fin cfg5.N) :
    iblk5 V c 0 t = SagePoint.rowBlock t.val (rowsIn5 t) (V c main_v97 : S50000x128.Idx → EReal) := by
  obtain ⟨e0, e1, -⟩ := blockIndex5 t
  funext y
  show V c main_v97 (((cfg5.win 0).blk t).view.emb y) = V c main_v97 _
  refine congrArg _ (funext fun a => Fin.ext ?_)
  match a with
  | ⟨0, _⟩ => show win5_0.index t (0 : Fin 2) * 5000 + 1 * (y 0).val = 5000 * t.val + (y 0).val; omega
  | ⟨1, _⟩ => show win5_0.index t (1 : Fin 2) * 128 + 1 * (y 1).val = (y 1).val; omega

/-- The second input's block at point `t` is rows `5000 t …` of its array. -/
theorem selfBlock5 (c : Dev nD) (t : Fin cfg5.N) :
    iblk5 V c 1 t = SagePoint.rowBlock t.val (rowsIn5 t) (V c main_v78 : S50000x128.Idx → EReal) := by
  obtain ⟨-, -, e0, e1, -⟩ := blockIndex5 t
  funext y
  show V c main_v78 (((cfg5.win 1).blk t).view.emb y) = V c main_v78 _
  refine congrArg _ (funext fun a => Fin.ext ?_)
  match a with
  | ⟨0, _⟩ => show win5_1.index t (0 : Fin 2) * 5000 + 1 * (y 0).val = 5000 * t.val + (y 0).val; omega
  | ⟨1, _⟩ => show win5_1.index t (1 : Fin 2) * 128 + 1 * (y 1).val = (y 1).val; omega

/-- The first weight's block at every point is the whole matrix. -/
theorem leftWeightBlock5 (c : Dev nD) (t : Fin cfg5.N) :
    iblk5 V c 2 t = (V c main_v98 : S128x128.Idx → EReal) := by
  obtain ⟨-, -, -, -, e0, e1, -⟩ := blockIndex5 t
  funext y
  show V c main_v98 (((cfg5.win 2).blk t).view.emb y) = V c main_v98 y
  refine congrArg _ (funext fun a => Fin.ext ?_)
  match a with
  | ⟨0, _⟩ => show win5_2.index t (0 : Fin 2) * 128 + 1 * (y 0).val = (y 0).val; omega
  | ⟨1, _⟩ => show win5_2.index t (1 : Fin 2) * 128 + 1 * (y 1).val = (y 1).val; omega

/-- The second weight's block at every point is the whole matrix. -/
theorem rightWeightBlock5 (c : Dev nD) (t : Fin cfg5.N) :
    iblk5 V c 3 t = (V c main_v99 : S128x128.Idx → EReal) := by
  obtain ⟨-, -, -, -, -, -, e0, e1, -⟩ := blockIndex5 t
  funext y
  show V c main_v99 (((cfg5.win 3).blk t).view.emb y) = V c main_v99 y
  refine congrArg _ (funext fun a => Fin.ext ?_)
  match a with
  | ⟨0, _⟩ => show win5_3.index t (0 : Fin 2) * 128 + 1 * (y 0).val = (y 0).val; omega
  | ⟨1, _⟩ => show win5_3.index t (1 : Fin 2) * 128 + 1 * (y 1).val = (y 1).val; omega

/-- The bias's block at every point is the whole vector. -/
theorem biasBlock5 (c : Dev nD) (t : Fin cfg5.N) :
    iblk5 V c 4 t = (V c main_arg20 : S128.Idx → EReal) := by
  obtain ⟨-, -, -, -, -, -, -, -, e0, -⟩ := blockIndex5 t
  funext y
  show V c main_arg20 (((cfg5.win 4).blk t).view.emb y) = V c main_arg20 y
  refine congrArg _ (funext fun a => Fin.ext ?_)
  match a with
  | ⟨0, _⟩ => show win5_4.index t (0 : Fin 1) * 128 + 1 * (y 0).val = (y 0).val; omega

/-- What point `t` writes back is block `t` of the layer of the region's input arrays. -/
theorem flushed5_eq (c : Dev nD) (t : Fin cfg5.N) :
    (dat5 (F := Ideal) V c).flushed 5 t = ((cfg5.win 5).blk t).view.read (Elt Ideal)
      (Cert.Layers.sageC (V c main_v97) (V c main_v78) (V c main_v98) (V c main_v99) (V c main_arg20)) := by
  show (cfg5.win 5).cut (grid5.coords t) ((dat5 V c).after 5 t) = _
  rw [after5_5]
  unfold out5_5
  rw [View.canon_unit_zero SagePoint.zeroOffsets2]
  simp only [View.ld_unit_zero (S := S5000x128) SagePoint.zeroOffsets2, View.ld_unit_zero (S := S128x128) SagePoint.zeroOffsets2,
    View.ld_unit_zero (S := S128) SagePoint.zeroOffsets1]
  rw [meanBlock5, selfBlock5, leftWeightBlock5, rightWeightBlock5, biasBlock5, SagePoint.pay5_rowBlock]
  obtain ⟨-, -, -, -, -, -, -, -, -, e0, e1⟩ := blockIndex5 t
  funext y
  show Cert.Layers.sageC (V c main_v97) (V c main_v78) (V c main_v98) (V c main_v99) (V c main_arg20) _
    = Cert.Layers.sageC (V c main_v97) (V c main_v78) (V c main_v98) (V c main_v99) (V c main_arg20) (((cfg5.win 5).blk t).view.emb y)
  refine congrArg _ (funext fun a => Fin.ext ?_)
  match a with
  | ⟨0, _⟩ => show 5000 * t.val + (y 0).val = win5_5.index t (0 : Fin 2) * 5000 + 1 * (y 0).val; omega
  | ⟨1, _⟩ => show (y 1).val = win5_5.index t (1 : Fin 2) * 128 + 1 * (y 1).val; omega

/-- An index of the output array is in point `t`'s block iff each coordinate is in the block's range on its axis. -/
theorem mem_outBlock5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v100).slice (win5_5.rect t)).set ↔ _
  rw [View.set_slice_whole, Rect.mem_set_unit]
  exact Iff.rfl

/-- Every point of the grid is some row block's. -/
theorem pointOfBlock5 : ∀ q : Fin 10, ∃ t : Fin cfg5.N, t.val = q.val :=
  fun q => ⟨⟨q.val, by have hN : grid5.N = 10 := N_5; show q.val < grid5.N; omega⟩, rfl⟩

/-- Every index of the output array is in the block of the point `row / 5000`. -/
theorem covered5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ := pointOfBlock5 ⟨(i 0).val / 5000, by omega⟩
  have ht' : t.val = (i 0).val / 5000 := ht
  obtain ⟨-, -, -, -, -, -, -, -, -, e0, e1⟩ := blockIndex5 t
  refine ⟨t, flush5_5 t, ?_⟩
  rw [mem_outBlock5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- The output array after the run is the layer of the region's input arrays. -/
theorem final5 (V : (c : Dev nD) → (b : Ref sig .tc) → Buf (Elt Ideal) ((c : Thread nD τ).loc b)) (c : Dev nD) :
    (dat5 (F := Ideal) V c).arrAt 5 cfg5.N = Cert.Layers.sageC (V c main_v97) (V c main_v78) (V c main_v98) (V c main_v99) (V c main_arg20) :=
  (dat5 (F := Ideal) V c).arrAt_eq_of_cover 5 _ (fun t _ => flushed5_eq V c t) (covered5)

end Cert.KernelIdeal.Gen

end
-- ==== Proof.Region6.lean ====
/-
  The customer encoder's output projection, from blocks to the array.

  The region runs over 10 points. At point `t` the input block is rows `5000 t … 5000 t + 4999` of the 50000 × 128
  input, the weight and the bias are read whole, and the block written back is rows `5000 t … 5000 t + 4999` of the
  50000 × 64 result. Entry (p, q) of the block the body leaves is `∑ k, x[5000 t + p, k] · W[k, q] + b[q]`, which is
  entry (5000 t + p, q) of the whole-array projection. Row `r` of the result is written by point `r / 5000`, so the 10
  blocks cover the array, and the array after the run is the projection of the whole input.
-/
import proofs.«146746_j61718680044161_1_alg».proof.Proof.Gen.KernelIdeal.Frame
import proofs.«146746_j61718680044161_1_alg».proof.Proof.Layers
import proofs.«146746_j61718680044161_1_alg».proof.Proof.LinPoint
import Idealize.ShloMosaic.Lib.Pipeline.Value

noncomputable section

namespace Cert.KernelIdeal.Gen

open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The body reads and writes its blocks from their first entry. -/
theorem origin6_rank2 : (![0, 0] : Fin 2 → Nat) = fun _ => 0 := funext fun a => by fin_cases a <;> rfl
theorem origin6_rank1 : (![0] : Fin 1 → Nat) = fun _ => 0 := funext fun a => by fin_cases a <;> rfl

/-- The block numbers at point `t`: the row-blocked windows sit at block `t` of the rows, the weight and the bias at
    their one block. -/
theorem blockNumbers6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

/-- The input block at point `t` holds rows `5000 t + p` of the input array. -/
theorem rows6_apply (c : Dev nD) (t : Fin cfg6.N) (p : Fin 5000) (k : Fin 128) (r : Fin 50000) (hr : r.val = t.val * 5000 + p.val) :
    (iblk6 V c 0 t : Vec Ideal S5000x128 .f32) (ix2 p k) = (V c main_v100 : S50000x128.Idx → EReal) (ix2 r k) := by
  obtain ⟨e0, e1, -⟩ := blockNumbers6 t
  show V c main_v100 (((cfg6.win 0).blk t).view.emb (ix2 p k)) = V c main_v100 (ix2 r k)
  refine congrArg _ (funext fun a => Fin.ext ?_)
  match a with
  | ⟨0, _⟩ => show win6_0.index t (0 : Fin 2) * 5000 + 1 * p.val = r.val; omega
  | ⟨1, _⟩ => show win6_0.index t (1 : Fin 2) * 128 + 1 * k.val = k.val; omega

/-- The weight block at every point is the weight array. -/
theorem weight6_apply (c : Dev nD) (t : Fin cfg6.N) (k : Fin 128) (q : Fin 64) :
    (iblk6 V c 1 t : Vec Ideal S128x64 .f32) (ix2 k q) = (V c main_v101 : S128x64.Idx → EReal) (ix2 k q) := by
  obtain ⟨-, -, e2, e3, -⟩ := blockNumbers6 t
  show V c main_v101 (((cfg6.win 1).blk t).view.emb (ix2 k q)) = V c main_v101 (ix2 k q)
  refine congrArg _ (funext fun a => Fin.ext ?_)
  match a with
  | ⟨0, _⟩ => show win6_1.index t (0 : Fin 2) * 128 + 1 * k.val = k.val; omega
  | ⟨1, _⟩ => show win6_1.index t (1 : Fin 2) * 64 + 1 * q.val = q.val; omega

/-- The bias block at every point is the bias array. -/
theorem bias6_apply (c : Dev nD) (t : Fin cfg6.N) (q : Fin 64) :
    (iblk6 V c 2 t : Vec Ideal S64 .f32) (ix1 q) = (V c main_arg23 : S64.Idx → EReal) (ix1 q) := by
  obtain ⟨-, -, -, -, e4, -⟩ := blockNumbers6 t
  show V c main_arg23 (((cfg6.win 2).blk t).view.emb (ix1 q)) = V c main_arg23 (ix1 q)
  refine congrArg _ (funext fun a => Fin.ext ?_)
  match a with
  | ⟨0, _⟩ => show win6_2.index t (0 : Fin 1) * 64 + 1 * q.val = q.val; omega

/-- What point `t` writes back is block `t` of the projection of the whole input. -/
theorem flushed6_eq (c : Dev nD) (t : Fin cfg6.N) :
    (dat6 (F := Ideal) V c).flushed 3 t
      = ((cfg6.win 3).blk t).view.read (Elt Ideal) (Cert.Layers.linC (V c main_v100) (V c main_v101) (V c main_arg23)) := by
  show (cfg6.win 3).cut (grid6.coords t) ((dat6 V c).after 3 t) = _
  rw [after6_3]
  unfold out6_3
  rw [View.canon_unit_zero origin6_rank2]
  simp only [View.ld_unit_zero (S := S5000x128) origin6_rank2, View.ld_unit_zero (S := S128x64) origin6_rank2,
    View.ld_unit_zero (S := S64) origin6_rank1]
  obtain ⟨-, -, -, -, -, e5, e6⟩ := blockNumbers6 t
  have hN : t.val < 10 := Nat.lt_of_lt_of_eq t.isLt (show cfg6.N = 10 from N_6)
  funext j
  obtain ⟨p, q, rfl⟩ : ∃ (p : Fin 5000) (q : Fin 64), j = ix2 p q := ⟨j 0, j 1, eq_ix2 j⟩
  have hp : p.val < 5000 := p.isLt
  have hrow : ((cfg6.win 3).blk t).view.emb (ix2 p q) = (ix2 (⟨t.val * 5000 + p.val, by omega⟩ : Fin 50000) q : S50000x64.Idx) := by
    funext a; apply Fin.ext
    match a with
    | ⟨0, _⟩ => show win6_3.index t (0 : Fin 2) * 5000 + 1 * p.val = t.val * 5000 + p.val; omega
    | ⟨1, _⟩ => show win6_3.index t (1 : Fin 2) * 64 + 1 * q.val = q.val; omega
  show k6_pay1 (iblk6 V c 0 t) (iblk6 V c 1 t) (iblk6 V c 2 t) (ix2 p q)
    = Cert.Layers.linC (V c main_v100) (V c main_v101) (V c main_arg23) (((cfg6.win 3).blk t).view.emb (ix2 p q))
  rw [hrow, Cert.LinPoint.pay6_apply, Cert.LinPoint.linC_apply]
  unfold Cert.LinPoint.lin
  rw [bias6_apply]
  refine congrArg₂ (· + ·) (Finset.sum_congr rfl fun k _ => ?_) rfl
  rw [rows6_apply V c t p k ⟨t.val * 5000 + p.val, by omega⟩ rfl, weight6_apply]

/-- An entry of the result is in point `t`'s block iff each coordinate is in the block's range on its axis. -/
theorem mem_block6 (t : Fin cfg6.N) (i : S50000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v102).slice (win6_3.rect t)).set ↔ _
  rw [View.set_slice_whole, Rect.mem_set_unit]
  exact Iff.rfl

/-- Row `r` of the result is written by point `r / 5000`. -/
theorem cover6 (i : S50000x64.Idx) : ∃ t : Fin cfg6.N, (cfg6.win 3).flush t = true ∧ i ∈ ((cfg6.win 3).blk t).view.set := by
  have hi0 : (i 0).val < 50000 := (i 0).isLt
  have hi1 : (i 1).val < 64 := (i 1).isLt
  have hN : cfg6.N = 10 := N_6
  let t : Fin cfg6.N := ⟨(i 0).val / 5000, by rw [hN]; omega⟩
  obtain ⟨-, -, -, -, -, e5, e6⟩ := blockNumbers6 t
  have ht : t.val = (i 0).val / 5000 := rfl
  refine ⟨t, flush6_3 t, ?_⟩
  rw [mem_block6]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 64 ≤ (i 1).val ∧ (i 1).val < win6_3.index t (1 : Fin 2) * 64 + 64; omega

/-- The result array after the run is the projection of the whole input array. -/
theorem final6 (c : Dev nD) :
    (dat6 (F := Ideal) V c).arrAt 3 cfg6.N = Cert.Layers.linC (V c main_v100) (V c main_v101) (V c main_arg23) :=
  (dat6 (F := Ideal) V c).arrAt_eq_of_cover 3 (Cert.Layers.linC (V c main_v100) (V c main_v101) (V c main_arg23))
    (fun t _ => flushed6_eq V c t) cover6

end Cert.KernelIdeal.Gen

end
-- ==== Proof.DecPoint.lean ====
/-
  The edge decoder at one entry.

  For a pair's row `r`, the hidden layer has 64 units: unit `j` holds
  `max ((∑ k, zc[r, k] · Wa[k, j]) + (∑ k, zp[r, k] · Wb[k, j]) + b1[j]) 0`, and the score of the row is
  `∑ j, hidden[r, j] · W2[j, 0] + b2[0]`. On a block of 5000 rows the block body holds this expression at each of its
  entries: the narrowing of the operands of the three products is the identity on the extended reals, each product
  accumulates into the zero block, and each bias is laid as one row repeated down the rows. The whole-array decoder with
  its first product split in two halves holds the same expression at every entry of its 400000 × 1 array. The expression
  at row `r` reads only row `r` of the two code arrays.
-/
import proofs.«146746_j61718680044161_1_alg».proof.Proof.Gen.KernelIdeal.Skeleton
import proofs.«146746_j61718680044161_1_alg».proof.Proof.Layers
import proofs.«146746_j61718680044161_1_alg».proof.Proof.LibPlainMatmul
import proofs.«146746_j61718680044161_1_alg».proof.Proof.LibDenseRead
import proofs.«146746_j61718680044161_1_alg».proof.Proof.LibRowLayout

noncomputable section

open scoped BigOperators

namespace Cert.DecPoint

open Idealize.ShloMosaic Idealize.ShloMosaic.ValueIdx

/-- Hidden unit `j` of row `r`: `max (zc[r,·] · Wa[·,j] + zp[r,·] · Wb[·,j] + b1[j]) 0`. -/
def hidden {n : Nat} (zc zp : (⟨2, ![n, 64]⟩ : Shape).Idx → EReal) (wa wb : (⟨2, ![64, 64]⟩ : Shape).Idx → EReal)
    (b1 : (⟨1, ![64]⟩ : Shape).Idx → EReal) (r : Fin n) (j : Fin 64) : EReal :=
  max (((∑ k : Fin 64, zc (ix2 r k) * wa (ix2 k j)) + ∑ k : Fin 64, zp (ix2 r k) * wb (ix2 k j)) + b1 (ix1 j)) 0

/-- The score of row `r`: `∑ j, hidden[r, j] · W2[j, u] + b2[u]` (the one output column `u`). -/
def score {n : Nat} (zc zp : (⟨2, ![n, 64]⟩ : Shape).Idx → EReal) (wa wb : (⟨2, ![64, 64]⟩ : Shape).Idx → EReal)
    (b1 : (⟨1, ![64]⟩ : Shape).Idx → EReal) (w2 : (⟨2, ![64, 1]⟩ : Shape).Idx → EReal) (b2 : (⟨1, ![1]⟩ : Shape).Idx → EReal)
    (r : Fin n) (u : Fin 1) : EReal :=
  (∑ j : Fin 64, hidden zc zp wa wb b1 r j * w2 (ix2 j u)) + b2 (ix1 u)

/-- The score of a row depends on the row's codes and on the weights only. -/
theorem score_congr {n n' : Nat} (zc zp : (⟨2, ![n, 64]⟩ : Shape).Idx → EReal) (zc' zp' : (⟨2, ![n', 64]⟩ : Shape).Idx → EReal)
    (wa wb wa' wb' : (⟨2, ![64, 64]⟩ : Shape).Idx → EReal) (b1 b1' : (⟨1, ![64]⟩ : Shape).Idx → EReal)
    (w2 w2' : (⟨2, ![64, 1]⟩ : Shape).Idx → EReal) (b2 b2' : (⟨1, ![1]⟩ : Shape).Idx → EReal) (r : Fin n) (r' : Fin n') (u : Fin 1)
    (hc : ∀ k : Fin 64, zc (ix2 r k) = zc' (ix2 r' k)) (hp : ∀ k : Fin 64, zp (ix2 r k) = zp' (ix2 r' k))
    (hwa : ∀ k j : Fin 64, wa (ix2 k j) = wa' (ix2 k j)) (hwb : ∀ k j : Fin 64, wb (ix2 k j) = wb' (ix2 k j))
    (hb1 : ∀ j : Fin 64, b1 (ix1 j) = b1' (ix1 j)) (hw2 : ∀ j : Fin 64, w2 (ix2 j u) = w2' (ix2 j u))
    (hb2 : b2 (ix1 u) = b2' (ix1 u)) :
    score zc zp wa wb b1 w2 b2 r u = score zc' zp' wa' wb' b1' w2' b2' r' u := by
  unfold score hidden
  simp only [hc, hp, hwa, hwb, hb1, hw2, hb2]

/-- The block body of the decoder at an entry of its block. -/
theorem pay7_apply (x0 x1 : Vec Ideal Cert.KernelIdeal.S5000x64 .f32) (x2 x3 : Vec Ideal Cert.KernelIdeal.S64x64 .f32)
    (x4 : Vec Ideal Cert.KernelIdeal.S64 .f32) (x5 : Vec Ideal Cert.KernelIdeal.S64x1 .f32) (x6 : Vec Ideal Cert.KernelIdeal.S1 .f32)
    (p : Fin 5000) (u : Fin 1) :
    Cert.KernelIdeal.Gen.k7_pay1 (F := Ideal) x0 x1 x2 x3 x4 x5 x6 (ix2 p u) = score x0 x1 x2 x3 x4 x5 x6 p u := by
  unfold Cert.KernelIdeal.Gen.k7_pay1
  simp only [shapeCast_self]
  refine congrArg₂ (· + ·) ?_ (RowLayout.keepdimsRow_apply (a := 5000) (b := 1) x6 _ _ p u)
  refine (PlainMatmul.matmul_zero_apply (m := 5000) (k := 64) (n := 1) none
    (truncf .bf16 _ Cert.KernelIdeal.Gen.bitsLt_bf16_f32) (truncf .bf16 x5 Cert.KernelIdeal.Gen.bitsLt_bf16_f32) p u).trans ?_
  refine Finset.sum_congr rfl fun j _ => congrArg (· * x5 (ix2 j u)) ?_
  refine congrArg₂ max (congrArg₂ (· + ·) (congrArg₂ (· + ·) ?_ ?_) (RowLayout.keepdimsRow_apply (a := 5000) (b := 64) x4 _ _ p j))
    Ideal.ofBits_zero_f32
  · exact PlainMatmul.matmul_zero_apply (m := 5000) (k := 64) (n := 64) none
      (truncf .bf16 x0 Cert.KernelIdeal.Gen.bitsLt_bf16_f32) (truncf .bf16 x2 Cert.KernelIdeal.Gen.bitsLt_bf16_f32) p j
  · exact PlainMatmul.matmul_zero_apply (m := 5000) (k := 64) (n := 64) none
      (truncf .bf16 x1 Cert.KernelIdeal.Gen.bitsLt_bf16_f32) (truncf .bf16 x3 Cert.KernelIdeal.Gen.bitsLt_bf16_f32) p j

/-- The whole-array decoder with its first product split, at an entry. -/
theorem decodeSplit_apply (zc zp : FVec Ideal Cert.ReferenceIdeal.S400000x64 .f32) (wa wb : FVec Ideal ⟨2, ![64, 64]⟩ .f32)
    (b1 : FVec Ideal Cert.ReferenceIdeal.S64 .f32) (w2 : FVec Ideal Cert.ReferenceIdeal.S64x1 .f32)
    (b2 : FVec Ideal Cert.ReferenceIdeal.S1 .f32) (r : Fin 400000) (u : Fin 1) :
    Cert.Layers.decodeSplit zc zp wa wb b1 w2 b2 (ix2 r u) = score zc zp wa wb b1 w2 b2 r u := by
  refine congrArg₂ (· + ·) ?_ (DenseRead.biasRows_apply (m := 400000) (n := 1) b2 _ _ r u)
  refine (DenseRead.dotGeneral_apply (m := 400000) (k := 64) (n := 1) none _ _ w2 r u).trans ?_
  refine Finset.sum_congr rfl fun j _ => congrArg (· * w2 (ix2 j u)) ?_
  refine congrArg₂ max (congrArg₂ (· + ·) (congrArg₂ (· + ·) ?_ ?_) (DenseRead.biasRows_apply (m := 400000) (n := 64) b1 _ _ r j))
    (DenseRead.zeroFill_apply _ (ix2 r j))
  · exact DenseRead.dotGeneral_apply (m := 400000) (k := 64) (n := 64) none _ zc wa r j
  · exact DenseRead.dotGeneral_apply (m := 400000) (k := 64) (n := 64) none _ zp wb r j

end Cert.DecPoint

end
-- ==== Proof.Region7.lean ====
/-
  The edge decoder, from blocks to the array.

  The region runs over 80 points. At point `t` the two code blocks are rows `5000 t … 5000 t + 4999` of the two
  400000 × 64 code arrays, the five weight and bias windows are read whole, and the block written back is rows
  `5000 t … 5000 t + 4999` of the 400000 × 1 result. Entry (p, 0) of the block the body leaves is the score of row
  `5000 t + p`, which reads only that row of the two code arrays: it is entry (5000 t + p, 0) of the whole-array decoder
  with its first product split in two halves. Row `r` of the result is written by point `r / 5000`, so the 80 blocks
  cover the array, and the array after the run is that decoder of the whole code arrays.
-/
import proofs.«146746_j61718680044161_1_alg».proof.Proof.Gen.KernelIdeal.Frame
import proofs.«146746_j61718680044161_1_alg».proof.Proof.Layers
import proofs.«146746_j61718680044161_1_alg».proof.Proof.DecPoint
import Idealize.ShloMosaic.Lib.Pipeline.Value

noncomputable section

namespace Cert.KernelIdeal.Gen

open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The body reads and writes its blocks from their first entry. -/
theorem origin7_rank2 : (![0, 0] : Fin 2 → Nat) = fun _ => 0 := funext fun a => by fin_cases a <;> rfl
theorem origin7_rank1 : (![0] : Fin 1 → Nat) = fun _ => 0 := funext fun a => by fin_cases a <;> rfl

/-- The block numbers at point `t`: the row-blocked windows sit at block `t` of the rows, the weights and the biases at
    their one block. -/
theorem blockNumbers7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 1) = 0
    ∧ win7_5.index t (0 : Fin 2) = 0 ∧ win7_5.index t (1 : Fin 2) = 0
    ∧ win7_6.index t (0 : Fin 1) = 0
    ∧ win7_7.index t (0 : Fin 2) = t.val ∧ win7_7.index t (1 : Fin 2) = 0 :=
  (by decide +kernel : ∀ t : Fin grid7.N, _)

/-- The customers' code block at point `t` holds rows `5000 t + p` of the customers' code array. -/
theorem rowsC7_apply (c : Dev nD) (t : Fin cfg7.N) (p : Fin 5000) (k : Fin 64) (r : Fin 400000) (hr : r.val = t.val * 5000 + p.val) :
    (iblk7 V c 0 t : Vec Ideal S5000x64 .f32) (ix2 p k) = (V c main_v113 : S400000x64.Idx → EReal) (ix2 r k) := by
  obtain ⟨e0, e1, -⟩ := blockNumbers7 t
  show V c main_v113 (((cfg7.win 0).blk t).view.emb (ix2 p k)) = V c main_v113 (ix2 r k)
  refine congrArg _ (funext fun a => Fin.ext ?_)
  match a with
  | ⟨0, _⟩ => show win7_0.index t (0 : Fin 2) * 5000 + 1 * p.val = r.val; omega
  | ⟨1, _⟩ => show win7_0.index t (1 : Fin 2) * 64 + 1 * k.val = k.val; omega

/-- The products' code block at point `t` holds rows `5000 t + p` of the products' code array. -/
theorem rowsP7_apply (c : Dev nD) (t : Fin cfg7.N) (p : Fin 5000) (k : Fin 64) (r : Fin 400000) (hr : r.val = t.val * 5000 + p.val) :
    (iblk7 V c 1 t : Vec Ideal S5000x64 .f32) (ix2 p k) = (V c main_v120 : S400000x64.Idx → EReal) (ix2 r k) := by
  obtain ⟨-, -, e0, e1, -⟩ := blockNumbers7 t
  show V c main_v120 (((cfg7.win 1).blk t).view.emb (ix2 p k)) = V c main_v120 (ix2 r k)
  refine congrArg _ (funext fun a => Fin.ext ?_)
  match a with
  | ⟨0, _⟩ => show win7_1.index t (0 : Fin 2) * 5000 + 1 * p.val = r.val; omega
  | ⟨1, _⟩ => show win7_1.index t (1 : Fin 2) * 64 + 1 * k.val = k.val; omega

/-- The first weight's customer half, at every point, is its array. -/
theorem weightA7_apply (c : Dev nD) (t : Fin cfg7.N) (k j : Fin 64) :
    (iblk7 V c 2 t : Vec Ideal S64x64 .f32) (ix2 k j) = (V c main_v123 : S64x64.Idx → EReal) (ix2 k j) := by
  obtain ⟨-, -, -, -, e0, e1, -⟩ := blockNumbers7 t
  show V c main_v123 (((cfg7.win 2).blk t).view.emb (ix2 k j)) = V c main_v123 (ix2 k j)
  refine congrArg _ (funext fun a => Fin.ext ?_)
  match a with
  | ⟨0, _⟩ => show win7_2.index t (0 : Fin 2) * 64 + 1 * k.val = k.val; omega
  | ⟨1, _⟩ => show win7_2.index t (1 : Fin 2) * 64 + 1 * j.val = j.val; omega

/-- The first weight's product half, at every point, is its array. -/
theorem weightB7_apply (c : Dev nD) (t : Fin cfg7.N) (k j : Fin 64) :
    (iblk7 V c 3 t : Vec Ideal S64x64 .f32) (ix2 k j) = (V c main_v124 : S64x64.Idx → EReal) (ix2 k j) := by
  obtain ⟨-, -, -, -, -, -, e0, e1, -⟩ := blockNumbers7 t
  show V c main_v124 (((cfg7.win 3).blk t).view.emb (ix2 k j)) = V c main_v124 (ix2 k j)
  refine congrArg _ (funext fun a => Fin.ext ?_)
  match a with
  | ⟨0, _⟩ => show win7_3.index t (0 : Fin 2) * 64 + 1 * k.val = k.val; omega
  | ⟨1, _⟩ => show win7_3.index t (1 : Fin 2) * 64 + 1 * j.val = j.val; omega

/-- The first bias block at every point is its array. -/
theorem bias1_7_apply (c : Dev nD) (t : Fin cfg7.N) (j : Fin 64) :
    (iblk7 V c 4 t : Vec Ideal S64 .f32) (ix1 j) = (V c main_arg25 : S64.Idx → EReal) (ix1 j) := by
  obtain ⟨-, -, -, -, -, -, -, -, e0, -⟩ := blockNumbers7 t
  show V c main_arg25 (((cfg7.win 4).blk t).view.emb (ix1 j)) = V c main_arg25 (ix1 j)
  refine congrArg _ (funext fun a => Fin.ext ?_)
  match a with
  | ⟨0, _⟩ => show win7_4.index t (0 : Fin 1) * 64 + 1 * j.val = j.val; omega

/-- The second weight block at every point is its array. -/
theorem weight2_7_apply (c : Dev nD) (t : Fin cfg7.N) (j : Fin 64) (u : Fin 1) :
    (iblk7 V c 5 t : Vec Ideal S64x1 .f32) (ix2 j u) = (V c main_v125 : S64x1.Idx → EReal) (ix2 j u) := by
  obtain ⟨-, -, -, -, -, -, -, -, -, e0, e1, -⟩ := blockNumbers7 t
  show V c main_v125 (((cfg7.win 5).blk t).view.emb (ix2 j u)) = V c main_v125 (ix2 j u)
  refine congrArg _ (funext fun a => Fin.ext ?_)
  match a with
  | ⟨0, _⟩ => show win7_5.index t (0 : Fin 2) * 64 + 1 * j.val = j.val; omega
  | ⟨1, _⟩ => show win7_5.index t (1 : Fin 2) * 1 + 1 * u.val = u.val; omega

/-- The second bias block at every point is its array. -/
theorem bias2_7_apply (c : Dev nD) (t : Fin cfg7.N) (u : Fin 1) :
    (iblk7 V c 6 t : Vec Ideal S1 .f32) (ix1 u) = (V c main_arg27 : S1.Idx → EReal) (ix1 u) := by
  obtain ⟨-, -, -, -, -, -, -, -, -, -, -, e0, -⟩ := blockNumbers7 t
  show V c main_arg27 (((cfg7.win 6).blk t).view.emb (ix1 u)) = V c main_arg27 (ix1 u)
  refine congrArg _ (funext fun a => Fin.ext ?_)
  match a with
  | ⟨0, _⟩ => show win7_6.index t (0 : Fin 1) * 1 + 1 * u.val = u.val; omega

/-- What point `t` writes back is block `t` of the split decoder of the whole code arrays. -/
theorem flushed7_eq (c : Dev nD) (t : Fin cfg7.N) :
    (dat7 (F := Ideal) V c).flushed 7 t
      = ((cfg7.win 7).blk t).view.read (Elt Ideal) (Cert.Layers.decodeSplit (V c main_v113) (V c main_v120) (V c main_v123)
          (V c main_v124) (V c main_arg25) (V c main_v125) (V c main_arg27)) := by
  show (cfg7.win 7).cut (grid7.coords t) ((dat7 V c).after 7 t) = _
  rw [after7_7]
  unfold out7_7
  rw [View.canon_unit_zero origin7_rank2]
  simp only [View.ld_unit_zero (S := S5000x64) origin7_rank2, View.ld_unit_zero (S := S64x64) origin7_rank2,
    View.ld_unit_zero (S := S64) origin7_rank1, View.ld_unit_zero (S := S64x1) origin7_rank2,
    View.ld_unit_zero (S := S1) origin7_rank1]
  obtain ⟨-, -, -, -, -, -, -, -, -, -, -, -, e0, e1⟩ := blockNumbers7 t
  have hN : t.val < 80 := Nat.lt_of_lt_of_eq t.isLt (show cfg7.N = 80 from N_7)
  funext j
  obtain ⟨p, u, rfl⟩ : ∃ (p : Fin 5000) (u : Fin 1), j = ix2 p u := ⟨j 0, j 1, eq_ix2 j⟩
  have hp : p.val < 5000 := p.isLt
  have hrow : ((cfg7.win 7).blk t).view.emb (ix2 p u) = (ix2 (⟨t.val * 5000 + p.val, by omega⟩ : Fin 400000) u : S400000x1.Idx) := by
    funext a; apply Fin.ext
    match a with
    | ⟨0, _⟩ => show win7_7.index t (0 : Fin 2) * 5000 + 1 * p.val = t.val * 5000 + p.val; omega
    | ⟨1, _⟩ => show win7_7.index t (1 : Fin 2) * 1 + 1 * u.val = u.val; omega
  show k7_pay1 (iblk7 V c 0 t) (iblk7 V c 1 t) (iblk7 V c 2 t) (iblk7 V c 3 t) (iblk7 V c 4 t) (iblk7 V c 5 t) (iblk7 V c 6 t) (ix2 p u)
    = Cert.Layers.decodeSplit (V c main_v113) (V c main_v120) (V c main_v123) (V c main_v124) (V c main_arg25) (V c main_v125)
        (V c main_arg27) (((cfg7.win 7).blk t).view.emb (ix2 p u))
  rw [hrow, Cert.DecPoint.pay7_apply, Cert.DecPoint.decodeSplit_apply]
  exact Cert.DecPoint.score_congr (iblk7 V c 0 t) (iblk7 V c 1 t) (V c main_v113) (V c main_v120)
    (iblk7 V c 2 t) (iblk7 V c 3 t) (V c main_v123) (V c main_v124) (iblk7 V c 4 t) (V c main_arg25)
    (iblk7 V c 5 t) (V c main_v125) (iblk7 V c 6 t) (V c main_arg27) p ⟨t.val * 5000 + p.val, by omega⟩ u
    (fun k => rowsC7_apply V c t p k _ rfl) (fun k => rowsP7_apply V c t p k _ rfl)
    (fun k j => weightA7_apply V c t k j) (fun k j => weightB7_apply V c t k j) (fun j => bias1_7_apply V c t j)
    (fun j => weight2_7_apply V c t j u) (bias2_7_apply V c t u)

/-- An entry of the result is in point `t`'s block iff each coordinate is in the block's range on its axis. -/
theorem mem_block7 (t : Fin cfg7.N) (i : S400000x1.Idx) :
    i ∈ ((cfg7.win 7).blk t).view.set ↔ ∀ a : Fin 2, win7_7.index t a * S5000x1.size a ≤ (i a).val ∧ (i a).val < win7_7.index t a * S5000x1.size a + S5000x1.size a := by
  show i ∈ ((View.whole main_v126).slice (win7_7.rect t)).set ↔ _
  rw [View.set_slice_whole, Rect.mem_set_unit]
  exact Iff.rfl

/-- Row `r` of the result is written by point `r / 5000`. -/
theorem cover7 (i : S400000x1.Idx) : ∃ t : Fin cfg7.N, (cfg7.win 7).flush t = true ∧ i ∈ ((cfg7.win 7).blk t).view.set := by
  have hi0 : (i 0).val < 400000 := (i 0).isLt
  have hi1 : (i 1).val < 1 := (i 1).isLt
  have hN : cfg7.N = 80 := N_7
  let t : Fin cfg7.N := ⟨(i 0).val / 5000, by rw [hN]; omega⟩
  obtain ⟨-, -, -, -, -, -, -, -, -, -, -, -, e0, e1⟩ := blockNumbers7 t
  have ht : t.val = (i 0).val / 5000 := rfl
  refine ⟨t, flush7_7 t, ?_⟩
  rw [mem_block7]
  intro a
  match a with
  | ⟨0, _⟩ => show win7_7.index t (0 : Fin 2) * 5000 ≤ (i 0).val ∧ (i 0).val < win7_7.index t (0 : Fin 2) * 5000 + 5000; omega
  | ⟨1, _⟩ => show win7_7.index t (1 : Fin 2) * 1 ≤ (i 1).val ∧ (i 1).val < win7_7.index t (1 : Fin 2) * 1 + 1; omega

/-- The result array after the run is the split decoder of the whole code arrays. -/
theorem final7 (c : Dev nD) :
    (dat7 (F := Ideal) V c).arrAt 7 cfg7.N = Cert.Layers.decodeSplit (V c main_v113) (V c main_v120) (V c main_v123) (V c main_v124)
      (V c main_arg25) (V c main_v125) (V c main_arg27) :=
  (dat7 (F := Ideal) V c).arrAt_eq_of_cover 7 (Cert.Layers.decodeSplit (V c main_v113) (V c main_v120) (V c main_v123) (V c main_v124)
      (V c main_arg25) (V c main_v125) (V c main_arg27))
    (fun t _ => flushed7_eq V c t) cover7

end Cert.KernelIdeal.Gen

end
-- ==== Proof.DecoderSplit.lean ====
/-
  The edge decoder's first product, split at the middle of the contraction.

  The decoder multiplies the 400000 × 128 concatenation [zc | zp] by the transpose of the 64 × 128 weight W1. At entry
  (r, j) that product is the sum over k < 128 of [zc | zp][r, k] · W1[j, k]. The first 64 positions read zc[r, k] and the
  left half of row j of W1; the last 64 read zp[r, k] and the right half, W1[j, 64 + k]. So the product is the sum of
  the two half products, zc against the transposed left half and zp against the transposed right half, entry by entry,
  with no rearrangement inside either half sum. Everything the decoder does after this product is the same on both sides.
-/
import proofs.«146746_j61718680044161_1_alg».proof.Proof.Layers
import proofs.«146746_j61718680044161_1_alg».proof.Proof.LibPlainMatmul
import proofs.«146746_j61718680044161_1_alg».proof.Proof.LibDenseRead
import Idealize.ShloMosaic.Lib.Pipeline.Value

noncomputable section

open scoped BigOperators

namespace Cert.Layers

open Idealize.ShloMosaic Idealize.ShloMosaic.ValueIdx Cert.ReferenceIdeal Cert.ReferenceIdeal.Gen

/-- Position `k` of the left half of the contraction. -/
abbrev posL (k : Fin 64) : Fin 128 := ⟨k.val, by omega⟩
/-- Position `k` of the right half of the contraction. -/
abbrev posR (k : Fin 64) : Fin 128 := ⟨64 + k.val, by omega⟩

/-- A sum over 128 positions is the sum over the first 64 plus the sum over the last 64. -/
theorem sum_halves (f : Fin 128 → EReal) : ∑ k : Fin 128, f k = (∑ k : Fin 64, f (posL k)) + ∑ k : Fin 64, f (posR k) :=
  Fin.sum_univ_add (a := 64) (b := 64) f

/-- The concatenation at a left position reads the customers' codes. -/
theorem concat_left (zc zp : FVec Ideal S400000x64 .f32) (r : Fin 400000) (k : Fin 64) :
    concatenate S400000x128 1 [⟨S400000x64, zc⟩, ⟨S400000x64, zp⟩] concatenates_S400000x64_S400000x64_S400000x128_d1 (ix2 r (posL k))
      = zc (ix2 r k) :=
  concatenate_pair_apply_left (1 : Fin S400000x128.rank) zc zp _ (ix2 r (posL k)) rfl (ix2 r k) (fun b => by
    match b with
    | ⟨0, _⟩ => rfl
    | ⟨1, _⟩ => rfl)

/-- The concatenation at a right position reads the products' codes. -/
theorem concat_right (zc zp : FVec Ideal S400000x64 .f32) (r : Fin 400000) (k : Fin 64) :
    concatenate S400000x128 1 [⟨S400000x64, zc⟩, ⟨S400000x64, zp⟩] concatenates_S400000x64_S400000x64_S400000x128_d1 (ix2 r (posR k))
      = zp (ix2 r k) :=
  concatenate_pair_apply_right (1 : Fin S400000x128.rank) zc zp _ (ix2 r (posR k)) rfl rfl (ix2 r k) (fun b hb => by
    match b with
    | ⟨0, _⟩ => rfl
    | ⟨1, _⟩ => exact absurd rfl hb) (by show k.val + 64 = 64 + k.val; omega)

/-- The transposed weight at (k, j) is the weight at (j, k). -/
theorem trO_apply (w : FVec Ideal S64x128 .f32) (k : Fin 128) (j : Fin 64) : trO w (ix2 k j) = w (ix2 j k) :=
  transpose_apply [1, 0] w _ (ix2 k j) (ix2 j k) (fun b => by
    match b with
    | ⟨0, _⟩ => rfl
    | ⟨1, _⟩ => rfl)

/-- The transposed left half of the weight at (k, j) is the weight at (j, k). -/
theorem w1L_apply (w : FVec Ideal S64x128 .f32) (k j : Fin 64) : w1L w (ix2 k j) = w (ix2 j (posL k)) := by
  refine (transpose_apply [1, 0] _ _ (ix2 k j) (ix2 j k) (fun b => by
    match b with
    | ⟨0, _⟩ => rfl
    | ⟨1, _⟩ => rfl)).trans ?_
  refine extractStridedSlice_apply _ w _ (ix2 j k) (ix2 j (posL k)) (fun a => ?_)
  match a with
  | ⟨0, _⟩ => show j.val = 0 + j.val; omega
  | ⟨1, _⟩ => show k.val = 0 + k.val; omega

/-- The transposed right half of the weight at (k, j) is the weight at (j, 64 + k). -/
theorem w1R_apply (w : FVec Ideal S64x128 .f32) (k j : Fin 64) : w1R w (ix2 k j) = w (ix2 j (posR k)) := by
  refine (transpose_apply [1, 0] _ _ (ix2 k j) (ix2 j k) (fun b => by
    match b with
    | ⟨0, _⟩ => rfl
    | ⟨1, _⟩ => rfl)).trans ?_
  refine extractStridedSlice_apply _ w _ (ix2 j k) (ix2 j (posR k)) (fun a => ?_)
  match a with
  | ⟨0, _⟩ => show j.val = 0 + j.val; omega
  | ⟨1, _⟩ => show 64 + k.val = 64 + k.val; rfl

/-- The product of the concatenation with the transposed weight is the sum of the two half products. -/
theorem firstProduct_split (zc zp : FVec Ideal S400000x64 .f32) (w1 : FVec Ideal S64x128 .f32) :
    Host.dotGeneral (F := Ideal) dot_S400000x128_S128x64_S400000x64_1_0_0_1_n_n none
        (concatenate S400000x128 1 [⟨S400000x64, zc⟩, ⟨S400000x64, zp⟩] concatenates_S400000x64_S400000x64_S400000x128_d1) (trO w1)
      = addf (F := Ideal) (Host.dotGeneral (F := Ideal) (DotDims.plain 400000 64 64) none zc (w1L w1))
          (Host.dotGeneral (F := Ideal) (DotDims.plain 400000 64 64) none zp (w1R w1)) := by
  funext i
  obtain ⟨r, j, rfl⟩ : ∃ (r : Fin 400000) (j : Fin 64), i = ix2 r j := ⟨i 0, i 1, eq_ix2 i⟩
  refine (DenseRead.dotGeneral_apply (m := 400000) (k := 128) (n := 64) none _ _ (trO w1) r j).trans ?_
  refine (sum_halves _).trans ?_
  refine congrArg₂ (· + ·) ?_ ?_
  · refine (Finset.sum_congr rfl fun k _ => ?_).trans
      (DenseRead.dotGeneral_apply (m := 400000) (k := 64) (n := 64) none _ zc (w1L w1) r j).symm
    rw [concat_left, trO_apply, w1L_apply]
  · refine (Finset.sum_congr rfl fun k _ => ?_).trans
      (DenseRead.dotGeneral_apply (m := 400000) (k := 64) (n := 64) none _ zp (w1R w1) r j).symm
    rw [concat_right, trO_apply, w1R_apply]

/-- The decoder on the concatenated pair is the decoder with its first product split in the two halves of the weight. -/
theorem decode_eq_split (zc zp : FVec Ideal S400000x64 .f32) (w1 : FVec Ideal S64x128 .f32) (b1 : FVec Ideal S64 .f32)
    (w2 : FVec Ideal S64x1 .f32) (b2 : FVec Ideal S1 .f32) :
    decode zc zp w1 b1 w2 b2 = decodeSplit zc zp (w1L w1) (w1R w1) b1 w2 b2 := by
  unfold decode decodeSplit
  rw [firstProduct_split]

end Cert.Layers

end
-- ==== Proof.KernelValue.lean ====
/-
  The kernel program computes the network.

  Every weakly fair execution of the kernel program terminates without a fault, with its result buffer at the network
  `Layers.out` of the launch contents of the argument arrays and the argument arrays unchanged: the run leaves the result
  buffer at the last segment boundary's contents (KRun.lean), which is the network once each region's array is its layer
  function (Region0 … Region7), the host stretches between them are read (HostValues.lean, Keep.lean, Chain.lean), and
  the decoder's first product is split in its two halves (DecoderSplit.lean).
-/
import proofs.«146746_j61718680044161_1_alg».proof.Proof.KRun
import proofs.«146746_j61718680044161_1_alg».proof.Proof.Chain
import proofs.«146746_j61718680044161_1_alg».proof.Proof.Region0
import proofs.«146746_j61718680044161_1_alg».proof.Proof.Region1
import proofs.«146746_j61718680044161_1_alg».proof.Proof.Region2
import proofs.«146746_j61718680044161_1_alg».proof.Proof.Region3
import proofs.«146746_j61718680044161_1_alg».proof.Proof.Region4
import proofs.«146746_j61718680044161_1_alg».proof.Proof.Region5
import proofs.«146746_j61718680044161_1_alg».proof.Proof.Region6
import proofs.«146746_j61718680044161_1_alg».proof.Proof.Region7
import proofs.«146746_j61718680044161_1_alg».proof.Proof.DecoderSplit

set_option maxRecDepth 16384

noncomputable section

namespace Cert.KernelIdeal.Gen

open Idealize.ShloMosaic Idealize.ShloMosaic.TcCoe Idealize.SL.Sem

/-- The kernel program's run: the result is the network of the argument arrays, the arguments end as launched. -/
theorem run_out (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v126) = Cert.Layers.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c =>
      ⟨(h c).1.trans (result_value m ρ final0 final1 final2 final3 final4 final5 final6 final7 Cert.Layers.decode_eq_split c), (h c).2⟩)
    (run_value m ρ)

end Cert.KernelIdeal.Gen

end
-- ==== Proof.RefValue.lean ====
/-
  The reference program's result is the network of Layers.lean.

  The reference's run ends with its result buffer at the composed term of its host operations of the argument arrays.
  That term is, operation for operation, the network `Layers.out`: the same gathers, scatter-adds, clipped counts,
  quotients, transposes, products, biases, maxima and the final concatenation, nested in the same order; the named
  functions of Layers.lean are that term cut into its layers.
-/
import proofs.«146746_j61718680044161_1_alg».proof.Proof.Gen.ReferenceIdeal.Run
import proofs.«146746_j61718680044161_1_alg».proof.Proof.Layers

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Value

/-- The reference run's result term is the network of the argument arrays. -/
theorem result_eq (m : (ℓ : Loc nD τ sig) → Buf (Elt Ideal) ℓ) (c : Dev nD) :
    res_main_v187 (F := Ideal) m c = Cert.Layers.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  unfold res_main_v187 Cert.Layers.out Cert.Layers.decode Cert.Layers.gatherC Cert.Layers.gatherP Cert.Layers.linC Cert.Layers.linP
    Cert.Layers.sageC Cert.Layers.sageP Cert.Layers.p1 Cert.Layers.meanPC Cert.Layers.meanPP Cert.Layers.meanPCv Cert.Layers.meanPPv
    Cert.Layers.sageP Cert.Layers.tr Cert.Layers.trO Cert.Layers.trW2 Cert.Layers.wrapPair Cert.Layers.pairRow Cert.Layers.colOf
    Cert.Layers.wrapRowP Cert.Layers.edgeRow
  rfl

end Cert.ReferenceIdeal.RefValue

end
-- ==== Proof.lean ====
/-
  The certificate: the Pallas heterogeneous graph network against its jnp reference.

  The kernel program runs eight tiled pallas regions — five graph-convolution layers `relu (mean · Wl + b + x · Wr)`,
  the two encoders' output projections, and the fused edge decoder — between host stretches that gather, scatter-add
  and normalise the neighbour means. The reference computes the same network with whole-array products. At the extended
  reals both results are the one function `Layers.out` of the 28 argument arrays: a tiled product is the whole product
  restricted to the tile, the sums `(a·Wl + x·Wr) + b` and `(a·Wl + b) + x·Wr` agree by commutativity and associativity
  of addition (no finiteness is needed), and the decoder's product against the concatenated pair `[zc | zp]` is the sum
  of the products against the two halves of its weight. The ideal pass rewrote nothing, so `preserves` is trivial; the
  two kernel frames are the generated ones, and the reference's frame is its run with the result dropped.
-/
import proofs.«146746_j61718680044161_1_alg».proof.Defs
import proofs.«146746_j61718680044161_1_alg».proof.Proof.Gen.Kernel
import proofs.«146746_j61718680044161_1_alg».proof.Proof.Gen.Kernel.Skeleton
import proofs.«146746_j61718680044161_1_alg».proof.Proof.Gen.Kernel.Launch
import proofs.«146746_j61718680044161_1_alg».proof.Proof.Gen.Kernel.Points
import proofs.«146746_j61718680044161_1_alg».proof.Proof.Gen.Kernel.Frame
import proofs.«146746_j61718680044161_1_alg».proof.Proof.Gen.KernelIdeal
import proofs.«146746_j61718680044161_1_alg».proof.Proof.Gen.KernelIdeal.Skeleton
import proofs.«146746_j61718680044161_1_alg».proof.Proof.Gen.KernelIdeal.Launch
import proofs.«146746_j61718680044161_1_alg».proof.Proof.Gen.KernelIdeal.Points
import proofs.«146746_j61718680044161_1_alg».proof.Proof.Gen.KernelIdeal.Frame
import proofs.«146746_j61718680044161_1_alg».proof.Proof.Gen.ReferenceIdeal
import proofs.«146746_j61718680044161_1_alg».proof.Proof.Gen.ReferenceIdeal.Run
import proofs.«146746_j61718680044161_1_alg».proof.Proof.Gen.Pre_finite_inputs
import proofs.«146746_j61718680044161_1_alg».proof.Proof.KernelValue
import proofs.«146746_j61718680044161_1_alg».proof.Proof.RefValue
import Idealize.ShloMosaic.Adequacy
import Idealize.ShloMosaic.Init

set_option maxRecDepth 16384

noncomputable section

namespace Cert.Proof

open Idealize.ShloMosaic Idealize.SL.Sem

/-- The word-level kernel's frame: generated. -/
theorem frame_kernel : @Cert.frame_Kernel Cert.Kernel.Gen.facts Cert.Pre_finite_inputs.Gen.facts :=
  fun m ρ _ => Cert.Kernel.Gen.frame m ρ

/-- The idealized kernel's frame: generated. -/
theorem frame_kernelIdeal : @Cert.frame_KernelIdeal Cert.KernelIdeal.Gen.facts Cert.Pre_finite_inputs.Gen.facts :=
  fun m ρ _ => Cert.KernelIdeal.Gen.frame m ρ

/-- The reference's frame: its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both programs end with the network of the arguments as their result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Layers.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)), Cert.KernelIdeal.Gen.run_out m ρ, ?_⟩
  refine (θ_run Cert.ReferenceIdeal.defs _ _).mono (fun _ h c => ⟨(h c).1.trans ((Cert.ReferenceIdeal.RefValue.result_eq m' c).trans ?_), (h c).2⟩)
    (Cert.ReferenceIdeal.Value.run (F := Ideal) m' ρ')
  obtain ⟨e0, e1, e2, e3, e4, e5, e6, e7, e8, e9, e10, e11, e12, e13, e14, e15, e16, e17, e18, e19, e20, e21, e22, e23, e24, e25, e26, e27⟩ := hagree c
  rw [e0, e1, e2, e3, e4, e5, e6, e7, e8, e9, e10, e11, e12, e13, e14, e15, e16, e17, e18, e19, e20, e21, e22, e23, e24, e25, e26, e27]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
